-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x8192 .f32) (main_arg1 : FVec F S8192x128 .f32) (main_arg2 : FVec F S128x128 .f32) (main_arg3 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S8192x1 : Shape := ⟨2, ![8192, 1]⟩
abbrev S_ : Shape := ⟨0, ![]⟩
abbrev S1024x1024 : Shape := ⟨2, ![1024, 1024]⟩
abbrev S1024x128 : Shape := ⟨2, ![1024, 128]⟩

abbrev nBuf : Space → Nat
  | .hbm => 32
  | .vmem => 15
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S8192x128, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x128, .f32⟩
  | .hbm, ⟨30, _⟩ => ⟨S8192x128, .f32⟩
  | .hbm, ⟨31, _⟩ => ⟨S8192x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  shapeCasts_S512x1_S512x1 : S512x1.ShapeCasts S512x1
  broadcasts_S512x1_S512x128 : S512x1.Broadcasts S512x128
  iota_S512x512_d0_w32 : S512x512.Iotas .tc 32 [0]
  iota_S512x512_d1_w32 : S512x512.Iotas .tc 32 [1]
  slices_S8192x128_S8192x1_0_0 : S8192x128.Slices ![0, 0] S8192x1
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  dot_S8192x128_S128x128_S8192x128_1_0_0_1_n_n_wf : DotDims.WF S8192x128 S128x128 S8192x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x8192.size a
  hwx0_0 : ∀ i : grid0.Coords, EltTy.bits .f32 = 32 ∨ (Rect.block (s := S8192x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4_0) S512x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_1) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond3 i == 1#1) | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1x8192 : Shape := ⟨2, ![1, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S8192x128, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x1, .i32⟩
  | .hbm, ⟨25, _⟩ => ⟨S8192x2, .i32⟩
  | .hbm, ⟨26, _⟩ => ⟨S_, .f32⟩
  | .hbm, ⟨27, _⟩ => ⟨S8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x128_S128x128_S8192x128_1_0_0_1_n_n_wf : DotDims.WF S8192x128 S128x128 S8192x128 [1] [0] [0] [1] [] []
  scatter_S8192x8192_S8192x2_S8192_n_01_01_1_wf : ScatterDims.WF S8192x8192 S8192x2 S8192 [] [0, 1] [0, 1] 1
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Dat0.lean ====
/-
  The first kernel region (the row-sum and diagonal pass over the adjacency array), as data for the
  pipeline rule: what its two carried accumulators hold after each grid point, what each window's
  staging buffer holds after the body, and the invariant between points.

  The grid is 16 x 16, point t = 16·i + j. At a point the body (a) clears both accumulators when j = 0,
  (b) adds the row sums of the 512 x 512 block (i, j) of the array to the first accumulator, (c) when
  i = j adds the block's own diagonal (the row sums of the block masked to its diagonal) to the second,
  and (d) when j = 15 copies the two accumulators to the two output blocks of block row i.
-/
import proofs.«157629_j28613072126264_1_alg».proof.Proof.Gen.KernelIdeal.Launch
import proofs.«157629_j28613072126264_1_alg».proof.Proof.Gen.KernelIdeal.Skeleton
import proofs.«157629_j28613072126264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 512 x 512 block of the adjacency array the body loads at point `t`. -/
def blkA0 (c : Dev nD) (t : Fin cfg0.N) : Vec F S512x512 .f32 := iblk0 V c 0 t

/-- The two accumulators as whole memrefs. -/
abbrev scM0_0 : Memref sig .tc .vmem S512x128 .f32 := Memref.whole cc0_scratch0
abbrev scM0_1 : Memref sig .tc .vmem S512x128 .f32 := Memref.whole cc0_scratch1

/-- One point's effect on the pair of accumulators: at point number `n` with block `x`, from the pair `s` the
    point before left. The first is cleared when `n % 16 = 0` and then gets the block's row sums added; the second
    is cleared at the same points and gets the block's diagonal added when `n / 16 = n % 16`. -/
def step0 (x : Vec F S512x512 .f32) (n : ℕ) (s : Vec F S512x128 .f32 × Vec F S512x128 .f32) :
    Vec F S512x128 .f32 × Vec F S512x128 .f32 :=
  (k0_pay3 x (if n % 16 = 0 then k0_pay1 (F := F) else s.1),
   if n / 16 = n % 16 then k0_pay4 x (if n % 16 = 0 then k0_pay2 (F := F) else s.2)
   else (if n % 16 = 0 then k0_pay2 (F := F) else s.2))

/-- The accumulators after point `n`, by recursion on the point (the first point clears them, so what stands
    in for their contents before it is never read). -/
def scr0 (c : Dev nD) : (n : ℕ) → n < cfg0.N → Vec F S512x128 .f32 × Vec F S512x128 .f32
  | 0, h => step0 (blkA0 V c ⟨0, h⟩) 0 (k0_pay1 (F := F), k0_pay2 (F := F))
  | n + 1, h => step0 (blkA0 V c ⟨n + 1, h⟩) (n + 1) (scr0 c n (Nat.lt_of_succ_lt h))

theorem scr0_zero (c : Dev nD) (h : 0 < cfg0.N) :
    scr0 V c 0 h = step0 (blkA0 V c ⟨0, h⟩) 0 (k0_pay1 (F := F), k0_pay2 (F := F)) := rfl
theorem scr0_succ (c : Dev nD) (n : ℕ) (h : n + 1 < cfg0.N) :
    scr0 V c (n + 1) h = step0 (blkA0 V c ⟨n + 1, h⟩) (n + 1) (scr0 V c n (Nat.lt_of_succ_lt h)) := rfl

/-- The scoped buffers that belong to the other kernel region, each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The invariant before point `n`: before the first point everything scoped outside the pipeline at some
    contents and the generator register at some state; afterwards the same with the two accumulators at what the
    point before left. -/
def Phi0 (c : Dev nD) : (n : ℕ) → n ≤ cfg0.N → sProp 𝕄
  | 0, _ => Pipeline.ΦA spec0 c
  | n + 1, h => iprop((owns (c : Thread nD τ) scM0_0 fullShare (scr0 V c n h).1
      ∗ owns (c : Thread nD τ) scM0_1 fullShare (scr0 V c n h).2 ∗ rest0 c) ∗ (∃ r, prngReg c r))

/-- The pipeline's proof data on core `c`: the arrays as the region finds them; after the body at point `t` the
    input's buffer at its block and the two outputs' at the two accumulators (read only where the point writes
    the block back: at the last column of the grid); the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (scr0 V c t.val t.isLt).1
    | ⟨2, _⟩ => (scr0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = (scr0 V c t.val t.isLt).1 := by dsimp only [dat0]
theorem after0_2 (c : Dev nD) (t : Fin cfg0.N) : (dat0 V c).after 2 t = (scr0 V c t.val t.isLt).2 := by dsimp only [dat0]

end Cert.KernelIdeal.Hand

end
-- ==== Proof.Dat1.lean ====
/-
  The second kernel region (the adjacency array against the scaled features, tile by tile), as data for
  the pipeline rule: what its carried accumulator holds after each grid point, what each window's staging
  buffer holds after the body, and the invariant between points.

  The grid is 8 x 8, point t = 8·i + k. At a point the body clears the accumulator when k = 0, adds the product of
  the 1024 x 1024 block (i, k) of the array with the 1024 x 128 block k of the scaled features, and when k = 7
  copies the accumulator to output block i.
-/
import proofs.«157629_j28613072126264_1_alg».proof.Proof.Gen.KernelIdeal.Launch
import proofs.«157629_j28613072126264_1_alg».proof.Proof.Gen.KernelIdeal.Skeleton
import proofs.«157629_j28613072126264_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of the adjacency array and the block of the scaled features the body loads at point `t`. -/
def blkA1 (c : Dev nD) (t : Fin cfg1.N) : Vec F S1024x1024 .f32 := iblk1 V c 0 t
def blkU1 (c : Dev nD) (t : Fin cfg1.N) : Vec F S1024x128 .f32 := iblk1 V c 1 t

/-- The accumulator as a whole memref. -/
abbrev scM1_0 : Memref sig .tc .vmem S1024x128 .f32 := Memref.whole cc1_scratch0

/-- One point's effect on the accumulator: at point number `n`, from what the point before left: cleared when
    `n % 8 = 0`, then the product of the two blocks added. -/
def step1 (a : Vec F S1024x1024 .f32) (u : Vec F S1024x128 .f32) (n : ℕ) (s : Vec F S1024x128 .f32) : Vec F S1024x128 .f32 :=
  k1_pay2 a u (if n % 8 = 0 then k1_pay1 (F := F) else s)

/-- The accumulator after point `n`, by recursion on the point (the first point clears it, so what stands in for
    its contents before it is never read). -/
def scr1 (c : Dev nD) : (n : ℕ) → n < cfg1.N → Vec F S1024x128 .f32
  | 0, h => step1 (blkA1 V c ⟨0, h⟩) (blkU1 V c ⟨0, h⟩) 0 (k1_pay1 (F := F))
  | n + 1, h => step1 (blkA1 V c ⟨n + 1, h⟩) (blkU1 V c ⟨n + 1, h⟩) (n + 1) (scr1 c n (Nat.lt_of_succ_lt h))

theorem scr1_zero (c : Dev nD) (h : 0 < cfg1.N) :
    scr1 V c 0 h = step1 (blkA1 V c ⟨0, h⟩) (blkU1 V c ⟨0, h⟩) 0 (k1_pay1 (F := F)) := rfl
theorem scr1_succ (c : Dev nD) (n : ℕ) (h : n + 1 < cfg1.N) :
    scr1 V c (n + 1) h = step1 (blkA1 V c ⟨n + 1, h⟩) (blkU1 V c ⟨n + 1, h⟩) (n + 1) (scr1 V c n (Nat.lt_of_succ_lt h)) := rfl

/-- The invariant before point `n`: before the first point everything scoped outside the pipeline at some
    contents and the generator register at some state; afterwards the same — the other region's eight scoped
    buffers each whole at some contents — with the accumulator at what the point before left. -/
def Phi1 (c : Dev nD) : (n : ℕ) → n ≤ cfg1.N → sProp 𝕄
  | 0, _ => Pipeline.ΦA spec1 c
  | n + 1, h => iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ owns (c : Thread nD τ) scM1_0 fullShare (scr1 V c n h)) ∗ (∃ r, prngReg c r))

/-- The pipeline's proof data on core `c`: the arrays as the region finds them; after the body at point `t` each
    input's buffer at its block and the output's at the accumulator (read only where the point writes the block
    back: at the last column of the grid); the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scr1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scr1 V c t.val t.isLt := by dsimp only [dat1]

end Cert.KernelIdeal.Hand

end
-- ==== Proof.Main.lean ====
/-
  The whole program as five segments — host operations, the first kernel region, host operations, the
  second kernel region, host operations — run from the launch memory to the end: every weakly fair
  execution terminates without a fault, and at the end every unscoped buffer holds what the fold of the
  segments over the launch memory gives it. A kernel region changes only its output arrays, which end at
  the write-backs of its accumulators; a host stretch applies its operations in order.
  The body obligations of the two regions and the entry and exit forms of their invariants are taken as
  hypotheses here (they are proved in the two regions' own modules).
-/
import proofs.«157629_j28613072126264_1_alg».proof.Proof.Dat0
import proofs.«157629_j28613072126264_1_alg».proof.Proof.Dat1
import proofs.«157629_j28613072126264_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev B0 : Dev nD → Valuation τ sig (Elt F) := fun c b => (s₀ m ρ).mem ((c : Dev nD), b)
/-- After the first host stretch (the first region's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the second region's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second region's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- After the last host stretch: the end. -/
abbrev B5 : Dev nD → Valuation τ sig (Elt F) := fun c => StableHlo.after hostOps2 (B4 m ρ c)

/-! ## The proof data family and the thread state -/

abbrev admH : (p : Fin 2) → (pcfgs (F := F) p).Adm := fun p => (cfgs p).toPCfg_adm
/-- Every pipeline's proof data, each at its region's entry contents. -/
def pdatsH : (p : Fin 2) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
abbrev kV : Variants := Variants.none
abbrev kL : GSem nD τ sig → Finset Unit := fun _ => ∅
abbrev klv : GSem nD τ sig → Unit → ℕ := fun _ _ => 0
/-- What rides beside the buffers through every segment: the generator register at some state and the core owing
    nothing. -/
abbrev kR (c : Dev nD) : sProp 𝕄 := iprop((∃ r, prngReg c r) ∗ ∃ W, owes (c : Thread nD τ) (0 : CellTallies nD τ sig Unit) W)
/-- A host stretch as a segment, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ kV kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues. -/
abbrev Tlast (c : Dev nD) : sProp 𝕄 := iprop(StableHlo.held (c : Thread nD τ) (Pipeline.ucRefs τ sig) (B5 m ρ c) ∗ ∃ r, prngReg c r)

/-! ## The regions as segments -/

section Regs

/-- What the two regions' own modules prove, as propositions: the body obligation at every point, the invariant
    entered from the scoped rest and the generator register, and those given back after the last point. -/
abbrev HB0 (F : FTy → Type) [FloatOps F] : Prop := ∀ (V : (c : Dev nD) → (b : Ref sig .tc) → Buf (Elt F) ((c : Thread nD τ).loc b)) (c : Dev nD),
    BodyObligation (dat0 (F := F) V c) (defs₀ (F := F)) Variants.none () Set.univ
abbrev HI0 (F : FTy → Type) [FloatOps F] : Prop := ∀ (V : (c : Dev nD) → (b : Ref sig .tc) → Buf (Elt F) ((c : Thread nD τ).loc b)) (c : Dev nD),
    (Pipeline.ΦA spec0 c : sProp (MT nD τ sig Unit (Elt F) ℕ (UR sig nD τ) ℕ)) ⊢ (dat0 V c).Φ 0
abbrev HO0 (F : FTy → Type) [FloatOps F] : Prop := ∀ (V : (c : Dev nD) → (b : Ref sig .tc) → Buf (Elt F) ((c : Thread nD τ).loc b)) (c : Dev nD),
    (dat0 V c).Φ (Fin.last cfg0.N) ⊢ (Pipeline.ΦA spec0 c : sProp (MT nD τ sig Unit (Elt F) ℕ (UR sig nD τ) ℕ))
abbrev HB1 (F : FTy → Type) [FloatOps F] : Prop := ∀ (V : (c : Dev nD) → (b : Ref sig .tc) → Buf (Elt F) ((c : Thread nD τ).loc b)) (c : Dev nD),
    BodyObligation (dat1 (F := F) V c) (defs₀ (F := F)) Variants.none () Set.univ
abbrev HI1 (F : FTy → Type) [FloatOps F] : Prop := ∀ (V : (c : Dev nD) → (b : Ref sig .tc) → Buf (Elt F) ((c : Thread nD τ).loc b)) (c : Dev nD),
    (Pipeline.ΦA spec1 c : sProp (MT nD τ sig Unit (Elt F) ℕ (UR sig nD τ) ℕ)) ⊢ (dat1 V c).Φ 0
abbrev HO1 (F : FTy → Type) [FloatOps F] : Prop := ∀ (V : (c : Dev nD) → (b : Ref sig .tc) → Buf (Elt F) ((c : Thread nD τ).loc b)) (c : Dev nD),
    (dat1 V c).Φ (Fin.last cfg1.N) ⊢ (Pipeline.ΦA spec1 c : sProp (MT nD τ sig Unit (Elt F) ℕ (UR sig nD τ) ℕ))

set_option backward.isDefEq.respectTransparency.types false in
/-- The first region over the thread state: entered from every unscoped buffer at `B1`, left at `B2`. -/
def reg0 (hb0 : HB0 F) (hi0 : HI0 F) (ho0 : HO0 F) : Pipeline.RegionSeg (pcfgs (F := F)) admH (pdatsH m ρ) () defs₀ kV kL klv 0 where
  win := launch0.win.to₀
  block_pos := launch0.block_pos
  stage_whole := launch0.stage_whole
  K := PEmpty
  osem k := k.elim
  ho := Pipeline.OwnSemFacts.none _
  hbody c := (hb0 (E1 m ρ) c).loose
  hwaits := Pipeline.hwaits_of_owed_zero _ _ _ _ kL klv 0 fun _ _ => rfl
  pre c := iprop(StableHlo.held (c : Thread nD τ) (Pipeline.ucRefs τ sig) (B1 m ρ c) ∗ kR c)
  post c := iprop(StableHlo.held (c : Thread nD τ) (Pipeline.ucRefs τ sig) (B2 m ρ c) ∗ kR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hi0 (E1 m ρ) c)
    unfold Pipeline.ΦA
    iintro ⟨Hp, -, Hr⟩
    isplitl [Hr]; · iexact Hr
    iexact Hp
  hout c := by
    rw [Pipeline.ownSems0_none]
    refine (ho0 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E1 m ρ c) (E2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `B3`, left at `B4`. -/
def reg1 (hb1 : HB1 F) (hi1 : HI1 F) (ho1 : HO1 F) : Pipeline.RegionSeg (pcfgs (F := F)) admH (pdatsH m ρ) () defs₀ kV kL klv 1 where
  win := launch1.win.to₀
  block_pos := launch1.block_pos
  stage_whole := launch1.stage_whole
  K := PEmpty
  osem k := k.elim
  ho := Pipeline.OwnSemFacts.none _
  hbody c := (hb1 (E3 m ρ) c).loose
  hwaits := Pipeline.hwaits_of_owed_zero _ _ _ _ kL klv 1 fun _ _ => rfl
  pre c := iprop(StableHlo.held (c : Thread nD τ) (Pipeline.ucRefs τ sig) (B3 m ρ c) ∗ kR c)
  post c := iprop(StableHlo.held (c : Thread nD τ) (Pipeline.ucRefs τ sig) (B4 m ρ c) ∗ kR c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hi1 (E3 m ρ) c)
    unfold Pipeline.ΦA
    iintro ⟨Hp, -, Hr⟩
    isplitl [Hr]; · iexact Hr
    iexact Hp
  hout c := by
    rw [Pipeline.ownSems0_none]
    refine (ho1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E3 m ρ c) (E4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH (hb0 : HB0 F) (hi0 : HI0 F) (ho0 : HO0 F) (hb1 : HB1 F) (hi1 : HI1 F) (ho1 : HO1 F) : List (Pipeline.Seg (pcfgs (F := F)) admH (pdatsH m ρ) () defs₀ kV kL klv) :=
  [ .host (hsegH hostOps0 hostOps0_sub hostOps0_fresh (B0 m ρ)),
    .region (reg0 m ρ hb0 hi0 ho0),
    .host (hsegH hostOps1 hostOps1_sub hostOps1_fresh (B2 m ρ)),
    .region (reg1 m ρ hb1 hi1 ho1),
    .host (hsegH hostOps2 hostOps2_sub hostOps2_fresh (B4 m ρ)) ]

theorem main_runH (hb0 : HB0 F) (hi0 : HI0 F) (ho0 : HO0 F) (hb1 : HB1 F) (hi1 : HI1 F) (ho1 : HO1 F) (c : Dev nD) : main (F := F) c = Pipeline.Seg.run (segsH m ρ hb0 hi0 ho0 hb1 hi1 ho1) :=
  (main_chain c).trans (by chain_rfl)

set_option backward.isDefEq.respectTransparency.types false in
/-- From any memory with zero counters every weakly fair execution of the program terminates without a fault, and
    at the end every unscoped buffer of core `c` holds `B5 m ρ c` of it. -/
theorem run_all (hb0 : HB0 F) (hi0 : HI0 F) (ho0 : HO0 F) (hb1 : HB1 F) (hi1 : HI1 F) (ho1 : HO1 F) : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) admH (pdatsH m ρ) () cellOf_inj emb₁ defs₀ kV kL klv m ρ main (segsH m ρ hb0 hi0 ho0 hb1 hi1 ho1)
    (fun c Q => by rw [main_runH m ρ hb0 hi0 ho0 hb1 hi1 ho1 c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ kR c)) (Tₙ := Tlast m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ kR c) ⊢ _
      iintro ⟨Hh, Hp, HO⟩
      isplitl [Hh Hp]
      · isplitl [Hh]; · iexact Hh
        iexact Hp
      iexact HO⟩)
    (hinit := by
      refine Pipeline.initEach kL klv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Regs

end Cert.KernelIdeal.Hand

end
-- ==== Proof.Frame.lean ====
/-
  What the run leaves in the buffers no segment writes: the four arguments end as launched. A host stretch
  leaves every buffer it does not write; a kernel region leaves every buffer that is not one of its arrays,
  and leaves an input array as it found it.
-/
import proofs.«157629_j28613072126264_1_alg».proof.Proof.Main

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

theorem B1_keep (c : Dev nD) (r : Ref sig .tc) (h : r ∉ hostOps0_W) : B1 m ρ c (Proc.devRef .tc r) = m ((c : Thread nD τ).loc r) :=
  StableHlo.after_of_writes_sub hostOps0 _ hostOps0_writes h
theorem B2_arg0 (c : Dev nD) : B2 m ρ c (Proc.devRef .tc main_arg0) = m ((c : Thread nD τ).loc main_arg0) :=
  (B2_arr m ρ c 0).trans (((dat0 (E1 m ρ) c).arrAt_in 0 rfl _).trans ((A_eq0 (E1 m ρ) c 0).trans (B1_keep m ρ c main_arg0 (by decide))))
theorem B2_keep (c : Dev nD) (r : Ref sig .tc) (h0 : ∀ w, Pipeline.arrRef spec0 w ≠ r) (h : r ∉ hostOps0_W) :
    B2 m ρ c (Proc.devRef .tc r) = m ((c : Thread nD τ).loc r) :=
  (B2_of_ne m ρ c r h0).trans (B1_keep m ρ c r h)
theorem B3_keep (c : Dev nD) (r : Ref sig .tc) (h : r ∉ hostOps1_W) : B3 m ρ c (Proc.devRef .tc r) = B2 m ρ c (Proc.devRef .tc r) :=
  StableHlo.after_of_writes_sub hostOps1 _ hostOps1_writes h
theorem B4_arg0 (c : Dev nD) : B4 m ρ c (Proc.devRef .tc main_arg0) = m ((c : Thread nD τ).loc main_arg0) :=
  (B4_arr m ρ c 0).trans (((dat1 (E3 m ρ) c).arrAt_in 0 rfl _).trans ((A_eq1 (E3 m ρ) c 0).trans
    ((B3_keep m ρ c main_arg0 (by decide)).trans (B2_arg0 m ρ c))))
theorem B4_keep (c : Dev nD) (r : Ref sig .tc) (h1 : ∀ w, Pipeline.arrRef spec1 w ≠ r) :
    B4 m ρ c (Proc.devRef .tc r) = B3 m ρ c (Proc.devRef .tc r) := B4_of_ne m ρ c r h1
theorem B5_keep (c : Dev nD) (r : Ref sig .tc) (h : r ∉ hostOps2_W) : B5 m ρ c (Proc.devRef .tc r) = B4 m ρ c (Proc.devRef .tc r) :=
  StableHlo.after_of_writes_sub hostOps2 _ hostOps2_writes h

/-- The adjacency array (an input of both regions) ends as launched. -/
theorem B5_arg0 (c : Dev nD) : B5 m ρ c (Proc.devRef .tc main_arg0) = m ((c : Thread nD τ).loc main_arg0) :=
  (B5_keep m ρ c main_arg0 (by decide)).trans (B4_arg0 m ρ c)
/-- A buffer no stretch writes and no region has among its arrays ends as launched. -/
theorem B5_arg (c : Dev nD) (r : Ref sig .tc) (h0 : r ∉ hostOps0_W) (h1 : r ∉ hostOps1_W) (h2 : r ∉ hostOps2_W)
    (hs0 : ∀ w, Pipeline.arrRef spec0 w ≠ r) (hs1 : ∀ w, Pipeline.arrRef spec1 w ≠ r) :
    B5 m ρ c (Proc.devRef .tc r) = m ((c : Thread nD τ).loc r) :=
  (B5_keep m ρ c r h2).trans ((B4_keep m ρ c r hs1).trans ((B3_keep m ρ c r h1).trans (B2_keep m ρ c r hs0 h0)))
theorem B5_arg1 (c : Dev nD) : B5 m ρ c (Proc.devRef .tc main_arg1) = m ((c : Thread nD τ).loc main_arg1) :=
  B5_arg m ρ c main_arg1 (by decide) (by decide) (by decide) (by decide) (by decide)
theorem B5_arg2 (c : Dev nD) : B5 m ρ c (Proc.devRef .tc main_arg2) = m ((c : Thread nD τ).loc main_arg2) :=
  B5_arg m ρ c main_arg2 (by decide) (by decide) (by decide) (by decide) (by decide)
theorem B5_arg3 (c : Dev nD) : B5 m ρ c (Proc.devRef .tc main_arg3) = m ((c : Thread nD τ).loc main_arg3) :=
  B5_arg m ρ c main_arg3 (by decide) (by decide) (by decide) (by decide) (by decide)

/-- The run with its result buffer named and the four arguments unchanged. -/
theorem run_named (hb0 : HB0 F) (hi0 : HI0 F) (ho0 : HO0 F) (hb1 : HB1 F) (hi1 : HI1 F) (ho1 : HO1 F) :
    θ_run defs (onTc (τ := τ) (main (F := F))) ⟨m, fun _ => 0, ρ⟩ (fun r => ∀ c : Dev nD,
      r.2.mem ((c.tc : Thread nD τ).loc main_v23) = B5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c _ (mem_uc main_v23 (by decide)),
      (h c _ (mem_uc main_arg0 (by decide))).trans (B5_arg0 m ρ c),
      (h c _ (mem_uc main_arg1 (by decide))).trans (B5_arg1 m ρ c),
      (h c _ (mem_uc main_arg2 (by decide))).trans (B5_arg2 m ρ c),
      (h c _ (mem_uc main_arg3 (by decide))).trans (B5_arg3 m ρ c)⟩)
    (run_all m ρ hb0 hi0 ho0 hb1 hi1 ho1)

end Cert.KernelIdeal.Hand

end
-- ==== Proof.BitsDat0.lean ====
/-
  The first kernel region (the row-sum and diagonal pass over the adjacency array), as data for the
  pipeline rule: what its two carried accumulators hold after each grid point, what each window's
  staging buffer holds after the body, and the invariant between points.

  The grid is 16 x 16, point t = 16·i + j. At a point the body (a) clears both accumulators when j = 0,
  (b) adds the row sums of the 512 x 512 block (i, j) of the array to the first accumulator, (c) when
  i = j adds the block's own diagonal (the row sums of the block masked to its diagonal) to the second,
  and (d) when j = 15 copies the two accumulators to the two output blocks of block row i.
-/
import proofs.«157629_j28613072126264_1_alg».proof.Proof.Gen.Kernel.Launch
import proofs.«157629_j28613072126264_1_alg».proof.Proof.Gen.Kernel.Skeleton
import proofs.«157629_j28613072126264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 512 x 512 block of the adjacency array the body loads at point `t`. -/
def blkA0 (c : Dev nD) (t : Fin cfg0.N) : Vec F S512x512 .f32 := iblk0 V c 0 t

/-- The two accumulators as whole memrefs. -/
abbrev scM0_0 : Memref sig .tc .vmem S512x128 .f32 := Memref.whole cc0_scratch0
abbrev scM0_1 : Memref sig .tc .vmem S512x128 .f32 := Memref.whole cc0_scratch1

/-- One point's effect on the pair of accumulators: at point number `n` with block `x`, from the pair `s` the
    point before left. The first is cleared when `n % 16 = 0` and then gets the block's row sums added; the second
    is cleared at the same points and gets the block's diagonal added when `n / 16 = n % 16`. -/
def step0 (x : Vec F S512x512 .f32) (n : ℕ) (s : Vec F S512x128 .f32 × Vec F S512x128 .f32) :
    Vec F S512x128 .f32 × Vec F S512x128 .f32 :=
  (k0_pay3 x (if n % 16 = 0 then k0_pay1 (F := F) else s.1),
   if n / 16 = n % 16 then k0_pay4 x (if n % 16 = 0 then k0_pay2 (F := F) else s.2)
   else (if n % 16 = 0 then k0_pay2 (F := F) else s.2))

/-- The accumulators after point `n`, by recursion on the point (the first point clears them, so what stands
    in for their contents before it is never read). -/
def scr0 (c : Dev nD) : (n : ℕ) → n < cfg0.N → Vec F S512x128 .f32 × Vec F S512x128 .f32
  | 0, h => step0 (blkA0 V c ⟨0, h⟩) 0 (k0_pay1 (F := F), k0_pay2 (F := F))
  | n + 1, h => step0 (blkA0 V c ⟨n + 1, h⟩) (n + 1) (scr0 c n (Nat.lt_of_succ_lt h))

theorem scr0_zero (c : Dev nD) (h : 0 < cfg0.N) :
    scr0 V c 0 h = step0 (blkA0 V c ⟨0, h⟩) 0 (k0_pay1 (F := F), k0_pay2 (F := F)) := rfl
theorem scr0_succ (c : Dev nD) (n : ℕ) (h : n + 1 < cfg0.N) :
    scr0 V c (n + 1) h = step0 (blkA0 V c ⟨n + 1, h⟩) (n + 1) (scr0 V c n (Nat.lt_of_succ_lt h)) := rfl

/-- The scoped buffers that belong to the other kernel region, each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The invariant before point `n`: before the first point everything scoped outside the pipeline at some
    contents and the generator register at some state; afterwards the same with the two accumulators at what the
    point before left. -/
def Phi0 (c : Dev nD) : (n : ℕ) → n ≤ cfg0.N → sProp 𝕄
  | 0, _ => Pipeline.ΦA spec0 c
  | n + 1, h => iprop((owns (c : Thread nD τ) scM0_0 fullShare (scr0 V c n h).1
      ∗ owns (c : Thread nD τ) scM0_1 fullShare (scr0 V c n h).2 ∗ rest0 c) ∗ (∃ r, prngReg c r))

/-- The pipeline's proof data on core `c`: the arrays as the region finds them; after the body at point `t` the
    input's buffer at its block and the two outputs' at the two accumulators (read only where the point writes
    the block back: at the last column of the grid); the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (scr0 V c t.val t.isLt).1
    | ⟨2, _⟩ => (scr0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = (scr0 V c t.val t.isLt).1 := by dsimp only [dat0]
theorem after0_2 (c : Dev nD) (t : Fin cfg0.N) : (dat0 V c).after 2 t = (scr0 V c t.val t.isLt).2 := by dsimp only [dat0]

end Cert.Kernel.Hand

end
-- ==== Proof.BitsDat1.lean ====
/-
  The second kernel region (the adjacency array against the scaled features, tile by tile), as data for
  the pipeline rule: what its carried accumulator holds after each grid point, what each window's staging
  buffer holds after the body, and the invariant between points.

  The grid is 8 x 8, point t = 8·i + k. At a point the body clears the accumulator when k = 0, adds the product of
  the 1024 x 1024 block (i, k) of the array with the 1024 x 128 block k of the scaled features, and when k = 7
  copies the accumulator to output block i.
-/
import proofs.«157629_j28613072126264_1_alg».proof.Proof.Gen.Kernel.Launch
import proofs.«157629_j28613072126264_1_alg».proof.Proof.Gen.Kernel.Skeleton
import proofs.«157629_j28613072126264_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of the adjacency array and the block of the scaled features the body loads at point `t`. -/
def blkA1 (c : Dev nD) (t : Fin cfg1.N) : Vec F S1024x1024 .f32 := iblk1 V c 0 t
def blkU1 (c : Dev nD) (t : Fin cfg1.N) : Vec F S1024x128 .f32 := iblk1 V c 1 t

/-- The accumulator as a whole memref. -/
abbrev scM1_0 : Memref sig .tc .vmem S1024x128 .f32 := Memref.whole cc1_scratch0

/-- One point's effect on the accumulator: at point number `n`, from what the point before left: cleared when
    `n % 8 = 0`, then the product of the two blocks added. -/
def step1 (a : Vec F S1024x1024 .f32) (u : Vec F S1024x128 .f32) (n : ℕ) (s : Vec F S1024x128 .f32) : Vec F S1024x128 .f32 :=
  k1_pay2 a u (if n % 8 = 0 then k1_pay1 (F := F) else s)

/-- The accumulator after point `n`, by recursion on the point (the first point clears it, so what stands in for
    its contents before it is never read). -/
def scr1 (c : Dev nD) : (n : ℕ) → n < cfg1.N → Vec F S1024x128 .f32
  | 0, h => step1 (blkA1 V c ⟨0, h⟩) (blkU1 V c ⟨0, h⟩) 0 (k1_pay1 (F := F))
  | n + 1, h => step1 (blkA1 V c ⟨n + 1, h⟩) (blkU1 V c ⟨n + 1, h⟩) (n + 1) (scr1 c n (Nat.lt_of_succ_lt h))

theorem scr1_zero (c : Dev nD) (h : 0 < cfg1.N) :
    scr1 V c 0 h = step1 (blkA1 V c ⟨0, h⟩) (blkU1 V c ⟨0, h⟩) 0 (k1_pay1 (F := F)) := rfl
theorem scr1_succ (c : Dev nD) (n : ℕ) (h : n + 1 < cfg1.N) :
    scr1 V c (n + 1) h = step1 (blkA1 V c ⟨n + 1, h⟩) (blkU1 V c ⟨n + 1, h⟩) (n + 1) (scr1 V c n (Nat.lt_of_succ_lt h)) := rfl

/-- The invariant before point `n`: before the first point everything scoped outside the pipeline at some
    contents and the generator register at some state; afterwards the same — the other region's eight scoped
    buffers each whole at some contents — with the accumulator at what the point before left. -/
def Phi1 (c : Dev nD) : (n : ℕ) → n ≤ cfg1.N → sProp 𝕄
  | 0, _ => Pipeline.ΦA spec1 c
  | n + 1, h => iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ owns (c : Thread nD τ) scM1_0 fullShare (scr1 V c n h)) ∗ (∃ r, prngReg c r))

/-- The pipeline's proof data on core `c`: the arrays as the region finds them; after the body at point `t` each
    input's buffer at its block and the output's at the accumulator (read only where the point writes the block
    back: at the last column of the grid); the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scr1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scr1 V c t.val t.isLt := by dsimp only [dat1]

end Cert.Kernel.Hand

end
-- ==== Proof.BitsMain.lean ====
/-
  The whole program as five segments — host operations, the first kernel region, host operations, the
  second kernel region, host operations — run from the launch memory to the end: every weakly fair
  execution terminates without a fault, and at the end every unscoped buffer holds what the fold of the
  segments over the launch memory gives it. A kernel region changes only its output arrays, which end at
  the write-backs of its accumulators; a host stretch applies its operations in order.
  The body obligations of the two regions and the entry and exit forms of their invariants are taken as
  hypotheses here (they are proved in the two regions' own modules).
-/
import proofs.«157629_j28613072126264_1_alg».proof.Proof.BitsDat0
import proofs.«157629_j28613072126264_1_alg».proof.Proof.BitsDat1
import proofs.«157629_j28613072126264_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev B0 : Dev nD → Valuation τ sig (Elt F) := fun c b => (s₀ m ρ).mem ((c : Dev nD), b)
/-- After the first host stretch (the first region's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the second region's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second region's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- After the last host stretch: the end. -/
abbrev B5 : Dev nD → Valuation τ sig (Elt F) := fun c => StableHlo.after hostOps2 (B4 m ρ c)

/-! ## The proof data family and the thread state -/

abbrev admH : (p : Fin 2) → (pcfgs (F := F) p).Adm := fun p => (cfgs p).toPCfg_adm
/-- Every pipeline's proof data, each at its region's entry contents. -/
def pdatsH : (p : Fin 2) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
abbrev kV : Variants := Variants.none
abbrev kL : GSem nD τ sig → Finset Unit := fun _ => ∅
abbrev klv : GSem nD τ sig → Unit → ℕ := fun _ _ => 0
/-- What rides beside the buffers through every segment: the generator register at some state and the core owing
    nothing. -/
abbrev kR (c : Dev nD) : sProp 𝕄 := iprop((∃ r, prngReg c r) ∗ ∃ W, owes (c : Thread nD τ) (0 : CellTallies nD τ sig Unit) W)
/-- A host stretch as a segment, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ kV kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues. -/
abbrev Tlast (c : Dev nD) : sProp 𝕄 := iprop(StableHlo.held (c : Thread nD τ) (Pipeline.ucRefs τ sig) (B5 m ρ c) ∗ ∃ r, prngReg c r)

/-! ## The regions as segments -/

section Regs

/-- What the two regions' own modules prove, as propositions: the body obligation at every point, the invariant
    entered from the scoped rest and the generator register, and those given back after the last point. -/
abbrev HB0 (F : FTy → Type) [FloatOps F] : Prop := ∀ (V : (c : Dev nD) → (b : Ref sig .tc) → Buf (Elt F) ((c : Thread nD τ).loc b)) (c : Dev nD),
    BodyObligation (dat0 (F := F) V c) (defs₀ (F := F)) Variants.none () Set.univ
abbrev HI0 (F : FTy → Type) [FloatOps F] : Prop := ∀ (V : (c : Dev nD) → (b : Ref sig .tc) → Buf (Elt F) ((c : Thread nD τ).loc b)) (c : Dev nD),
    (Pipeline.ΦA spec0 c : sProp (MT nD τ sig Unit (Elt F) ℕ (UR sig nD τ) ℕ)) ⊢ (dat0 V c).Φ 0
abbrev HO0 (F : FTy → Type) [FloatOps F] : Prop := ∀ (V : (c : Dev nD) → (b : Ref sig .tc) → Buf (Elt F) ((c : Thread nD τ).loc b)) (c : Dev nD),
    (dat0 V c).Φ (Fin.last cfg0.N) ⊢ (Pipeline.ΦA spec0 c : sProp (MT nD τ sig Unit (Elt F) ℕ (UR sig nD τ) ℕ))
abbrev HB1 (F : FTy → Type) [FloatOps F] : Prop := ∀ (V : (c : Dev nD) → (b : Ref sig .tc) → Buf (Elt F) ((c : Thread nD τ).loc b)) (c : Dev nD),
    BodyObligation (dat1 (F := F) V c) (defs₀ (F := F)) Variants.none () Set.univ
abbrev HI1 (F : FTy → Type) [FloatOps F] : Prop := ∀ (V : (c : Dev nD) → (b : Ref sig .tc) → Buf (Elt F) ((c : Thread nD τ).loc b)) (c : Dev nD),
    (Pipeline.ΦA spec1 c : sProp (MT nD τ sig Unit (Elt F) ℕ (UR sig nD τ) ℕ)) ⊢ (dat1 V c).Φ 0
abbrev HO1 (F : FTy → Type) [FloatOps F] : Prop := ∀ (V : (c : Dev nD) → (b : Ref sig .tc) → Buf (Elt F) ((c : Thread nD τ).loc b)) (c : Dev nD),
    (dat1 V c).Φ (Fin.last cfg1.N) ⊢ (Pipeline.ΦA spec1 c : sProp (MT nD τ sig Unit (Elt F) ℕ (UR sig nD τ) ℕ))

set_option backward.isDefEq.respectTransparency.types false in
/-- The first region over the thread state: entered from every unscoped buffer at `B1`, left at `B2`. -/
def reg0 (hb0 : HB0 F) (hi0 : HI0 F) (ho0 : HO0 F) : Pipeline.RegionSeg (pcfgs (F := F)) admH (pdatsH m ρ) () defs₀ kV kL klv 0 where
  win := launch0.win.to₀
  block_pos := launch0.block_pos
  stage_whole := launch0.stage_whole
  K := PEmpty
  osem k := k.elim
  ho := Pipeline.OwnSemFacts.none _
  hbody c := (hb0 (E1 m ρ) c).loose
  hwaits := Pipeline.hwaits_of_owed_zero _ _ _ _ kL klv 0 fun _ _ => rfl
  pre c := iprop(StableHlo.held (c : Thread nD τ) (Pipeline.ucRefs τ sig) (B1 m ρ c) ∗ kR c)
  post c := iprop(StableHlo.held (c : Thread nD τ) (Pipeline.ucRefs τ sig) (B2 m ρ c) ∗ kR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hi0 (E1 m ρ) c)
    unfold Pipeline.ΦA
    iintro ⟨Hp, -, Hr⟩
    isplitl [Hr]; · iexact Hr
    iexact Hp
  hout c := by
    rw [Pipeline.ownSems0_none]
    refine (ho0 (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (E1 m ρ c) (E2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `B3`, left at `B4`. -/
def reg1 (hb1 : HB1 F) (hi1 : HI1 F) (ho1 : HO1 F) : Pipeline.RegionSeg (pcfgs (F := F)) admH (pdatsH m ρ) () defs₀ kV kL klv 1 where
  win := launch1.win.to₀
  block_pos := launch1.block_pos
  stage_whole := launch1.stage_whole
  K := PEmpty
  osem k := k.elim
  ho := Pipeline.OwnSemFacts.none _
  hbody c := (hb1 (E3 m ρ) c).loose
  hwaits := Pipeline.hwaits_of_owed_zero _ _ _ _ kL klv 1 fun _ _ => rfl
  pre c := iprop(StableHlo.held (c : Thread nD τ) (Pipeline.ucRefs τ sig) (B3 m ρ c) ∗ kR c)
  post c := iprop(StableHlo.held (c : Thread nD τ) (Pipeline.ucRefs τ sig) (B4 m ρ c) ∗ kR c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hi1 (E3 m ρ) c)
    unfold Pipeline.ΦA
    iintro ⟨Hp, -, Hr⟩
    isplitl [Hr]; · iexact Hr
    iexact Hp
  hout c := by
    rw [Pipeline.ownSems0_none]
    refine (ho1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (E3 m ρ c) (E4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH (hb0 : HB0 F) (hi0 : HI0 F) (ho0 : HO0 F) (hb1 : HB1 F) (hi1 : HI1 F) (ho1 : HO1 F) : List (Pipeline.Seg (pcfgs (F := F)) admH (pdatsH m ρ) () defs₀ kV kL klv) :=
  [ .host (hsegH hostOps0 hostOps0_sub hostOps0_fresh (B0 m ρ)),
    .region (reg0 m ρ hb0 hi0 ho0),
    .host (hsegH hostOps1 hostOps1_sub hostOps1_fresh (B2 m ρ)),
    .region (reg1 m ρ hb1 hi1 ho1),
    .host (hsegH hostOps2 hostOps2_sub hostOps2_fresh (B4 m ρ)) ]

theorem main_runH (hb0 : HB0 F) (hi0 : HI0 F) (ho0 : HO0 F) (hb1 : HB1 F) (hi1 : HI1 F) (ho1 : HO1 F) (c : Dev nD) : main (F := F) c = Pipeline.Seg.run (segsH m ρ hb0 hi0 ho0 hb1 hi1 ho1) :=
  (main_chain c).trans (by chain_rfl)

set_option backward.isDefEq.respectTransparency.types false in
/-- From any memory with zero counters every weakly fair execution of the program terminates without a fault, and
    at the end every unscoped buffer of core `c` holds `B5 m ρ c` of it. -/
theorem run_all (hb0 : HB0 F) (hi0 : HI0 F) (ho0 : HO0 F) (hb1 : HB1 F) (hi1 : HI1 F) (ho1 : HO1 F) : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) admH (pdatsH m ρ) () cellOf_inj emb₁ defs₀ kV kL klv m ρ main (segsH m ρ hb0 hi0 ho0 hb1 hi1 ho1)
    (fun c Q => by rw [main_runH m ρ hb0 hi0 ho0 hb1 hi1 ho1 c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ kR c)) (Tₙ := Tlast m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ kR c) ⊢ _
      iintro ⟨Hh, Hp, HO⟩
      isplitl [Hh Hp]
      · isplitl [Hh]; · iexact Hh
        iexact Hp
      iexact HO⟩)
    (hinit := by
      refine Pipeline.initEach kL klv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Regs

end Cert.Kernel.Hand

end
-- ==== Proof.BitsFrame.lean ====
/-
  What the run leaves in the buffers no segment writes: the four arguments end as launched. A host stretch
  leaves every buffer it does not write; a kernel region leaves every buffer that is not one of its arrays,
  and leaves an input array as it found it.
-/
import proofs.«157629_j28613072126264_1_alg».proof.Proof.BitsMain

set_option maxRecDepth 16384

noncomputable section

namespace Cert.Kernel.Hand

open Cert.Kernel Cert.Kernel.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

theorem B1_keep (c : Dev nD) (r : Ref sig .tc) (h : r ∉ hostOps0_W) : B1 m ρ c (Proc.devRef .tc r) = m ((c : Thread nD τ).loc r) :=
  StableHlo.after_of_writes_sub hostOps0 _ hostOps0_writes h
theorem B2_arg0 (c : Dev nD) : B2 m ρ c (Proc.devRef .tc main_arg0) = m ((c : Thread nD τ).loc main_arg0) :=
  (B2_arr m ρ c 0).trans (((dat0 (E1 m ρ) c).arrAt_in 0 rfl _).trans ((A_eq0 (E1 m ρ) c 0).trans (B1_keep m ρ c main_arg0 (by decide))))
theorem B2_keep (c : Dev nD) (r : Ref sig .tc) (h0 : ∀ w, Pipeline.arrRef spec0 w ≠ r) (h : r ∉ hostOps0_W) :
    B2 m ρ c (Proc.devRef .tc r) = m ((c : Thread nD τ).loc r) :=
  (B2_of_ne m ρ c r h0).trans (B1_keep m ρ c r h)
theorem B3_keep (c : Dev nD) (r : Ref sig .tc) (h : r ∉ hostOps1_W) : B3 m ρ c (Proc.devRef .tc r) = B2 m ρ c (Proc.devRef .tc r) :=
  StableHlo.after_of_writes_sub hostOps1 _ hostOps1_writes h
theorem B4_arg0 (c : Dev nD) : B4 m ρ c (Proc.devRef .tc main_arg0) = m ((c : Thread nD τ).loc main_arg0) :=
  (B4_arr m ρ c 0).trans (((dat1 (E3 m ρ) c).arrAt_in 0 rfl _).trans ((A_eq1 (E3 m ρ) c 0).trans
    ((B3_keep m ρ c main_arg0 (by decide)).trans (B2_arg0 m ρ c))))
theorem B4_keep (c : Dev nD) (r : Ref sig .tc) (h1 : ∀ w, Pipeline.arrRef spec1 w ≠ r) :
    B4 m ρ c (Proc.devRef .tc r) = B3 m ρ c (Proc.devRef .tc r) := B4_of_ne m ρ c r h1
theorem B5_keep (c : Dev nD) (r : Ref sig .tc) (h : r ∉ hostOps2_W) : B5 m ρ c (Proc.devRef .tc r) = B4 m ρ c (Proc.devRef .tc r) :=
  StableHlo.after_of_writes_sub hostOps2 _ hostOps2_writes h

/-- The adjacency array (an input of both regions) ends as launched. -/
theorem B5_arg0 (c : Dev nD) : B5 m ρ c (Proc.devRef .tc main_arg0) = m ((c : Thread nD τ).loc main_arg0) :=
  (B5_keep m ρ c main_arg0 (by decide)).trans (B4_arg0 m ρ c)
/-- A buffer no stretch writes and no region has among its arrays ends as launched. -/
theorem B5_arg (c : Dev nD) (r : Ref sig .tc) (h0 : r ∉ hostOps0_W) (h1 : r ∉ hostOps1_W) (h2 : r ∉ hostOps2_W)
    (hs0 : ∀ w, Pipeline.arrRef spec0 w ≠ r) (hs1 : ∀ w, Pipeline.arrRef spec1 w ≠ r) :
    B5 m ρ c (Proc.devRef .tc r) = m ((c : Thread nD τ).loc r) :=
  (B5_keep m ρ c r h2).trans ((B4_keep m ρ c r hs1).trans ((B3_keep m ρ c r h1).trans (B2_keep m ρ c r hs0 h0)))
theorem B5_arg1 (c : Dev nD) : B5 m ρ c (Proc.devRef .tc main_arg1) = m ((c : Thread nD τ).loc main_arg1) :=
  B5_arg m ρ c main_arg1 (by decide) (by decide) (by decide) (by decide) (by decide)
theorem B5_arg2 (c : Dev nD) : B5 m ρ c (Proc.devRef .tc main_arg2) = m ((c : Thread nD τ).loc main_arg2) :=
  B5_arg m ρ c main_arg2 (by decide) (by decide) (by decide) (by decide) (by decide)
theorem B5_arg3 (c : Dev nD) : B5 m ρ c (Proc.devRef .tc main_arg3) = m ((c : Thread nD τ).loc main_arg3) :=
  B5_arg m ρ c main_arg3 (by decide) (by decide) (by decide) (by decide) (by decide)

/-- The run with its result buffer named and the four arguments unchanged. -/
theorem run_named (hb0 : HB0 F) (hi0 : HI0 F) (ho0 : HO0 F) (hb1 : HB1 F) (hi1 : HI1 F) (ho1 : HO1 F) :
    θ_run defs (onTc (τ := τ) (main (F := F))) ⟨m, fun _ => 0, ρ⟩ (fun r => ∀ c : Dev nD,
      r.2.mem ((c.tc : Thread nD τ).loc main_v23) = B5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c _ (mem_uc main_v23 (by decide)),
      (h c _ (mem_uc main_arg0 (by decide))).trans (B5_arg0 m ρ c),
      (h c _ (mem_uc main_arg1 (by decide))).trans (B5_arg1 m ρ c),
      (h c _ (mem_uc main_arg2 (by decide))).trans (B5_arg2 m ρ c),
      (h c _ (mem_uc main_arg3 (by decide))).trans (B5_arg3 m ρ c)⟩)
    (run_all m ρ hb0 hi0 ho0 hb1 hi1 ho1)

end Cert.Kernel.Hand

end
-- ==== Proof.Reg0Cond.lean ====
/-
  The first kernel region's control: the three conditions of its body in closed form over the point number
  t = 16·i + j, where the two output windows are idle and where they are written back, the input window's
  staging buffer at its block, and the region's entry invariant with the two accumulators named.
-/
import proofs.«157629_j28613072126264_1_alg».proof.Proof.Dat0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's three conditions -/

/-- The first conditional (clear the accumulators): the column coordinate is 0. -/
abbrev cond0_1 (i : grid0.Coords) : Prop :=
  (Scalar.cmpi .ne (Scalar.extui (Scalar.cmpi .eq (BitVec.ofNat 32 (i 1).val) 0#32)) 0#32) = 1#1
/-- The second (add the block's diagonal): the two coordinates agree. -/
abbrev cond0_2 (i : grid0.Coords) : Prop :=
  (Scalar.cmpi .ne (Scalar.extui (Scalar.cmpi .eq (BitVec.ofNat 32 (i 0).val) (BitVec.ofNat 32 (i 1).val))) 0#32) = 1#1
/-- The third (copy the accumulators out): the column coordinate is 15. -/
abbrev cond0_3 (i : grid0.Coords) : Prop := k0_cond3 i = 1#1

/-- The first holds at the points t with t % 16 = 0. -/
theorem hcond0_1 : ∀ t : Fin cfg0.N, cond0_1 (grid0.coords t) ↔ t.val % 16 = 0 :=
  (by decide +kernel : ∀ t : Fin grid0.N, cond0_1 (grid0.coords t) ↔ t.val % 16 = 0)
/-- The second at the points with t / 16 = t % 16. -/
theorem hcond0_2 : ∀ t : Fin cfg0.N, cond0_2 (grid0.coords t) ↔ t.val / 16 = t.val % 16 :=
  (by decide +kernel : ∀ t : Fin grid0.N, cond0_2 (grid0.coords t) ↔ t.val / 16 = t.val % 16)
/-- The third at the points with t % 16 = 15. -/
theorem hcond0_3 : ∀ t : Fin cfg0.N, cond0_3 (grid0.coords t) ↔ t.val % 16 = 15 :=
  (by decide +kernel : ∀ t : Fin grid0.N, cond0_3 (grid0.coords t) ↔ t.val % 16 = 15)

/-! ## Where the windows are idle and where they are written back -/

/-- The input window is never idle. -/
theorem liveAt0_0 : ∀ t : Fin cfg0.N, cfg0.idle 0 (grid0.coords t) = false := by decide +kernel
/-- The two output windows are live exactly where the third conditional holds, -/
theorem liveAt0_1 : ∀ t : Fin cfg0.N, cond0_3 (grid0.coords t) → cfg0.idle 1 (grid0.coords t) = false := by decide +kernel
theorem liveAt0_2 : ∀ t : Fin cfg0.N, cond0_3 (grid0.coords t) → cfg0.idle 2 (grid0.coords t) = false := by decide +kernel
/-- idle elsewhere, -/
theorem idleAt0_1 : ∀ t : Fin cfg0.N, ¬cond0_3 (grid0.coords t) → cfg0.idle 1 (grid0.coords t) = true := by decide +kernel
theorem idleAt0_2 : ∀ t : Fin cfg0.N, ¬cond0_3 (grid0.coords t) → cfg0.idle 2 (grid0.coords t) = true := by decide +kernel
/-- and not written back there. -/
theorem noFlush0_1 : ∀ t : Fin cfg0.N, ¬cond0_3 (grid0.coords t) → (cfg0.win 1).flush t = false := by decide +kernel
theorem noFlush0_2 : ∀ t : Fin cfg0.N, ¬cond0_3 (grid0.coords t) → (cfg0.win 2).flush t = false := by decide +kernel

/-! ## The input window's staging buffer -/

/-- The input window's current staging buffer holds its block at every point: it is fetched at every point, its
    blocks tile the array and it is never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-! ## The staging memrefs at a point -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)

/-! ## The invariant, the accumulators named -/

/-- The region's entry invariant: the two accumulators at some contents, the other region's scoped buffers, the
    generator register at some state. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 c)
          ∗ (∃ r, prngReg c r)) := by
  unfold Pipeline.ΦA rest0; rw [scopedRest0_eq]; simp only [scM0_0, scM0_1, owns_whole]; try rfl

/-- The invariant before the first point. -/
theorem Phi0_zero (c : Dev nD) (n : ℕ) (h : n ≤ cfg0.N) (hz : n = 0) : Phi0 V c n h = Pipeline.ΦA spec0 c := by
  subst hz; rfl

/-- The invariant after point n. -/
theorem Phi0_succ (c : Dev nD) (n : ℕ) (hn : n < cfg0.N) :
    Phi0 V c (n + 1) hn = iprop((owns (c : Thread nD τ) scM0_0 fullShare (scr0 V c n hn).1
      ∗ owns (c : Thread nD τ) scM0_1 fullShare (scr0 V c n hn).2 ∗ rest0 c) ∗ (∃ r, prngReg c r)) := rfl

/-- The invariant before a point that is not the first. -/
theorem Phi0_pos (c : Dev nD) (n : ℕ) (h : n ≤ cfg0.N) (hz : n ≠ 0) :
    Phi0 V c n h = iprop((owns (c : Thread nD τ) scM0_0 fullShare (scr0 V c (n - 1) (by omega)).1
      ∗ owns (c : Thread nD τ) scM0_1 fullShare (scr0 V c (n - 1) (by omega)).2 ∗ rest0 c) ∗ (∃ r, prngReg c r)) := by
  cases n with
  | zero => exact absurd rfl hz
  | succ n => rfl

/-- The invariant at a point's start, restated at the point's number. -/
theorem Phi0_castSucc (c : Dev nD) (t : Fin cfg0.N) :
    (dat0 V c).Φ t.castSucc = Phi0 V c t.val (Nat.le_of_lt t.isLt) := by
  dsimp only [dat0]; simp only [Fin.coe_castSucc]

/-- The accumulators after a point that is not the first, from what the point before left. -/
theorem scr0_pos (c : Dev nD) (t : Fin cfg0.N) (hz : t.val ≠ 0) :
    scr0 V c t.val t.isLt = step0 (blkA0 V c t) t.val (scr0 V c (t.val - 1) (Nat.lt_of_le_of_lt (Nat.sub_le _ _) t.isLt)) := by
  obtain ⟨n, hn⟩ := t
  cases n with
  | zero => exact absurd rfl hz
  | succ n => rfl

/-- The accumulators after the first point. -/
theorem scr0_first (c : Dev nD) (t : Fin cfg0.N) (hz : t.val = 0) :
    scr0 V c t.val t.isLt = step0 (blkA0 V c t) t.val (k0_pay1 (F := F), k0_pay2 (F := F)) := by
  obtain ⟨n, hn⟩ := t
  cases n with
  | zero => rfl
  | succ n => exact absurd hz (Nat.succ_ne_zero n)

end Cert.KernelIdeal.Hand

end
-- ==== Proof.Reg0Mem.lean ====
/-
  Two facts about a buffer accessed whole — through the rectangle at zero offsets of the buffer's own sizes —:
  a load through it of given contents reads the contents, and one store through it leaves its payload.
-/
import proofs.«157629_j28613072126264_1_alg».proof.Proof.Reg0Cond
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets as the program spells them. -/
theorem hz0 : (![0, 0] : Fin 2 → Nat) = fun _ => 0 := funext fun a => by fin_cases a <;> rfl

/-- One store through the whole-shape rectangle at zero offsets leaves its payload, whatever was there. -/
theorem read_writes_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  exact (View.read_writes_eq_canon v f _ (fun y => ⟨_, List.mem_singleton_self _, by
    show y ∈ (Rect.whole S).set; rw [Rect.set_whole]; exact Finset.mem_univ y⟩)).trans (View.canon_unit_zero rfl _ w)

/-- The same, the last of several stores. -/
theorem read_writes_cons_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  exact (View.read_writes_eq_canon v f _ (fun y => ⟨_, List.mem_cons_self, by
    show y ∈ (Rect.whole S).set; rw [Rect.set_whole]; exact Finset.mem_univ y⟩)).trans (View.canon_cons_unit_zero rfl _ w L)

/-- A load through it of a whole memref's contents reads them. -/
theorem readAt_unit_zero {sp : Space} {S : Shape} {e : EltTy} (M : Memref sig .tc sp S e) (hM : M.IsWhole)
    {off : Fin S.rank → Nat} (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread]; exact View.ld_unit_zero h inb X

end Cert.KernelIdeal.Hand

end
-- ==== Proof.Reg0RunA.lean ====
/-
  The first kernel region's body at the grid's first point (i = 0, j = 0): both accumulators are cleared, the
  first gets the block's row sums and the second the block's diagonal; the output windows are handed back.
-/
import proofs.«157629_j28613072126264_1_alg».proof.Proof.Reg0Mem
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the first two conditionals are taken and the third is not. -/
theorem run0_A (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : cond0_1 i) (hc2 : cond0_2 i) (hc3 : ¬cond0_3 i)
    (x0 : Vec F S512x512 .f32) (xi1 xi2 : Vec F S512x128 .f32) (E : Set ℕ) (K : PUnit → sProp 𝕄) :
    iprop(owns (c : Thread nD τ) arg2 fullShare x0 ∗ owns (c : Thread nD τ) arg3 fullShare xi1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 (k0_pay1 (F := F))) ∗ owns (c : Thread nD τ) arg6 fullShare (k0_pay4 x0 (k0_pay2 (F := F)))) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%e1, %g1, -, HS1⟩, ⟨%e2, %g2, -, HS2⟩, Hk⟩
  obtain rfl := harg2.eq_unread hf0; obtain rfl := harg3.eq_unread hf1; obtain rfl := harg4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    try sl_unfold_run_names
    refine (read_writes_cons_unit_zero _ _ hz0 _ _ _).trans ?_
    exact congrArg₂ k0_pay3 (readAt_unit_zero arg2 harg2 hz0 _ x0) (View.readCov_unit_zero _ hz0 _ _)
  iexists _; isplitr
  swap; · iexact HS2
  ipureintro
  try sl_unfold_run_names
  refine (read_writes_cons_unit_zero _ _ hz0 _ _ _).trans ?_
  exact congrArg₂ k0_pay4 (readAt_unit_zero arg2 harg2 hz0 _ x0) (View.readCov_unit_zero _ hz0 _ _)

end Cert.KernelIdeal.Hand

end
-- ==== Proof.Reg0RunB.lean ====
/-
  The first kernel region's body at the first point of a later block row (j = 0, i ≠ 0): both accumulators are
  cleared and the first gets the block's row sums; the output windows are handed back.
-/
import proofs.«157629_j28613072126264_1_alg».proof.Proof.Reg0Mem
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where only the first conditional is taken. -/
theorem run0_B (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : cond0_1 i) (hc2 : ¬cond0_2 i) (hc3 : ¬cond0_3 i)
    (x0 : Vec F S512x512 .f32) (xi1 xi2 : Vec F S512x128 .f32) (E : Set ℕ) (K : PUnit → sProp 𝕄) :
    iprop(owns (c : Thread nD τ) arg2 fullShare x0 ∗ owns (c : Thread nD τ) arg3 fullShare xi1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 (k0_pay1 (F := F))) ∗ owns (c : Thread nD τ) arg6 fullShare ((k0_pay2 (F := F)))) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%e1, %g1, -, HS1⟩, ⟨%e2, %g2, -, HS2⟩, Hk⟩
  obtain rfl := harg2.eq_unread hf0; obtain rfl := harg3.eq_unread hf1; obtain rfl := harg4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    try sl_unfold_run_names
    refine (read_writes_cons_unit_zero _ _ hz0 _ _ _).trans ?_
    exact congrArg₂ k0_pay3 (readAt_unit_zero arg2 harg2 hz0 _ x0) (View.readCov_unit_zero _ hz0 _ _)
  iexists _; isplitr
  swap; · iexact HS2
  ipureintro
  try sl_unfold_run_names
  exact read_writes_unit_zero _ _ hz0 _ _

end Cert.KernelIdeal.Hand

end
-- ==== Proof.Reg0RunC.lean ====
/-
  The first kernel region's body at a diagonal point strictly inside a block row (0 < j < 15, i = j): the first
  accumulator gets the block's row sums added, the second the block's diagonal; the output windows are handed back.
-/
import proofs.«157629_j28613072126264_1_alg».proof.Proof.Reg0Mem
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where only the second conditional is taken. -/
theorem run0_C (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : ¬cond0_1 i) (hc2 : cond0_2 i) (hc3 : ¬cond0_3 i)
    (x0 : Vec F S512x512 .f32) (xi1 xi2 : Vec F S512x128 .f32) (s1 s2 : Vec F S512x128 .f32) (E : Set ℕ) (K : PUnit → sProp 𝕄) :
    iprop(owns (c : Thread nD τ) arg2 fullShare x0 ∗ owns (c : Thread nD τ) arg3 fullShare xi1 ∗ owns (c : Thread nD τ) arg4 fullShare xi2
        ∗ owns (c : Thread nD τ) arg5 fullShare s1 ∗ owns (c : Thread nD τ) arg6 fullShare s2
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 s1) ∗ owns (c : Thread nD τ) arg6 fullShare (k0_pay4 x0 s2)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hg1; obtain rfl := harg6.eq_unread hg2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    try sl_unfold_run_names
    refine (read_writes_unit_zero _ _ hz0 _ _).trans ?_
    exact congrArg₂ k0_pay3 (readAt_unit_zero arg2 harg2 hz0 _ x0) (readAt_unit_zero arg5 harg5 hz0 _ s1)
  iexists _; isplitr
  swap; · iexact HS2
  ipureintro
  try sl_unfold_run_names
  refine (read_writes_unit_zero _ _ hz0 _ _).trans ?_
  exact congrArg₂ k0_pay4 (readAt_unit_zero arg2 harg2 hz0 _ x0) (readAt_unit_zero arg6 harg6 hz0 _ s2)

end Cert.KernelIdeal.Hand

end
-- ==== Proof.Reg0RunD.lean ====
/-
  The first kernel region's body at a point strictly inside a block row and off the diagonal (0 < j < 15, i ≠ j):
  no conditional is taken; the first accumulator gets the block's row sums added, everything else is handed back.
-/
import proofs.«157629_j28613072126264_1_alg».proof.Proof.Reg0Mem
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where no conditional is taken. -/
theorem run0_D (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : ¬cond0_1 i) (hc2 : ¬cond0_2 i) (hc3 : ¬cond0_3 i)
    (x0 : Vec F S512x512 .f32) (xi1 xi2 : Vec F S512x128 .f32) (s1 s2 : Vec F S512x128 .f32) (E : Set ℕ) (K : PUnit → sProp 𝕄) :
    iprop(owns (c : Thread nD τ) arg2 fullShare x0 ∗ owns (c : Thread nD τ) arg3 fullShare xi1 ∗ owns (c : Thread nD τ) arg4 fullShare xi2
        ∗ owns (c : Thread nD τ) arg5 fullShare s1 ∗ owns (c : Thread nD τ) arg6 fullShare s2
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 s1) ∗ owns (c : Thread nD τ) arg6 fullShare (s2)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hg1; obtain rfl := harg6.eq_unread hg2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    refine (read_writes_unit_zero _ _ hz0 _ _).trans ?_
    exact congrArg₂ k0_pay3 (readAt_unit_zero arg2 harg2 hz0 _ x0) (readAt_unit_zero arg5 harg5 hz0 _ s1)
  iexists _; isplitr; · ipureintro; exact hg2
  iexact HS2

end Cert.KernelIdeal.Hand

end
-- ==== Proof.Reg0RunE.lean ====
/-
  The first kernel region's body at the grid's last point (i = 15, j = 15): the first accumulator gets the block's
  row sums added, the second the block's diagonal, and both are copied to the output windows.
-/
import proofs.«157629_j28613072126264_1_alg».proof.Proof.Reg0Mem
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the last two conditionals are taken and the first is not. -/
theorem run0_E (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : ¬cond0_1 i) (hc2 : cond0_2 i) (hc3 : cond0_3 i)
    (x0 : Vec F S512x512 .f32) (s1 s2 : Vec F S512x128 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare s1 ∗ owns (c : Thread nD τ) arg6 fullShare s2
        ∗ (iprop(owns (c : Thread nD τ) arg2 fullShare x0 ∗ owns (c : Thread nD τ) arg3 fullShare (k0_pay3 x0 s1) ∗ owns (c : Thread nD τ) arg4 fullShare (k0_pay4 x0 s2)
            ∗ owns (c : Thread nD τ) arg5 fullShare (k0_pay3 x0 s1) ∗ owns (c : Thread nD τ) arg6 fullShare (k0_pay4 x0 s2)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%d1, %f1, -, H1⟩, ⟨%d2, %f2, -, H2⟩, ⟨%g1, %hg1, HS1⟩, ⟨%g2, %hg2, HS2⟩, Hk⟩
  obtain rfl := harg2.eq_unread hf0; obtain rfl := harg5.eq_unread hg1; obtain rfl := harg6.eq_unread hg2
  sl_exec (disch := first | exact hc1 | exact hc2 | exact hc3)
  sl_step
  iapply Hk
  isplitl [H0]
  · iexists _; isplitr; · ipureintro; exact hf0
    iexact H0
  isplitl [H1]
  · iexists _; isplitr
    swap; · iexact H1
    ipureintro
    refine (read_writes_unit_zero _ _ hz0 _ _).trans ?_
    try sl_unfold_run_names
    refine (View.readCov_unit_zero _ hz0 _ _).trans ?_
    exact congrArg₂ k0_pay3 (readAt_unit_zero arg2 harg2 hz0 _ x0) (readAt_unit_zero arg5 harg5 hz0 _ s1)
  isplitl [H2]
  · iexists _; isplitr
    swap; · iexact H2
    ipureintro
    refine (read_writes_unit_zero _ _ hz0 _ _).trans ?_
    try sl_unfold_run_names
    refine (View.readCov_unit_zero _ hz0 _ _).trans ?_
    exact congrArg₂ k0_pay4 (readAt_unit_zero arg2 harg2 hz0 _ x0) (readAt_unit_zero arg6 harg6 hz0 _ s2)
  isplitl [HS1]
  · iexists _; isplitr
    swap; · iexact HS1
    ipureintro
    try sl_unfold_run_names
    refine (read_writes_unit_zero _ _ hz0 _ _).trans ?_
    exact congrArg₂ k0_pay3 (readAt_unit_zero arg2 harg2 hz0 _ x0) (readAt_unit_zero arg5 harg5 hz0 _ s1)
  iexists _; isplitr
  swap; · iexact HS2
  ipureintro
  try sl_unfold_run_names
  refine (read_writes_unit_zero _ _ hz0 _ _).trans ?_
  exact congrArg₂ k0_pay4 (readAt_unit_zero arg2 harg2 hz0 _ x0) (readAt_unit_zero arg6 harg6 hz0 _ s2)

end Cert.KernelIdeal.Hand

end
-- ==== Proof.Reg0RunG.lean ====
/-
  The first kernel region's body at the last point of a block row off the diagonal (j = 15, i ≠ 15): the first
  accumulator gets the block's row sums added and both accumulators are copied to the output windows.
-/
import proofs.«157629_j28613072126264_1_alg».proof.Proof.Reg0Mem
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where only the third conditional is taken. -/
theorem run0_G (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : ¬cond0_1 i) (hc2 : ¬cond0_2 i) (hc3 : cond0_3 i)
    (x0 : Vec F S512x512 .f32) (s1 s2 : Vec F S512x128 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare s1 ∗ owns (c : Thread nD τ) arg6 fullShare s2
        ∗ (iprop(owns (c : Thread nD τ) arg2 fullShare x0 ∗ owns (c : Thread nD τ) arg3 fullShare (k0_pay3 x0 s1) ∗ owns (c : Thread nD τ) arg4 fullShare (s2)
            ∗ owns (c : Thread nD τ) arg5 fullShare (k0_pay3 x0 s1) ∗ owns (c : Thread nD τ) arg6 fullShare (s2)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%d1, %f1, -, H1⟩, ⟨%d2, %f2, -, H2⟩, ⟨%g1, %hg1, HS1⟩, ⟨%g2, %hg2, HS2⟩, Hk⟩
  obtain rfl := harg2.eq_unread hf0; obtain rfl := harg5.eq_unread hg1; obtain rfl := harg6.eq_unread hg2
  sl_exec (disch := first | exact hc1 | exact hc2 | exact hc3)
  sl_step
  iapply Hk
  isplitl [H0]
  · iexists _; isplitr; · ipureintro; exact hf0
    iexact H0
  isplitl [H1]
  · iexists _; isplitr
    swap; · iexact H1
    ipureintro
    refine (read_writes_unit_zero _ _ hz0 _ _).trans ?_
    try sl_unfold_run_names
    refine (View.readCov_unit_zero _ hz0 _ _).trans ?_
    exact congrArg₂ k0_pay3 (readAt_unit_zero arg2 harg2 hz0 _ x0) (readAt_unit_zero arg5 harg5 hz0 _ s1)
  isplitl [H2]
  · iexists _; isplitr
    swap; · iexact H2
    ipureintro
    refine (read_writes_unit_zero _ _ hz0 _ _).trans ?_
    try sl_unfold_run_names
    exact readAt_unit_zero arg6 harg6 hz0 _ s2
  isplitl [HS1]
  · iexists _; isplitr
    swap; · iexact HS1
    ipureintro
    try sl_unfold_run_names
    refine (read_writes_unit_zero _ _ hz0 _ _).trans ?_
    exact congrArg₂ k0_pay3 (readAt_unit_zero arg2 harg2 hz0 _ x0) (readAt_unit_zero arg5 harg5 hz0 _ s1)
  iexists _; isplitr; · ipureintro; exact hg2
  iexact HS2

end Cert.KernelIdeal.Hand

end
-- ==== Proof.Reg0Body.lean ====
/-
  The first kernel region's body obligation: at every grid point the body, called on the current staging buffers
  with the invariant, leaves the invariant of the next point — the two accumulators at one more step of their
  recursion — and each window's buffer as the pipeline expects it: the input's at its block, the outputs' handed
  back untouched except at the last column of the grid, where they hold the two accumulators.
-/
import proofs.«157629_j28613072126264_1_alg».proof.Proof.Reg0RunA
import proofs.«157629_j28613072126264_1_alg».proof.Proof.Reg0RunB
import proofs.«157629_j28613072126264_1_alg».proof.Proof.Reg0RunC
import proofs.«157629_j28613072126264_1_alg».proof.Proof.Reg0RunD
import proofs.«157629_j28613072126264_1_alg».proof.Proof.Reg0RunE
import proofs.«157629_j28613072126264_1_alg».proof.Proof.Reg0RunG
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## One point's effect on the accumulators, case by case -/

theorem step0_fst_clear (x : Vec F S512x512 .f32) (n : ℕ) (s : Vec F S512x128 .f32 × Vec F S512x128 .f32) (h1 : n % 16 = 0) :
    (step0 x n s).1 = k0_pay3 x (k0_pay1 (F := F)) := by
  show k0_pay3 x (if n % 16 = 0 then k0_pay1 (F := F) else s.1) = _
  rw [if_pos h1]
theorem step0_fst_keep (x : Vec F S512x512 .f32) (n : ℕ) (s : Vec F S512x128 .f32 × Vec F S512x128 .f32) (h1 : ¬n % 16 = 0) :
    (step0 x n s).1 = k0_pay3 x s.1 := by
  show k0_pay3 x (if n % 16 = 0 then k0_pay1 (F := F) else s.1) = _
  rw [if_neg h1]
theorem step0_snd_TT (x : Vec F S512x512 .f32) (n : ℕ) (s : Vec F S512x128 .f32 × Vec F S512x128 .f32) (h1 : n % 16 = 0) (h2 : n / 16 = n % 16) :
    (step0 x n s).2 = k0_pay4 x (k0_pay2 (F := F)) := by
  show (if n / 16 = n % 16 then k0_pay4 x (if n % 16 = 0 then k0_pay2 (F := F) else s.2) else (if n % 16 = 0 then k0_pay2 (F := F) else s.2)) = _
  rw [if_pos h2, if_pos h1]
theorem step0_snd_TF (x : Vec F S512x512 .f32) (n : ℕ) (s : Vec F S512x128 .f32 × Vec F S512x128 .f32) (h1 : n % 16 = 0) (h2 : ¬n / 16 = n % 16) :
    (step0 x n s).2 = k0_pay2 (F := F) := by
  show (if n / 16 = n % 16 then k0_pay4 x (if n % 16 = 0 then k0_pay2 (F := F) else s.2) else (if n % 16 = 0 then k0_pay2 (F := F) else s.2)) = _
  rw [if_neg h2, if_pos h1]
theorem step0_snd_FT (x : Vec F S512x512 .f32) (n : ℕ) (s : Vec F S512x128 .f32 × Vec F S512x128 .f32) (h1 : ¬n % 16 = 0) (h2 : n / 16 = n % 16) :
    (step0 x n s).2 = k0_pay4 x s.2 := by
  show (if n / 16 = n % 16 then k0_pay4 x (if n % 16 = 0 then k0_pay2 (F := F) else s.2) else (if n % 16 = 0 then k0_pay2 (F := F) else s.2)) = _
  rw [if_pos h2, if_neg h1]
theorem step0_snd_FF (x : Vec F S512x512 .f32) (n : ℕ) (s : Vec F S512x128 .f32 × Vec F S512x128 .f32) (h1 : ¬n % 16 = 0) (h2 : ¬n / 16 = n % 16) :
    (step0 x n s).2 = s.2 := by
  show (if n / 16 = n % 16 then k0_pay4 x (if n % 16 = 0 then k0_pay2 (F := F) else s.2) else (if n % 16 = 0 then k0_pay2 (F := F) else s.2)) = _
  rw [if_neg h2, if_neg h1]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input's buffer holds its block; the closed forms of the three conditions say which
    of the six cases the point is in, and that case's triple applies: the invariant hands the body the two
    accumulators at what the point before left (at anything at the first point, where they are cleared) and takes
    them back at one more step; an output window is handed back untouched where the third condition fails and
    holds its accumulator where it holds; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  have hN : t.val < 256 := lt_of_lt_of_eq t.isLt (show cfg0.N = 256 from N_0)
  by_cases h1 : t.val % 16 = 0
  · have h3 : ¬t.val % 16 = 15 := by omega
    by_cases h2 : t.val / 16 = t.val % 16
    · -- the first point
      rw [Dat.leavesExact_idle (dat0 V c) 1 t (idleAt0_1 t (fun h => h3 ((hcond0_3 t).mp h))) (noFlush0_1 t (fun h => h3 ((hcond0_3 t).mp h))),
        Dat.leavesExact_idle (dat0 V c) 2 t (idleAt0_2 t (fun h => h3 ((hcond0_3 t).mp h))) (noFlush0_2 t (fun h => h3 ((hcond0_3 t).mp h)))]
      have hz : t.val = 0 := by omega
      rw [scr0_first V c t hz, step0_fst_clear _ _ _ h1, step0_snd_TT _ _ _ h1 h2]
      rw [Phi0_castSucc V c t, Phi0_zero V c _ _ hz, PhiA0_eq]
      iintro ⟨⟨⟨HS1, HS2, Hr⟩, Hg⟩, Ho, ⟨%d0, H0⟩, ⟨%d1, H1⟩, ⟨%d2, H2⟩⟩
      iapply (run0_A c (grid0.coords t) _ _ _ _ _ _ _ _ _ _ ((hcond0_1 t).mpr h1) ((hcond0_2 t).mpr h2) (fun h => h3 ((hcond0_3 t).mp h)) (blkA0 V c t) _ _ Set.univ _)
      isplitl [H0]; · iexact H0
      isplitl [H1]; · iexact H1
      isplitl [H2]; · iexact H2
      isplitl [HS1]; · iexact HS1
      isplitl [HS2]; · iexact HS2
      iintro ⟨H0, H1, H2, HS1, HS2⟩
      isplitl [HS1 HS2 Hr Hg]
      · isplitl [HS1 HS2 Hr]
        · isplitl [HS1]; · iexact HS1
          isplitl [HS2]; · iexact HS2
          iexact Hr
        iexact Hg
      isplitl [Ho]; · iexact Ho
      isplitl [H0]; · iexact H0
      isplitl [H1]; · iexists _; iexact H1
      iexists _; iexact H2
    · -- the first point of a later block row
      rw [Dat.leavesExact_idle (dat0 V c) 1 t (idleAt0_1 t (fun h => h3 ((hcond0_3 t).mp h))) (noFlush0_1 t (fun h => h3 ((hcond0_3 t).mp h))),
        Dat.leavesExact_idle (dat0 V c) 2 t (idleAt0_2 t (fun h => h3 ((hcond0_3 t).mp h))) (noFlush0_2 t (fun h => h3 ((hcond0_3 t).mp h)))]
      have hz : t.val ≠ 0 := by omega
      rw [scr0_pos V c t hz, step0_fst_clear _ _ _ h1, step0_snd_TF _ _ _ h1 h2]
      rw [Phi0_castSucc V c t, Phi0_pos V c _ _ hz]
      iintro ⟨⟨⟨HS1, HS2, Hr⟩, Hg⟩, Ho, ⟨%d0, H0⟩, ⟨%d1, H1⟩, ⟨%d2, H2⟩⟩
      iapply (run0_B c (grid0.coords t) _ _ _ _ _ _ _ _ _ _ ((hcond0_1 t).mpr h1) (fun h => h2 ((hcond0_2 t).mp h)) (fun h => h3 ((hcond0_3 t).mp h)) (blkA0 V c t) _ _ Set.univ _)
      isplitl [H0]; · iexact H0
      isplitl [H1]; · iexact H1
      isplitl [H2]; · iexact H2
      isplitl [HS1]; · iexists _; iexact HS1
      isplitl [HS2]; · iexists _; iexact HS2
      iintro ⟨H0, H1, H2, HS1, HS2⟩
      isplitl [HS1 HS2 Hr Hg]
      · isplitl [HS1 HS2 Hr]
        · isplitl [HS1]; · iexact HS1
          isplitl [HS2]; · iexact HS2
          iexact Hr
        iexact Hg
      isplitl [Ho]; · iexact Ho
      isplitl [H0]; · iexact H0
      isplitl [H1]; · iexists _; iexact H1
      iexists _; iexact H2
  · by_cases h3 : t.val % 16 = 15
    · by_cases h2 : t.val / 16 = t.val % 16
      · -- the last point
        rw [show (dat0 V c).leavesExact 1 t = owns (c : Thread nD τ) (ms0_1 t) fullShare ((dat0 V c).after 1 t) from by
          unfold Dat.leavesExact; rw [liveAt0_1 t ((hcond0_3 t).mpr h3)], after0_1]
        rw [show (dat0 V c).leavesExact 2 t = owns (c : Thread nD τ) (ms0_2 t) fullShare ((dat0 V c).after 2 t) from by
          unfold Dat.leavesExact; rw [liveAt0_2 t ((hcond0_3 t).mpr h3)], after0_2]
        have hz : t.val ≠ 0 := by omega
        rw [scr0_pos V c t hz, step0_fst_keep _ _ _ h1, step0_snd_FT _ _ _ h1 h2]
        rw [Phi0_castSucc V c t, Phi0_pos V c _ _ hz]
        iintro ⟨⟨⟨HS1, HS2, Hr⟩, Hg⟩, Ho, ⟨%d0, H0⟩, ⟨%d1, H1⟩, ⟨%d2, H2⟩⟩
        iapply (run0_E c (grid0.coords t) _ _ _ _ _ _ _ _ _ _ (fun h => h1 ((hcond0_1 t).mp h)) ((hcond0_2 t).mpr h2) ((hcond0_3 t).mpr h3) (blkA0 V c t) _ _ Set.univ _)
        isplitl [H0]; · iexact H0
        isplitl [H1]; · iexists _; iexact H1
        isplitl [H2]; · iexists _; iexact H2
        isplitl [HS1]; · iexact HS1
        isplitl [HS2]; · iexact HS2
        iintro ⟨H0, H1, H2, HS1, HS2⟩
        isplitl [HS1 HS2 Hr Hg]
        · isplitl [HS1 HS2 Hr]
          · isplitl [HS1]; · iexact HS1
            isplitl [HS2]; · iexact HS2
            iexact Hr
          iexact Hg
        isplitl [Ho]; · iexact Ho
        isplitl [H0]; · iexact H0
        isplitl [H1]; · iexact H1
        iexact H2
      · -- the last point of an earlier block row
        rw [show (dat0 V c).leavesExact 1 t = owns (c : Thread nD τ) (ms0_1 t) fullShare ((dat0 V c).after 1 t) from by
          unfold Dat.leavesExact; rw [liveAt0_1 t ((hcond0_3 t).mpr h3)], after0_1]
        rw [show (dat0 V c).leavesExact 2 t = owns (c : Thread nD τ) (ms0_2 t) fullShare ((dat0 V c).after 2 t) from by
          unfold Dat.leavesExact; rw [liveAt0_2 t ((hcond0_3 t).mpr h3)], after0_2]
        have hz : t.val ≠ 0 := by omega
        rw [scr0_pos V c t hz, step0_fst_keep _ _ _ h1, step0_snd_FF _ _ _ h1 h2]
        rw [Phi0_castSucc V c t, Phi0_pos V c _ _ hz]
        iintro ⟨⟨⟨HS1, HS2, Hr⟩, Hg⟩, Ho, ⟨%d0, H0⟩, ⟨%d1, H1⟩, ⟨%d2, H2⟩⟩
        iapply (run0_G c (grid0.coords t) _ _ _ _ _ _ _ _ _ _ (fun h => h1 ((hcond0_1 t).mp h)) (fun h => h2 ((hcond0_2 t).mp h)) ((hcond0_3 t).mpr h3) (blkA0 V c t) _ _ Set.univ _)
        isplitl [H0]; · iexact H0
        isplitl [H1]; · iexists _; iexact H1
        isplitl [H2]; · iexists _; iexact H2
        isplitl [HS1]; · iexact HS1
        isplitl [HS2]; · iexact HS2
        iintro ⟨H0, H1, H2, HS1, HS2⟩
        isplitl [HS1 HS2 Hr Hg]
        · isplitl [HS1 HS2 Hr]
          · isplitl [HS1]; · iexact HS1
            isplitl [HS2]; · iexact HS2
            iexact Hr
          iexact Hg
        isplitl [Ho]; · iexact Ho
        isplitl [H0]; · iexact H0
        isplitl [H1]; · iexact H1
        iexact H2
    · by_cases h2 : t.val / 16 = t.val % 16
      · -- a diagonal point inside a block row
        rw [Dat.leavesExact_idle (dat0 V c) 1 t (idleAt0_1 t (fun h => h3 ((hcond0_3 t).mp h))) (noFlush0_1 t (fun h => h3 ((hcond0_3 t).mp h))),
          Dat.leavesExact_idle (dat0 V c) 2 t (idleAt0_2 t (fun h => h3 ((hcond0_3 t).mp h))) (noFlush0_2 t (fun h => h3 ((hcond0_3 t).mp h)))]
        have hz : t.val ≠ 0 := by omega
        rw [scr0_pos V c t hz, step0_fst_keep _ _ _ h1, step0_snd_FT _ _ _ h1 h2]
        rw [Phi0_castSucc V c t, Phi0_pos V c _ _ hz]
        iintro ⟨⟨⟨HS1, HS2, Hr⟩, Hg⟩, Ho, ⟨%d0, H0⟩, ⟨%d1, H1⟩, ⟨%d2, H2⟩⟩
        iapply (run0_C c (grid0.coords t) _ _ _ _ _ _ _ _ _ _ (fun h => h1 ((hcond0_1 t).mp h)) ((hcond0_2 t).mpr h2) (fun h => h3 ((hcond0_3 t).mp h)) (blkA0 V c t) _ _ _ _ Set.univ _)
        isplitl [H0]; · iexact H0
        isplitl [H1]; · iexact H1
        isplitl [H2]; · iexact H2
        isplitl [HS1]; · iexact HS1
        isplitl [HS2]; · iexact HS2
        iintro ⟨H0, H1, H2, HS1, HS2⟩
        isplitl [HS1 HS2 Hr Hg]
        · isplitl [HS1 HS2 Hr]
          · isplitl [HS1]; · iexact HS1
            isplitl [HS2]; · iexact HS2
            iexact Hr
          iexact Hg
        isplitl [Ho]; · iexact Ho
        isplitl [H0]; · iexact H0
        isplitl [H1]; · iexists _; iexact H1
        iexists _; iexact H2
      · -- any other point
        rw [Dat.leavesExact_idle (dat0 V c) 1 t (idleAt0_1 t (fun h => h3 ((hcond0_3 t).mp h))) (noFlush0_1 t (fun h => h3 ((hcond0_3 t).mp h))),
          Dat.leavesExact_idle (dat0 V c) 2 t (idleAt0_2 t (fun h => h3 ((hcond0_3 t).mp h))) (noFlush0_2 t (fun h => h3 ((hcond0_3 t).mp h)))]
        have hz : t.val ≠ 0 := by omega
        rw [scr0_pos V c t hz, step0_fst_keep _ _ _ h1, step0_snd_FF _ _ _ h1 h2]
        rw [Phi0_castSucc V c t, Phi0_pos V c _ _ hz]
        iintro ⟨⟨⟨HS1, HS2, Hr⟩, Hg⟩, Ho, ⟨%d0, H0⟩, ⟨%d1, H1⟩, ⟨%d2, H2⟩⟩
        iapply (run0_D c (grid0.coords t) _ _ _ _ _ _ _ _ _ _ (fun h => h1 ((hcond0_1 t).mp h)) (fun h => h2 ((hcond0_2 t).mp h)) (fun h => h3 ((hcond0_3 t).mp h)) (blkA0 V c t) _ _ _ _ Set.univ _)
        isplitl [H0]; · iexact H0
        isplitl [H1]; · iexact H1
        isplitl [H2]; · iexact H2
        isplitl [HS1]; · iexact HS1
        isplitl [HS2]; · iexact HS2
        iintro ⟨H0, H1, H2, HS1, HS2⟩
        isplitl [HS1 HS2 Hr Hg]
        · isplitl [HS1 HS2 Hr]
          · isplitl [HS1]; · iexact HS1
            isplitl [HS2]; · iexact HS2
            iexact Hr
          iexact Hg
        isplitl [Ho]; · iexact Ho
        isplitl [H0]; · iexact H0
        isplitl [H1]; · iexists _; iexact H1
        iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After the last point the invariant gives the launch's back: the accumulators' named contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 256 := N_0; omega
  rw [show (dat0 V c).Φ (Fin.last cfg0.N) = Phi0 V c (Fin.last cfg0.N).val (Nat.le_of_lt_succ (Fin.last cfg0.N).isLt) from rfl,
    Phi0_pos V c _ _ ht, PhiA0_eq]
  iintro ⟨⟨HS1, HS2, Hr⟩, Hg⟩
  isplitl [HS1 HS2 Hr]
  · isplitl [HS1]; · iexists _; iexact HS1
    isplitl [HS2]; · iexists _; iexact HS2
    iexact Hr
  iexact Hg

end Cert.KernelIdeal.Hand

end
-- ==== Proof.Reg1Cond.lean ====
/-
  The second kernel region's two branch conditions in closed form over the grid, and where its output window is
  idle.

  The grid is 8 x 8, point t = 8·i + k. The first condition (k = 0) holds exactly at the points t ≡ 0 (mod 8), the
  second (k = 7) exactly at the points t ≡ 7 (mod 8). The output window is stored into only under the second
  condition: elsewhere it is idle and its block is not written back.
-/
import proofs.«157629_j28613072126264_1_alg».proof.Proof.Dat1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the accumulator is cleared), from the grid coordinates. -/
abbrev cond1_0 (i : grid1.Coords) : Prop :=
  (Scalar.cmpi .ne (Scalar.extui (Scalar.cmpi .eq (BitVec.ofNat 32 (i 1).val) 0#32)) 0#32) = 1#1

/-- Over the 64 points of the grid it holds exactly at those ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the accumulator is copied to the output block), from the grid coordinates. -/
abbrev cond1_1 (i : grid1.Coords) : Prop := k1_cond2 i = 1#1

/-- Over the 64 points of the grid it holds exactly at those ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel

/-- Where the second condition fails the output window is idle, -/
theorem idleAt1_2 : ∀ t : Fin cfg1.N, ¬cond1_1 (grid1.coords t) → cfg1.idle 2 (grid1.coords t) = true := by decide +kernel
/-- and its block is not written back there. -/
theorem noFlush1_2 : ∀ t : Fin cfg1.N, ¬cond1_1 (grid1.coords t) → (cfg1.win 2).flush t = false := by decide +kernel
/-- Where it holds the window is live. -/
theorem liveAt1_2 : ∀ t : Fin cfg1.N, cond1_1 (grid1.coords t) → cfg1.idle 2 (grid1.coords t) = false := by decide +kernel

end Cert.KernelIdeal.Hand

end
-- ==== Proof.Reg1Whole.lean ====
/-
  Loads and stores through the whole-shape rectangle at zero offsets, for the second kernel region's two block
  shapes: a load of a whole memref reads its contents, and one such store leaves its payload.
-/
import proofs.«157629_j28613072126264_1_alg».proof.Proof.Reg1Cond
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-- A whole memref of the accumulator's shape, after one store through the whole-shape rectangle, reads the
    payload, whatever it held. -/
theorem read_store_128 (m : Memref sig .tc .vmem S1024x128 .f32) (f : m.view.ty.Contents (Elt F)) (w : Vec F S1024x128 .f32) :
    m.view.read (Elt F) (m.view.writes (Elt F) f
      [⟨Rect.unit ![0, 0] S1024x128.size inb_S1024x128_S1024x128_0_0, w⟩]) = w := by
  rw [View.read_writes_eq_canon _ _ _ (fun y => ⟨_, List.mem_singleton_self _, View.mem_set_unit_zero zeros2 inb_S1024x128_S1024x128_0_0 y⟩),
    View.canon_unit_zero zeros2]

/-- A load through the whole-shape rectangle of a whole memref holding `X` reads `X`: the accumulator's shape, -/
theorem load_whole_128 (m : Memref sig .tc .vmem S1024x128 .f32) (h : m.IsWhole) (X : Vec F S1024x128 .f32) :
    View.readAt (Elt F) m.view (Rect.unit ![0, 0] S1024x128.size inb_S1024x128_S1024x128_0_0).toLoadRect (h.unread X) = X := by
  rw [View.readAt_eq_ld, h.read_unread, View.ld_unit_zero zeros2]

/-- and the adjacency block's. -/
theorem load_whole_1024 (m : Memref sig .tc .vmem S1024x1024 .f32) (h : m.IsWhole) (X : Vec F S1024x1024 .f32) :
    View.readAt (Elt F) m.view (Rect.unit ![0, 0] S1024x1024.size inb_S1024x1024_S1024x1024_0_0).toLoadRect (h.unread X) = X := by
  rw [View.readAt_eq_ld, h.read_unread, View.ld_unit_zero zeros2]

end Cert.KernelIdeal.Hand

end
-- ==== Proof.Reg1RunB.lean ====
/-
  The second kernel region's body in the middle columns of the grid (0 < k < 7): neither branch is taken.

  On whole memrefs — the two input blocks at contents a and u, the output's buffer at anything, the accumulator at
  what the point before left — the body loads the three, stores the accumulator plus the product of the two blocks
  back into the accumulator, and leaves everything else as it found it.
-/
import proofs.«157629_j28613072126264_1_alg».proof.Proof.Reg1Whole

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 16384

set_option maxHeartbeats 4000000 in
/-- The body where neither branch is taken: the accumulator ends at the payload of the loaded blocks and of the
    accumulator as loaded; the inputs' and the output's buffers are untouched. -/
theorem run1_B (c : Dev nD) (i : grid1.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i)
    (xa : Vec F S1024x1024 .f32) (xu : Vec F S1024x128 .f32) (xo : Vec F S1024x128 .f32) (xs : Vec F S1024x128 .f32)
    (E : Set ℕ) (K : PUnit → sProp 𝕄) :
    iprop(owns (c : Thread nD τ) arg2 fullShare xa ∗ owns (c : Thread nD τ) arg3 fullShare xu
        ∗ owns (c : Thread nD τ) arg4 fullShare xo ∗ owns (c : Thread nD τ) arg5 fullShare xs
        ∗ (iprop(owns (c : Thread nD τ) arg2 fullShare xa ∗ owns (c : Thread nD τ) arg3 fullShare xu
            ∗ owns (c : Thread nD τ) arg4 fullShare xo ∗ owns (c : Thread nD τ) arg5 fullShare (k1_pay2 xa xu xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_store_128 _ _ _).trans ?_
  rw [load_whole_1024 _ harg2, load_whole_128 _ harg3, load_whole_128 _ harg5]

end Cert.KernelIdeal.Hand

end
-- ==== Proof.Reg1RunA.lean ====
/-
  The second kernel region's body in the first column of the grid (k = 0): the first branch is taken, the second
  is not.

  On whole memrefs — the two input blocks at contents a and u, the output's buffer and the accumulator at
  anything — the body clears the accumulator, loads the blocks and the cleared accumulator, stores the sum of the
  cleared accumulator and the blocks' product back into it, and leaves everything else as it found it.
-/
import proofs.«157629_j28613072126264_1_alg».proof.Proof.Reg1RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 16384

/-- A whole memref of the accumulator's shape whose LAST store went through the whole-shape rectangle reads that
    store's payload, whatever the earlier stores were. -/
theorem read_store_cons_128 (m : Memref sig .tc .vmem S1024x128 .f32) (f : m.view.ty.Contents (Elt F)) (w : Vec F S1024x128 .f32)
    (L : List (View.Piece (Elt F) S1024x128 .f32)) :
    m.view.read (Elt F) (m.view.writes (Elt F) f
      (⟨Rect.unit ![0, 0] S1024x128.size inb_S1024x128_S1024x128_0_0, w⟩ :: L)) = w := by
  rw [View.read_writes_eq_canon _ _ _ (fun y => ⟨_, List.mem_cons.mpr (Or.inl rfl),
      View.mem_set_unit_zero zeros2 inb_S1024x128_S1024x128_0_0 y⟩),
    View.canon_cons_unit_zero zeros2]

/-- A load through the whole-shape rectangle of what one store through it left reads the payload. -/
theorem load_stored_128 (m : Memref sig .tc .vmem S1024x128 .f32) (w : Vec F S1024x128 .f32) :
    m.view.readCov [⟨Rect.unit ![0, 0] S1024x128.size inb_S1024x128_S1024x128_0_0, w⟩]
      (Rect.unit ![0, 0] S1024x128.size inb_S1024x128_S1024x128_0_0).toLoadRect = w :=
  View.readCov_unit_zero m.view zeros2 inb_S1024x128_S1024x128_0_0 w

set_option maxHeartbeats 4000000 in
/-- The body where only the first branch is taken: the accumulator ends at the payload of the loaded blocks and of
    the cleared accumulator; the inputs' and the output's buffers are untouched. -/
theorem run1_A (c : Dev nD) (i : grid1.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i)
    (xa : Vec F S1024x1024 .f32) (xu : Vec F S1024x128 .f32) (xo : Vec F S1024x128 .f32) (xs : Vec F S1024x128 .f32)
    (E : Set ℕ) (K : PUnit → sProp 𝕄) :
    iprop(owns (c : Thread nD τ) arg2 fullShare xa ∗ owns (c : Thread nD τ) arg3 fullShare xu
        ∗ owns (c : Thread nD τ) arg4 fullShare xo ∗ owns (c : Thread nD τ) arg5 fullShare xs
        ∗ (iprop(owns (c : Thread nD τ) arg2 fullShare xa ∗ owns (c : Thread nD τ) arg3 fullShare xu
            ∗ owns (c : Thread nD τ) arg4 fullShare xo ∗ owns (c : Thread nD τ) arg5 fullShare (k1_pay2 xa xu (k1_pay1 (F := F)))) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_store_cons_128 _ _ _ _).trans ?_
  sl_unfold_words
  rw [load_whole_1024 _ harg2, load_whole_128 _ harg3, load_stored_128]

end Cert.KernelIdeal.Hand

end
-- ==== Proof.Reg1RunC.lean ====
/-
  The second kernel region's body in the last column of the grid (k = 7): the first branch is not taken, the
  second is.

  On whole memrefs — the two input blocks at contents a and u, the output's buffer at anything, the accumulator at
  what the point before left — the body loads the blocks and the accumulator, stores the accumulator plus the
  blocks' product back into the accumulator, then loads that and stores it into the output's buffer.
-/
import proofs.«157629_j28613072126264_1_alg».proof.Proof.Reg1RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 16384

set_option maxHeartbeats 4000000 in
/-- The body where only the second branch is taken: the accumulator and the output's buffer both end at the
    payload of the loaded blocks and of the accumulator as loaded; the inputs' buffers are untouched. -/
theorem run1_C (c : Dev nD) (i : grid1.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i)
    (xa : Vec F S1024x1024 .f32) (xu : Vec F S1024x128 .f32) (xo : Vec F S1024x128 .f32) (xs : Vec F S1024x128 .f32)
    (E : Set ℕ) (K : PUnit → sProp 𝕄) :
    iprop(owns (c : Thread nD τ) arg2 fullShare xa ∗ owns (c : Thread nD τ) arg3 fullShare xu
        ∗ owns (c : Thread nD τ) arg4 fullShare xo ∗ owns (c : Thread nD τ) arg5 fullShare xs
        ∗ (iprop(owns (c : Thread nD τ) arg2 fullShare xa ∗ owns (c : Thread nD τ) arg3 fullShare xu
            ∗ owns (c : Thread nD τ) arg4 fullShare (k1_pay2 xa xu xs) ∗ owns (c : Thread nD τ) arg5 fullShare (k1_pay2 xa xu xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_store_cons_128 _ _ _ _).trans ?_
    sl_unfold_words
    rw [load_stored_128, load_whole_1024 _ harg2, load_whole_128 _ harg3, load_whole_128 _ harg5]
  iexists _; isplitr
  swap; · iexact HS
  ipureintro
  sl_unfold_words
  refine (read_store_cons_128 _ _ _ _).trans ?_
  rw [load_whole_1024 _ harg2, load_whole_128 _ harg3, load_whole_128 _ harg5]

end Cert.KernelIdeal.Hand

end
-- ==== Proof.Reg1Phi.lean ====
/-
  The second kernel region's invariant taken apart and put back: the accumulator on one side, on the other
  everything the body never touches (the other region's eight scoped buffers, each whole at some contents, and
  the generator register at some state).
-/
import proofs.«157629_j28613072126264_1_alg».proof.Proof.Reg1Cond

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A TensorCore buffer of core `c`, whole, at some contents. -/
abbrev held (c : Dev nD) (b : Ref sig .tc) : sProp 𝕄 :=
  iprop(∃ f : Buf (Elt F) ((c : Thread nD τ).loc b), ((c : Thread nD τ).loc b) ↦{fullShare} f)

/-- What the invariant holds beside the accumulator. -/
def rest1 (c : Dev nD) : sProp 𝕄 :=
  iprop(held (F := F) c cc0_stg0_0
      ∗ held (F := F) c cc0_stg0_1
      ∗ held (F := F) c cc0_stg1_0
      ∗ held (F := F) c cc0_stg1_1
      ∗ held (F := F) c cc0_stg2_0
      ∗ held (F := F) c cc0_stg2_1
      ∗ held (F := F) c cc0_scratch0
      ∗ held (F := F) c cc0_scratch1
      ∗ (∃ r, prngReg c r))

/-- The invariant after point `n`, written out. -/
theorem Phi1_succ (c : Dev nD) (n : ℕ) (h : n + 1 ≤ cfg1.N) :
    Phi1 V c (n + 1) h = iprop((held (F := F) c cc0_stg0_0
      ∗ held (F := F) c cc0_stg0_1
      ∗ held (F := F) c cc0_stg1_0
      ∗ held (F := F) c cc0_stg1_1
      ∗ held (F := F) c cc0_stg2_0
      ∗ held (F := F) c cc0_stg2_1
      ∗ held (F := F) c cc0_scratch0
      ∗ held (F := F) c cc0_scratch1
      ∗ owns (c : Thread nD τ) scM1_0 fullShare (scr1 V c n h)) ∗ (∃ r, prngReg c r)) := rfl

/-- What the region is entered with, the accumulator as a memref owned at some contents. -/
theorem PhiA1_eq (c : Dev nD) :
    (Pipeline.ΦA spec1 c : sProp 𝕄) = iprop((held (F := F) c cc0_stg0_0
      ∗ held (F := F) c cc0_stg0_1
      ∗ held (F := F) c cc0_stg1_0
      ∗ held (F := F) c cc0_stg1_1
      ∗ held (F := F) c cc0_stg2_0
      ∗ held (F := F) c cc0_stg2_1
      ∗ held (F := F) c cc0_scratch0
      ∗ held (F := F) c cc0_scratch1
      ∗ (∃ d, owns (c : Thread nD τ) scM1_0 fullShare d)) ∗ (∃ r, prngReg c r)) := by
  unfold Pipeline.ΦA; rw [scopedRest1_eq]; simp only [scM1_0, owns_whole]
  rfl

/-- After point `n` the invariant is the accumulator at that point's contents beside the rest, -/
theorem Phi1_take (c : Dev nD) (n : ℕ) (h : n + 1 ≤ cfg1.N) :
    Phi1 V c (n + 1) h ⊢ iprop(owns (c : Thread nD τ) scM1_0 fullShare (scr1 V c n h) ∗ rest1 (F := F) c) := by
  rw [Phi1_succ]; unfold rest1
  iintro ⟨⟨H0, H1, H2, H3, H4, H5, H6, H7, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- and conversely. -/
theorem Phi1_give (c : Dev nD) (n : ℕ) (h : n + 1 ≤ cfg1.N) :
    iprop(owns (c : Thread nD τ) scM1_0 fullShare (scr1 V c n h) ∗ rest1 (F := F) c) ⊢ Phi1 V c (n + 1) h := by
  rw [Phi1_succ]; unfold rest1
  iintro ⟨HS, H0, H1, H2, H3, H4, H5, H6, H7, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- What the region is entered with is the accumulator at some contents beside the rest, -/
theorem PhiA1_take (c : Dev nD) :
    (Pipeline.ΦA spec1 c : sProp 𝕄) ⊢ iprop((∃ d, owns (c : Thread nD τ) scM1_0 fullShare d) ∗ rest1 (F := F) c) := by
  rw [PhiA1_eq]; unfold rest1
  iintro ⟨⟨H0, H1, H2, H3, H4, H5, H6, H7, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- and conversely. -/
theorem PhiA1_give (c : Dev nD) :
    iprop((∃ d, owns (c : Thread nD τ) scM1_0 fullShare d) ∗ rest1 (F := F) c) ⊢ (Pipeline.ΦA spec1 c : sProp 𝕄) := by
  rw [PhiA1_eq]; unfold rest1
  iintro ⟨HS, H0, H1, H2, H3, H4, H5, H6, H7, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- Before a point that is not the first, the accumulator is at what the point before left. -/
theorem Phi1_take_pos (c : Dev nD) (n : ℕ) (h : n ≤ cfg1.N) (hz : n ≠ 0) :
    Phi1 V c n h ⊢ iprop(owns (c : Thread nD τ) scM1_0 fullShare (scr1 V c (n - 1) (by omega)) ∗ rest1 (F := F) c) := by
  cases n with
  | zero => exact absurd rfl hz
  | succ n => exact Phi1_take V c n h

/-- Before any point, the accumulator is at some contents. -/
theorem Phi1_take_any (c : Dev nD) (n : ℕ) (h : n ≤ cfg1.N) :
    Phi1 V c n h ⊢ iprop((∃ d, owns (c : Thread nD τ) scM1_0 fullShare d) ∗ rest1 (F := F) c) := by
  cases n with
  | zero => exact PhiA1_take c
  | succ n =>
    refine (Phi1_take V c n h).trans ?_
    iintro ⟨HS, HR⟩
    isplitl [HS]; · iexists _; iexact HS
    iexact HR

/-- What the launch hands the region is the invariant before the first point. -/
theorem hin1 (c : Dev nD) : (Pipeline.ΦA spec1 c : sProp 𝕄) ⊢ (dat1 V c).Φ 0 :=
  Idealize.SL.BI.Entails.refl _

/-- After the last point the invariant gives that back: the accumulator's named contents are forgotten. -/
theorem hout1 (c : Dev nD) : (dat1 V c).Φ (Fin.last cfg1.N) ⊢ (Pipeline.ΦA spec1 c : sProp 𝕄) := by
  rw [show (dat1 V c).Φ (Fin.last cfg1.N)
    = Phi1 V c (Fin.last cfg1.N).val (Nat.le_of_lt_succ (Fin.last cfg1.N).isLt) from rfl]
  exact (Phi1_take_any V c _ _).trans (PhiA1_give c)

end Cert.KernelIdeal.Hand

end
-- ==== Proof.Reg1Body.lean ====
/-
  The second kernel region's body obligation: at every grid point, from the invariant and the three windows'
  current staging buffers, the body runs to the invariant at the next point with every buffer at what the proof
  data says.

  The point's column decides the case. In the first column the accumulator is cleared before the product is added,
  whatever it held; elsewhere the product is added to what the point before left. The output's buffer is handed
  back untouched except in the last column, where the accumulator is copied into it.
-/
import proofs.«157629_j28613072126264_1_alg».proof.Proof.Reg1RunC
import proofs.«157629_j28613072126264_1_alg».proof.Proof.Reg1Phi

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 16384

variable (V : (c : Dev nD) → (b : Ref sig .tc) → Buf (Elt F) ((c : Thread nD τ).loc b))

/-! ## The input windows' buffers before the body -/

/-- Both inputs are fetched at every point, so the body finds each one's buffer at its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)

theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The accumulator after a point, by the point's column -/

theorem scr1_eq_first (c : Dev nD) (n : ℕ) (h : n < cfg1.N) (h0 : n % 8 = 0) :
    scr1 V c n h = k1_pay2 (blkA1 V c ⟨n, h⟩) (blkU1 V c ⟨n, h⟩) (k1_pay1 (F := F)) := by
  cases n with
  | zero => rw [scr1_zero]; unfold step1; rw [if_pos h0]
  | succ n => rw [scr1_succ]; unfold step1; rw [if_pos h0]

theorem scr1_eq_later (c : Dev nD) (n : ℕ) (h : n < cfg1.N) (h0 : ¬n % 8 = 0) :
    scr1 V c n h = k1_pay2 (blkA1 V c ⟨n, h⟩) (blkU1 V c ⟨n, h⟩) (scr1 V c (n - 1) (by omega)) := by
  cases n with
  | zero => exact absurd (Nat.zero_mod 8) h0
  | succ n => rw [scr1_succ]; unfold step1; rw [if_neg h0]; rfl

/-- In the first column: the product added to the cleared accumulator. -/
theorem scr1_first (c : Dev nD) (t : Fin cfg1.N) (h0 : t.val % 8 = 0) :
    scr1 V c t.val t.isLt = k1_pay2 (iblk1 V c 0 t) (iblk1 V c 1 t) (k1_pay1 (F := F)) := by
  obtain ⟨n, hn⟩ := t
  exact scr1_eq_first V c n hn h0

/-- Elsewhere: the product added to what the point before left. -/
theorem scr1_later (c : Dev nD) (t : Fin cfg1.N) (h0 : ¬t.val % 8 = 0) :
    scr1 V c t.val t.isLt = k1_pay2 (iblk1 V c 0 t) (iblk1 V c 1 t) (scr1 V c (t.val - 1) (by omega)) := by
  obtain ⟨n, hn⟩ := t
  exact scr1_eq_later V c n hn h0

/-- The invariant after point `n` from the accumulator at any spelling `X` of that point's contents. -/
theorem Phi1_give_eq (c : Dev nD) (n : ℕ) (h : n + 1 ≤ cfg1.N) (X : Vec F S1024x128 .f32) (hX : scr1 V c n h = X) :
    iprop(owns (c : Thread nD τ) scM1_0 fullShare X ∗ rest1 (F := F) c) ⊢ Phi1 V c (n + 1) h := by
  subst hX; exact Phi1_give V c n h

/-! ## The obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl]
  rw [show (dat1 V c).Φ t.castSucc = Phi1 V c t.val (Nat.le_of_lt t.isLt) from rfl]
  rw [show (dat1 V c).leavesExact 0 t = owns (c : Thread nD τ) (st1_0 t) fullShare (iblk1 V c 0 t) from by
    unfold Dat.leavesExact; rw [liveAt1_0 t, after1_0]]
  rw [show (dat1 V c).leavesExact 1 t = owns (c : Thread nD τ) (st1_1 t) fullShare (iblk1 V c 1 t) from by
    unfold Dat.leavesExact; rw [liveAt1_1 t, after1_1]]
  have hN : t.val < 64 := lt_of_lt_of_eq t.isLt (show cfg1.N = 64 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    iintro ⟨HΦ, Ho, ⟨%d0, H0⟩, ⟨%d1, H1⟩, ⟨%d2, H2⟩⟩
    icases (Phi1_take_any V c t.val (Nat.le_of_lt t.isLt)) $$ HΦ with ⟨⟨%xs, HS⟩, HR⟩
    iapply (run1_A c (grid1.coords t) _ _ _ _ _ _ _ _ hc0 hc1 (iblk1 V c 0 t) (iblk1 V c 1 t) _ xs Set.univ _)
    isplitl [H0]; · iexact H0
    isplitl [H1]; · iexact H1
    isplitl [H2]; · iexact H2
    isplitl [HS]; · iexact HS
    iintro ⟨H0, H1, H2, HS⟩
    isplitl [HS HR]
    · iapply (Phi1_give_eq V c t.val t.isLt _ (scr1_first V c t h0))
      isplitl [HS]; · iexact HS
      iexact HR
    isplitl [Ho]; · iexact Ho
    isplitl [H0]; · iexact H0
    isplitl [H1]; · iexact H1
    iexists _; iexact H2
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V c).leavesExact 2 t = owns (c : Thread nD τ) (st1_2 t) fullShare (scr1 V c t.val t.isLt) from by
        unfold Dat.leavesExact; rw [liveAt1_2 t hc1, after1_2]]
      rw [scr1_later V c t h0]
      iintro ⟨HΦ, Ho, ⟨%d0, H0⟩, ⟨%d1, H1⟩, ⟨%d2, H2⟩⟩
      icases (Phi1_take_pos V c t.val (Nat.le_of_lt t.isLt) hz) $$ HΦ with ⟨HS, HR⟩
      iapply (run1_C c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · iapply (Phi1_give_eq V c t.val t.isLt _ (scr1_later V c t h0))
        isplitl [HS]; · iexact HS
        iexact HR
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨HΦ, Ho, ⟨%d0, H0⟩, ⟨%d1, H1⟩, ⟨%d2, H2⟩⟩
      icases (Phi1_take_pos V c t.val (Nat.le_of_lt t.isLt) hz) $$ HΦ with ⟨HS, HR⟩
      iapply (run1_B c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · iapply (Phi1_give_eq V c t.val t.isLt _ (scr1_later V c t h0))
        isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.BitsReg0Cond.lean ====
/-
  The first kernel region's control: the three conditions of its body in closed form over the point number
  t = 16·i + j, where the two output windows are idle and where they are written back, the input window's
  staging buffer at its block, and the region's entry invariant with the two accumulators named.
-/
import proofs.«157629_j28613072126264_1_alg».proof.Proof.BitsDat0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's three conditions -/

/-- The first conditional (clear the accumulators): the column coordinate is 0. -/
abbrev cond0_1 (i : grid0.Coords) : Prop :=
  (Scalar.cmpi .ne (Scalar.extui (Scalar.cmpi .eq (BitVec.ofNat 32 (i 1).val) 0#32)) 0#32) = 1#1
/-- The second (add the block's diagonal): the two coordinates agree. -/
abbrev cond0_2 (i : grid0.Coords) : Prop :=
  (Scalar.cmpi .ne (Scalar.extui (Scalar.cmpi .eq (BitVec.ofNat 32 (i 0).val) (BitVec.ofNat 32 (i 1).val))) 0#32) = 1#1
/-- The third (copy the accumulators out): the column coordinate is 15. -/
abbrev cond0_3 (i : grid0.Coords) : Prop := k0_cond3 i = 1#1

/-- The first holds at the points t with t % 16 = 0. -/
theorem hcond0_1 : ∀ t : Fin cfg0.N, cond0_1 (grid0.coords t) ↔ t.val % 16 = 0 :=
  (by decide +kernel : ∀ t : Fin grid0.N, cond0_1 (grid0.coords t) ↔ t.val % 16 = 0)
/-- The second at the points with t / 16 = t % 16. -/
theorem hcond0_2 : ∀ t : Fin cfg0.N, cond0_2 (grid0.coords t) ↔ t.val / 16 = t.val % 16 :=
  (by decide +kernel : ∀ t : Fin grid0.N, cond0_2 (grid0.coords t) ↔ t.val / 16 = t.val % 16)
/-- The third at the points with t % 16 = 15. -/
theorem hcond0_3 : ∀ t : Fin cfg0.N, cond0_3 (grid0.coords t) ↔ t.val % 16 = 15 :=
  (by decide +kernel : ∀ t : Fin grid0.N, cond0_3 (grid0.coords t) ↔ t.val % 16 = 15)

/-! ## Where the windows are idle and where they are written back -/

/-- The input window is never idle. -/
theorem liveAt0_0 : ∀ t : Fin cfg0.N, cfg0.idle 0 (grid0.coords t) = false := by decide +kernel
/-- The two output windows are live exactly where the third conditional holds, -/
theorem liveAt0_1 : ∀ t : Fin cfg0.N, cond0_3 (grid0.coords t) → cfg0.idle 1 (grid0.coords t) = false := by decide +kernel
theorem liveAt0_2 : ∀ t : Fin cfg0.N, cond0_3 (grid0.coords t) → cfg0.idle 2 (grid0.coords t) = false := by decide +kernel
/-- idle elsewhere, -/
theorem idleAt0_1 : ∀ t : Fin cfg0.N, ¬cond0_3 (grid0.coords t) → cfg0.idle 1 (grid0.coords t) = true := by decide +kernel
theorem idleAt0_2 : ∀ t : Fin cfg0.N, ¬cond0_3 (grid0.coords t) → cfg0.idle 2 (grid0.coords t) = true := by decide +kernel
/-- and not written back there. -/
theorem noFlush0_1 : ∀ t : Fin cfg0.N, ¬cond0_3 (grid0.coords t) → (cfg0.win 1).flush t = false := by decide +kernel
theorem noFlush0_2 : ∀ t : Fin cfg0.N, ¬cond0_3 (grid0.coords t) → (cfg0.win 2).flush t = false := by decide +kernel

/-! ## The input window's staging buffer -/

/-- The input window's current staging buffer holds its block at every point: it is fetched at every point, its
    blocks tile the array and it is never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-! ## The staging memrefs at a point -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)

/-! ## The invariant, the accumulators named -/

/-- The region's entry invariant: the two accumulators at some contents, the other region's scoped buffers, the
    generator register at some state. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 c)
          ∗ (∃ r, prngReg c r)) := by
  unfold Pipeline.ΦA rest0; rw [scopedRest0_eq]; simp only [scM0_0, scM0_1, owns_whole]; try rfl

/-- The invariant before the first point. -/
theorem Phi0_zero (c : Dev nD) (n : ℕ) (h : n ≤ cfg0.N) (hz : n = 0) : Phi0 V c n h = Pipeline.ΦA spec0 c := by
  subst hz; rfl

/-- The invariant after point n. -/
theorem Phi0_succ (c : Dev nD) (n : ℕ) (hn : n < cfg0.N) :
    Phi0 V c (n + 1) hn = iprop((owns (c : Thread nD τ) scM0_0 fullShare (scr0 V c n hn).1
      ∗ owns (c : Thread nD τ) scM0_1 fullShare (scr0 V c n hn).2 ∗ rest0 c) ∗ (∃ r, prngReg c r)) := rfl

/-- The invariant before a point that is not the first. -/
theorem Phi0_pos (c : Dev nD) (n : ℕ) (h : n ≤ cfg0.N) (hz : n ≠ 0) :
    Phi0 V c n h = iprop((owns (c : Thread nD τ) scM0_0 fullShare (scr0 V c (n - 1) (by omega)).1
      ∗ owns (c : Thread nD τ) scM0_1 fullShare (scr0 V c (n - 1) (by omega)).2 ∗ rest0 c) ∗ (∃ r, prngReg c r)) := by
  cases n with
  | zero => exact absurd rfl hz
  | succ n => rfl

/-- The invariant at a point's start, restated at the point's number. -/
theorem Phi0_castSucc (c : Dev nD) (t : Fin cfg0.N) :
    (dat0 V c).Φ t.castSucc = Phi0 V c t.val (Nat.le_of_lt t.isLt) := by
  dsimp only [dat0]; simp only [Fin.coe_castSucc]

/-- The accumulators after a point that is not the first, from what the point before left. -/
theorem scr0_pos (c : Dev nD) (t : Fin cfg0.N) (hz : t.val ≠ 0) :
    scr0 V c t.val t.isLt = step0 (blkA0 V c t) t.val (scr0 V c (t.val - 1) (Nat.lt_of_le_of_lt (Nat.sub_le _ _) t.isLt)) := by
  obtain ⟨n, hn⟩ := t
  cases n with
  | zero => exact absurd rfl hz
  | succ n => rfl

/-- The accumulators after the first point. -/
theorem scr0_first (c : Dev nD) (t : Fin cfg0.N) (hz : t.val = 0) :
    scr0 V c t.val t.isLt = step0 (blkA0 V c t) t.val (k0_pay1 (F := F), k0_pay2 (F := F)) := by
  obtain ⟨n, hn⟩ := t
  cases n with
  | zero => rfl
  | succ n => exact absurd hz (Nat.succ_ne_zero n)

end Cert.Kernel.Hand

end
-- ==== Proof.BitsReg0Mem.lean ====
/-
  Two facts about a buffer accessed whole — through the rectangle at zero offsets of the buffer's own sizes —:
  a load through it of given contents reads the contents, and one store through it leaves its payload.
-/
import proofs.«157629_j28613072126264_1_alg».proof.Proof.BitsReg0Cond
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets as the program spells them. -/
theorem hz0 : (![0, 0] : Fin 2 → Nat) = fun _ => 0 := funext fun a => by fin_cases a <;> rfl

/-- One store through the whole-shape rectangle at zero offsets leaves its payload, whatever was there. -/
theorem read_writes_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  exact (View.read_writes_eq_canon v f _ (fun y => ⟨_, List.mem_singleton_self _, by
    show y ∈ (Rect.whole S).set; rw [Rect.set_whole]; exact Finset.mem_univ y⟩)).trans (View.canon_unit_zero rfl _ w)

/-- The same, the last of several stores. -/
theorem read_writes_cons_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  exact (View.read_writes_eq_canon v f _ (fun y => ⟨_, List.mem_cons_self, by
    show y ∈ (Rect.whole S).set; rw [Rect.set_whole]; exact Finset.mem_univ y⟩)).trans (View.canon_cons_unit_zero rfl _ w L)

/-- A load through it of a whole memref's contents reads them. -/
theorem readAt_unit_zero {sp : Space} {S : Shape} {e : EltTy} (M : Memref sig .tc sp S e) (hM : M.IsWhole)
    {off : Fin S.rank → Nat} (h : off = fun _ => 0) (inb : ∀ a, off a + S.size a ≤ S.size a) (X : S.Idx → Elt F e) :
    View.readAt (Elt F) M.view (Rect.unit off S.size inb).toLoadRect (hM.unread X) = X := by
  rw [View.readAt_eq_ld, hM.read_unread]; exact View.ld_unit_zero h inb X

end Cert.Kernel.Hand

end
-- ==== Proof.BitsReg0RunA.lean ====
/-
  The first kernel region's body at the grid's first point (i = 0, j = 0): both accumulators are cleared, the
  first gets the block's row sums and the second the block's diagonal; the output windows are handed back.
-/
import proofs.«157629_j28613072126264_1_alg».proof.Proof.BitsReg0Mem
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the first two conditionals are taken and the third is not. -/
theorem run0_A (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : cond0_1 i) (hc2 : cond0_2 i) (hc3 : ¬cond0_3 i)
    (x0 : Vec F S512x512 .f32) (xi1 xi2 : Vec F S512x128 .f32) (E : Set ℕ) (K : PUnit → sProp 𝕄) :
    iprop(owns (c : Thread nD τ) arg2 fullShare x0 ∗ owns (c : Thread nD τ) arg3 fullShare xi1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 (k0_pay1 (F := F))) ∗ owns (c : Thread nD τ) arg6 fullShare (k0_pay4 x0 (k0_pay2 (F := F)))) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%e1, %g1, -, HS1⟩, ⟨%e2, %g2, -, HS2⟩, Hk⟩
  obtain rfl := harg2.eq_unread hf0; obtain rfl := harg3.eq_unread hf1; obtain rfl := harg4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    try sl_unfold_run_names
    refine (read_writes_cons_unit_zero _ _ hz0 _ _ _).trans ?_
    exact congrArg₂ k0_pay3 (readAt_unit_zero arg2 harg2 hz0 _ x0) (View.readCov_unit_zero _ hz0 _ _)
  iexists _; isplitr
  swap; · iexact HS2
  ipureintro
  try sl_unfold_run_names
  refine (read_writes_cons_unit_zero _ _ hz0 _ _ _).trans ?_
  exact congrArg₂ k0_pay4 (readAt_unit_zero arg2 harg2 hz0 _ x0) (View.readCov_unit_zero _ hz0 _ _)

end Cert.Kernel.Hand

end
-- ==== Proof.BitsReg0RunB.lean ====
/-
  The first kernel region's body at the first point of a later block row (j = 0, i ≠ 0): both accumulators are
  cleared and the first gets the block's row sums; the output windows are handed back.
-/
import proofs.«157629_j28613072126264_1_alg».proof.Proof.BitsReg0Mem
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where only the first conditional is taken. -/
theorem run0_B (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : cond0_1 i) (hc2 : ¬cond0_2 i) (hc3 : ¬cond0_3 i)
    (x0 : Vec F S512x512 .f32) (xi1 xi2 : Vec F S512x128 .f32) (E : Set ℕ) (K : PUnit → sProp 𝕄) :
    iprop(owns (c : Thread nD τ) arg2 fullShare x0 ∗ owns (c : Thread nD τ) arg3 fullShare xi1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 (k0_pay1 (F := F))) ∗ owns (c : Thread nD τ) arg6 fullShare ((k0_pay2 (F := F)))) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%e1, %g1, -, HS1⟩, ⟨%e2, %g2, -, HS2⟩, Hk⟩
  obtain rfl := harg2.eq_unread hf0; obtain rfl := harg3.eq_unread hf1; obtain rfl := harg4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    try sl_unfold_run_names
    refine (read_writes_cons_unit_zero _ _ hz0 _ _ _).trans ?_
    exact congrArg₂ k0_pay3 (readAt_unit_zero arg2 harg2 hz0 _ x0) (View.readCov_unit_zero _ hz0 _ _)
  iexists _; isplitr
  swap; · iexact HS2
  ipureintro
  try sl_unfold_run_names
  exact read_writes_unit_zero _ _ hz0 _ _

end Cert.Kernel.Hand

end
-- ==== Proof.BitsReg0RunC.lean ====
/-
  The first kernel region's body at a diagonal point strictly inside a block row (0 < j < 15, i = j): the first
  accumulator gets the block's row sums added, the second the block's diagonal; the output windows are handed back.
-/
import proofs.«157629_j28613072126264_1_alg».proof.Proof.BitsReg0Mem
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where only the second conditional is taken. -/
theorem run0_C (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : ¬cond0_1 i) (hc2 : cond0_2 i) (hc3 : ¬cond0_3 i)
    (x0 : Vec F S512x512 .f32) (xi1 xi2 : Vec F S512x128 .f32) (s1 s2 : Vec F S512x128 .f32) (E : Set ℕ) (K : PUnit → sProp 𝕄) :
    iprop(owns (c : Thread nD τ) arg2 fullShare x0 ∗ owns (c : Thread nD τ) arg3 fullShare xi1 ∗ owns (c : Thread nD τ) arg4 fullShare xi2
        ∗ owns (c : Thread nD τ) arg5 fullShare s1 ∗ owns (c : Thread nD τ) arg6 fullShare s2
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 s1) ∗ owns (c : Thread nD τ) arg6 fullShare (k0_pay4 x0 s2)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hg1; obtain rfl := harg6.eq_unread hg2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    try sl_unfold_run_names
    refine (read_writes_unit_zero _ _ hz0 _ _).trans ?_
    exact congrArg₂ k0_pay3 (readAt_unit_zero arg2 harg2 hz0 _ x0) (readAt_unit_zero arg5 harg5 hz0 _ s1)
  iexists _; isplitr
  swap; · iexact HS2
  ipureintro
  try sl_unfold_run_names
  refine (read_writes_unit_zero _ _ hz0 _ _).trans ?_
  exact congrArg₂ k0_pay4 (readAt_unit_zero arg2 harg2 hz0 _ x0) (readAt_unit_zero arg6 harg6 hz0 _ s2)

end Cert.Kernel.Hand

end
-- ==== Proof.BitsReg0RunD.lean ====
/-
  The first kernel region's body at a point strictly inside a block row and off the diagonal (0 < j < 15, i ≠ j):
  no conditional is taken; the first accumulator gets the block's row sums added, everything else is handed back.
-/
import proofs.«157629_j28613072126264_1_alg».proof.Proof.BitsReg0Mem
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where no conditional is taken. -/
theorem run0_D (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : ¬cond0_1 i) (hc2 : ¬cond0_2 i) (hc3 : ¬cond0_3 i)
    (x0 : Vec F S512x512 .f32) (xi1 xi2 : Vec F S512x128 .f32) (s1 s2 : Vec F S512x128 .f32) (E : Set ℕ) (K : PUnit → sProp 𝕄) :
    iprop(owns (c : Thread nD τ) arg2 fullShare x0 ∗ owns (c : Thread nD τ) arg3 fullShare xi1 ∗ owns (c : Thread nD τ) arg4 fullShare xi2
        ∗ owns (c : Thread nD τ) arg5 fullShare s1 ∗ owns (c : Thread nD τ) arg6 fullShare s2
        ∗ (iprop(owns (c : Thread nD τ) arg2 fullShare x0 ∗ owns (c : Thread nD τ) arg3 fullShare xi1 ∗ owns (c : Thread nD τ) arg4 fullShare xi2
            ∗ owns (c : Thread nD τ) arg5 fullShare (k0_pay3 x0 s1) ∗ owns (c : Thread nD τ) arg6 fullShare (s2)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hg1; obtain rfl := harg6.eq_unread hg2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    refine (read_writes_unit_zero _ _ hz0 _ _).trans ?_
    exact congrArg₂ k0_pay3 (readAt_unit_zero arg2 harg2 hz0 _ x0) (readAt_unit_zero arg5 harg5 hz0 _ s1)
  iexists _; isplitr; · ipureintro; exact hg2
  iexact HS2

end Cert.Kernel.Hand

end
-- ==== Proof.BitsReg0RunE.lean ====
/-
  The first kernel region's body at the grid's last point (i = 15, j = 15): the first accumulator gets the block's
  row sums added, the second the block's diagonal, and both are copied to the output windows.
-/
import proofs.«157629_j28613072126264_1_alg».proof.Proof.BitsReg0Mem
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where the last two conditionals are taken and the first is not. -/
theorem run0_E (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : ¬cond0_1 i) (hc2 : cond0_2 i) (hc3 : cond0_3 i)
    (x0 : Vec F S512x512 .f32) (s1 s2 : Vec F S512x128 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare s1 ∗ owns (c : Thread nD τ) arg6 fullShare s2
        ∗ (iprop(owns (c : Thread nD τ) arg2 fullShare x0 ∗ owns (c : Thread nD τ) arg3 fullShare (k0_pay3 x0 s1) ∗ owns (c : Thread nD τ) arg4 fullShare (k0_pay4 x0 s2)
            ∗ owns (c : Thread nD τ) arg5 fullShare (k0_pay3 x0 s1) ∗ owns (c : Thread nD τ) arg6 fullShare (k0_pay4 x0 s2)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%d1, %f1, -, H1⟩, ⟨%d2, %f2, -, H2⟩, ⟨%g1, %hg1, HS1⟩, ⟨%g2, %hg2, HS2⟩, Hk⟩
  obtain rfl := harg2.eq_unread hf0; obtain rfl := harg5.eq_unread hg1; obtain rfl := harg6.eq_unread hg2
  sl_exec (disch := first | exact hc1 | exact hc2 | exact hc3)
  sl_step
  iapply Hk
  isplitl [H0]
  · iexists _; isplitr; · ipureintro; exact hf0
    iexact H0
  isplitl [H1]
  · iexists _; isplitr
    swap; · iexact H1
    ipureintro
    refine (read_writes_unit_zero _ _ hz0 _ _).trans ?_
    try sl_unfold_run_names
    refine (View.readCov_unit_zero _ hz0 _ _).trans ?_
    exact congrArg₂ k0_pay3 (readAt_unit_zero arg2 harg2 hz0 _ x0) (readAt_unit_zero arg5 harg5 hz0 _ s1)
  isplitl [H2]
  · iexists _; isplitr
    swap; · iexact H2
    ipureintro
    refine (read_writes_unit_zero _ _ hz0 _ _).trans ?_
    try sl_unfold_run_names
    refine (View.readCov_unit_zero _ hz0 _ _).trans ?_
    exact congrArg₂ k0_pay4 (readAt_unit_zero arg2 harg2 hz0 _ x0) (readAt_unit_zero arg6 harg6 hz0 _ s2)
  isplitl [HS1]
  · iexists _; isplitr
    swap; · iexact HS1
    ipureintro
    try sl_unfold_run_names
    refine (read_writes_unit_zero _ _ hz0 _ _).trans ?_
    exact congrArg₂ k0_pay3 (readAt_unit_zero arg2 harg2 hz0 _ x0) (readAt_unit_zero arg5 harg5 hz0 _ s1)
  iexists _; isplitr
  swap; · iexact HS2
  ipureintro
  try sl_unfold_run_names
  refine (read_writes_unit_zero _ _ hz0 _ _).trans ?_
  exact congrArg₂ k0_pay4 (readAt_unit_zero arg2 harg2 hz0 _ x0) (readAt_unit_zero arg6 harg6 hz0 _ s2)

end Cert.Kernel.Hand

end
-- ==== Proof.BitsReg0RunG.lean ====
/-
  The first kernel region's body at the last point of a block row off the diagonal (j = 15, i ≠ 15): the first
  accumulator gets the block's row sums added and both accumulators are copied to the output windows.
-/
import proofs.«157629_j28613072126264_1_alg».proof.Proof.BitsReg0Mem
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where only the third conditional is taken. -/
theorem run0_G (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole)
    (hc1 : ¬cond0_1 i) (hc2 : ¬cond0_2 i) (hc3 : cond0_3 i)
    (x0 : Vec F S512x512 .f32) (s1 s2 : Vec F S512x128 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare s1 ∗ owns (c : Thread nD τ) arg6 fullShare s2
        ∗ (iprop(owns (c : Thread nD τ) arg2 fullShare x0 ∗ owns (c : Thread nD τ) arg3 fullShare (k0_pay3 x0 s1) ∗ owns (c : Thread nD τ) arg4 fullShare (s2)
            ∗ owns (c : Thread nD τ) arg5 fullShare (k0_pay3 x0 s1) ∗ owns (c : Thread nD τ) arg6 fullShare (s2)) -∗ K ⟨⟩))
      ⊢ wp frame (wpE (defs₀ (F := F)) Variants.none c none) E (cc0__reduce_kernel i arg2 harg2 arg3 harg3 arg4 harg4 arg5 harg5 arg6 harg6) K := by
  simp only [cc0__reduce_kernel_eq_skeleton]; unfold cc0__reduce_kernel_skel
  unfold owns
  iintro ⟨⟨%f0, %hf0, H0⟩, ⟨%d1, %f1, -, H1⟩, ⟨%d2, %f2, -, H2⟩, ⟨%g1, %hg1, HS1⟩, ⟨%g2, %hg2, HS2⟩, Hk⟩
  obtain rfl := harg2.eq_unread hf0; obtain rfl := harg5.eq_unread hg1; obtain rfl := harg6.eq_unread hg2
  sl_exec (disch := first | exact hc1 | exact hc2 | exact hc3)
  sl_step
  iapply Hk
  isplitl [H0]
  · iexists _; isplitr; · ipureintro; exact hf0
    iexact H0
  isplitl [H1]
  · iexists _; isplitr
    swap; · iexact H1
    ipureintro
    refine (read_writes_unit_zero _ _ hz0 _ _).trans ?_
    try sl_unfold_run_names
    refine (View.readCov_unit_zero _ hz0 _ _).trans ?_
    exact congrArg₂ k0_pay3 (readAt_unit_zero arg2 harg2 hz0 _ x0) (readAt_unit_zero arg5 harg5 hz0 _ s1)
  isplitl [H2]
  · iexists _; isplitr
    swap; · iexact H2
    ipureintro
    refine (read_writes_unit_zero _ _ hz0 _ _).trans ?_
    try sl_unfold_run_names
    exact readAt_unit_zero arg6 harg6 hz0 _ s2
  isplitl [HS1]
  · iexists _; isplitr
    swap; · iexact HS1
    ipureintro
    try sl_unfold_run_names
    refine (read_writes_unit_zero _ _ hz0 _ _).trans ?_
    exact congrArg₂ k0_pay3 (readAt_unit_zero arg2 harg2 hz0 _ x0) (readAt_unit_zero arg5 harg5 hz0 _ s1)
  iexists _; isplitr; · ipureintro; exact hg2
  iexact HS2

end Cert.Kernel.Hand

end
-- ==== Proof.BitsReg0Body.lean ====
/-
  The first kernel region's body obligation: at every grid point the body, called on the current staging buffers
  with the invariant, leaves the invariant of the next point — the two accumulators at one more step of their
  recursion — and each window's buffer as the pipeline expects it: the input's at its block, the outputs' handed
  back untouched except at the last column of the grid, where they hold the two accumulators.
-/
import proofs.«157629_j28613072126264_1_alg».proof.Proof.BitsReg0RunA
import proofs.«157629_j28613072126264_1_alg».proof.Proof.BitsReg0RunB
import proofs.«157629_j28613072126264_1_alg».proof.Proof.BitsReg0RunC
import proofs.«157629_j28613072126264_1_alg».proof.Proof.BitsReg0RunD
import proofs.«157629_j28613072126264_1_alg».proof.Proof.BitsReg0RunE
import proofs.«157629_j28613072126264_1_alg».proof.Proof.BitsReg0RunG
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## One point's effect on the accumulators, case by case -/

theorem step0_fst_clear (x : Vec F S512x512 .f32) (n : ℕ) (s : Vec F S512x128 .f32 × Vec F S512x128 .f32) (h1 : n % 16 = 0) :
    (step0 x n s).1 = k0_pay3 x (k0_pay1 (F := F)) := by
  show k0_pay3 x (if n % 16 = 0 then k0_pay1 (F := F) else s.1) = _
  rw [if_pos h1]
theorem step0_fst_keep (x : Vec F S512x512 .f32) (n : ℕ) (s : Vec F S512x128 .f32 × Vec F S512x128 .f32) (h1 : ¬n % 16 = 0) :
    (step0 x n s).1 = k0_pay3 x s.1 := by
  show k0_pay3 x (if n % 16 = 0 then k0_pay1 (F := F) else s.1) = _
  rw [if_neg h1]
theorem step0_snd_TT (x : Vec F S512x512 .f32) (n : ℕ) (s : Vec F S512x128 .f32 × Vec F S512x128 .f32) (h1 : n % 16 = 0) (h2 : n / 16 = n % 16) :
    (step0 x n s).2 = k0_pay4 x (k0_pay2 (F := F)) := by
  show (if n / 16 = n % 16 then k0_pay4 x (if n % 16 = 0 then k0_pay2 (F := F) else s.2) else (if n % 16 = 0 then k0_pay2 (F := F) else s.2)) = _
  rw [if_pos h2, if_pos h1]
theorem step0_snd_TF (x : Vec F S512x512 .f32) (n : ℕ) (s : Vec F S512x128 .f32 × Vec F S512x128 .f32) (h1 : n % 16 = 0) (h2 : ¬n / 16 = n % 16) :
    (step0 x n s).2 = k0_pay2 (F := F) := by
  show (if n / 16 = n % 16 then k0_pay4 x (if n % 16 = 0 then k0_pay2 (F := F) else s.2) else (if n % 16 = 0 then k0_pay2 (F := F) else s.2)) = _
  rw [if_neg h2, if_pos h1]
theorem step0_snd_FT (x : Vec F S512x512 .f32) (n : ℕ) (s : Vec F S512x128 .f32 × Vec F S512x128 .f32) (h1 : ¬n % 16 = 0) (h2 : n / 16 = n % 16) :
    (step0 x n s).2 = k0_pay4 x s.2 := by
  show (if n / 16 = n % 16 then k0_pay4 x (if n % 16 = 0 then k0_pay2 (F := F) else s.2) else (if n % 16 = 0 then k0_pay2 (F := F) else s.2)) = _
  rw [if_pos h2, if_neg h1]
theorem step0_snd_FF (x : Vec F S512x512 .f32) (n : ℕ) (s : Vec F S512x128 .f32 × Vec F S512x128 .f32) (h1 : ¬n % 16 = 0) (h2 : ¬n / 16 = n % 16) :
    (step0 x n s).2 = s.2 := by
  show (if n / 16 = n % 16 then k0_pay4 x (if n % 16 = 0 then k0_pay2 (F := F) else s.2) else (if n % 16 = 0 then k0_pay2 (F := F) else s.2)) = _
  rw [if_neg h2, if_neg h1]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input's buffer holds its block; the closed forms of the three conditions say which
    of the six cases the point is in, and that case's triple applies: the invariant hands the body the two
    accumulators at what the point before left (at anything at the first point, where they are cleared) and takes
    them back at one more step; an output window is handed back untouched where the third condition fails and
    holds its accumulator where it holds; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  have hN : t.val < 256 := lt_of_lt_of_eq t.isLt (show cfg0.N = 256 from N_0)
  by_cases h1 : t.val % 16 = 0
  · have h3 : ¬t.val % 16 = 15 := by omega
    by_cases h2 : t.val / 16 = t.val % 16
    · -- the first point
      rw [Dat.leavesExact_idle (dat0 V c) 1 t (idleAt0_1 t (fun h => h3 ((hcond0_3 t).mp h))) (noFlush0_1 t (fun h => h3 ((hcond0_3 t).mp h))),
        Dat.leavesExact_idle (dat0 V c) 2 t (idleAt0_2 t (fun h => h3 ((hcond0_3 t).mp h))) (noFlush0_2 t (fun h => h3 ((hcond0_3 t).mp h)))]
      have hz : t.val = 0 := by omega
      rw [scr0_first V c t hz, step0_fst_clear _ _ _ h1, step0_snd_TT _ _ _ h1 h2]
      rw [Phi0_castSucc V c t, Phi0_zero V c _ _ hz, PhiA0_eq]
      iintro ⟨⟨⟨HS1, HS2, Hr⟩, Hg⟩, Ho, ⟨%d0, H0⟩, ⟨%d1, H1⟩, ⟨%d2, H2⟩⟩
      iapply (run0_A c (grid0.coords t) _ _ _ _ _ _ _ _ _ _ ((hcond0_1 t).mpr h1) ((hcond0_2 t).mpr h2) (fun h => h3 ((hcond0_3 t).mp h)) (blkA0 V c t) _ _ Set.univ _)
      isplitl [H0]; · iexact H0
      isplitl [H1]; · iexact H1
      isplitl [H2]; · iexact H2
      isplitl [HS1]; · iexact HS1
      isplitl [HS2]; · iexact HS2
      iintro ⟨H0, H1, H2, HS1, HS2⟩
      isplitl [HS1 HS2 Hr Hg]
      · isplitl [HS1 HS2 Hr]
        · isplitl [HS1]; · iexact HS1
          isplitl [HS2]; · iexact HS2
          iexact Hr
        iexact Hg
      isplitl [Ho]; · iexact Ho
      isplitl [H0]; · iexact H0
      isplitl [H1]; · iexists _; iexact H1
      iexists _; iexact H2
    · -- the first point of a later block row
      rw [Dat.leavesExact_idle (dat0 V c) 1 t (idleAt0_1 t (fun h => h3 ((hcond0_3 t).mp h))) (noFlush0_1 t (fun h => h3 ((hcond0_3 t).mp h))),
        Dat.leavesExact_idle (dat0 V c) 2 t (idleAt0_2 t (fun h => h3 ((hcond0_3 t).mp h))) (noFlush0_2 t (fun h => h3 ((hcond0_3 t).mp h)))]
      have hz : t.val ≠ 0 := by omega
      rw [scr0_pos V c t hz, step0_fst_clear _ _ _ h1, step0_snd_TF _ _ _ h1 h2]
      rw [Phi0_castSucc V c t, Phi0_pos V c _ _ hz]
      iintro ⟨⟨⟨HS1, HS2, Hr⟩, Hg⟩, Ho, ⟨%d0, H0⟩, ⟨%d1, H1⟩, ⟨%d2, H2⟩⟩
      iapply (run0_B c (grid0.coords t) _ _ _ _ _ _ _ _ _ _ ((hcond0_1 t).mpr h1) (fun h => h2 ((hcond0_2 t).mp h)) (fun h => h3 ((hcond0_3 t).mp h)) (blkA0 V c t) _ _ Set.univ _)
      isplitl [H0]; · iexact H0
      isplitl [H1]; · iexact H1
      isplitl [H2]; · iexact H2
      isplitl [HS1]; · iexists _; iexact HS1
      isplitl [HS2]; · iexists _; iexact HS2
      iintro ⟨H0, H1, H2, HS1, HS2⟩
      isplitl [HS1 HS2 Hr Hg]
      · isplitl [HS1 HS2 Hr]
        · isplitl [HS1]; · iexact HS1
          isplitl [HS2]; · iexact HS2
          iexact Hr
        iexact Hg
      isplitl [Ho]; · iexact Ho
      isplitl [H0]; · iexact H0
      isplitl [H1]; · iexists _; iexact H1
      iexists _; iexact H2
  · by_cases h3 : t.val % 16 = 15
    · by_cases h2 : t.val / 16 = t.val % 16
      · -- the last point
        rw [show (dat0 V c).leavesExact 1 t = owns (c : Thread nD τ) (ms0_1 t) fullShare ((dat0 V c).after 1 t) from by
          unfold Dat.leavesExact; rw [liveAt0_1 t ((hcond0_3 t).mpr h3)], after0_1]
        rw [show (dat0 V c).leavesExact 2 t = owns (c : Thread nD τ) (ms0_2 t) fullShare ((dat0 V c).after 2 t) from by
          unfold Dat.leavesExact; rw [liveAt0_2 t ((hcond0_3 t).mpr h3)], after0_2]
        have hz : t.val ≠ 0 := by omega
        rw [scr0_pos V c t hz, step0_fst_keep _ _ _ h1, step0_snd_FT _ _ _ h1 h2]
        rw [Phi0_castSucc V c t, Phi0_pos V c _ _ hz]
        iintro ⟨⟨⟨HS1, HS2, Hr⟩, Hg⟩, Ho, ⟨%d0, H0⟩, ⟨%d1, H1⟩, ⟨%d2, H2⟩⟩
        iapply (run0_E c (grid0.coords t) _ _ _ _ _ _ _ _ _ _ (fun h => h1 ((hcond0_1 t).mp h)) ((hcond0_2 t).mpr h2) ((hcond0_3 t).mpr h3) (blkA0 V c t) _ _ Set.univ _)
        isplitl [H0]; · iexact H0
        isplitl [H1]; · iexists _; iexact H1
        isplitl [H2]; · iexists _; iexact H2
        isplitl [HS1]; · iexact HS1
        isplitl [HS2]; · iexact HS2
        iintro ⟨H0, H1, H2, HS1, HS2⟩
        isplitl [HS1 HS2 Hr Hg]
        · isplitl [HS1 HS2 Hr]
          · isplitl [HS1]; · iexact HS1
            isplitl [HS2]; · iexact HS2
            iexact Hr
          iexact Hg
        isplitl [Ho]; · iexact Ho
        isplitl [H0]; · iexact H0
        isplitl [H1]; · iexact H1
        iexact H2
      · -- the last point of an earlier block row
        rw [show (dat0 V c).leavesExact 1 t = owns (c : Thread nD τ) (ms0_1 t) fullShare ((dat0 V c).after 1 t) from by
          unfold Dat.leavesExact; rw [liveAt0_1 t ((hcond0_3 t).mpr h3)], after0_1]
        rw [show (dat0 V c).leavesExact 2 t = owns (c : Thread nD τ) (ms0_2 t) fullShare ((dat0 V c).after 2 t) from by
          unfold Dat.leavesExact; rw [liveAt0_2 t ((hcond0_3 t).mpr h3)], after0_2]
        have hz : t.val ≠ 0 := by omega
        rw [scr0_pos V c t hz, step0_fst_keep _ _ _ h1, step0_snd_FF _ _ _ h1 h2]
        rw [Phi0_castSucc V c t, Phi0_pos V c _ _ hz]
        iintro ⟨⟨⟨HS1, HS2, Hr⟩, Hg⟩, Ho, ⟨%d0, H0⟩, ⟨%d1, H1⟩, ⟨%d2, H2⟩⟩
        iapply (run0_G c (grid0.coords t) _ _ _ _ _ _ _ _ _ _ (fun h => h1 ((hcond0_1 t).mp h)) (fun h => h2 ((hcond0_2 t).mp h)) ((hcond0_3 t).mpr h3) (blkA0 V c t) _ _ Set.univ _)
        isplitl [H0]; · iexact H0
        isplitl [H1]; · iexists _; iexact H1
        isplitl [H2]; · iexists _; iexact H2
        isplitl [HS1]; · iexact HS1
        isplitl [HS2]; · iexact HS2
        iintro ⟨H0, H1, H2, HS1, HS2⟩
        isplitl [HS1 HS2 Hr Hg]
        · isplitl [HS1 HS2 Hr]
          · isplitl [HS1]; · iexact HS1
            isplitl [HS2]; · iexact HS2
            iexact Hr
          iexact Hg
        isplitl [Ho]; · iexact Ho
        isplitl [H0]; · iexact H0
        isplitl [H1]; · iexact H1
        iexact H2
    · by_cases h2 : t.val / 16 = t.val % 16
      · -- a diagonal point inside a block row
        rw [Dat.leavesExact_idle (dat0 V c) 1 t (idleAt0_1 t (fun h => h3 ((hcond0_3 t).mp h))) (noFlush0_1 t (fun h => h3 ((hcond0_3 t).mp h))),
          Dat.leavesExact_idle (dat0 V c) 2 t (idleAt0_2 t (fun h => h3 ((hcond0_3 t).mp h))) (noFlush0_2 t (fun h => h3 ((hcond0_3 t).mp h)))]
        have hz : t.val ≠ 0 := by omega
        rw [scr0_pos V c t hz, step0_fst_keep _ _ _ h1, step0_snd_FT _ _ _ h1 h2]
        rw [Phi0_castSucc V c t, Phi0_pos V c _ _ hz]
        iintro ⟨⟨⟨HS1, HS2, Hr⟩, Hg⟩, Ho, ⟨%d0, H0⟩, ⟨%d1, H1⟩, ⟨%d2, H2⟩⟩
        iapply (run0_C c (grid0.coords t) _ _ _ _ _ _ _ _ _ _ (fun h => h1 ((hcond0_1 t).mp h)) ((hcond0_2 t).mpr h2) (fun h => h3 ((hcond0_3 t).mp h)) (blkA0 V c t) _ _ _ _ Set.univ _)
        isplitl [H0]; · iexact H0
        isplitl [H1]; · iexact H1
        isplitl [H2]; · iexact H2
        isplitl [HS1]; · iexact HS1
        isplitl [HS2]; · iexact HS2
        iintro ⟨H0, H1, H2, HS1, HS2⟩
        isplitl [HS1 HS2 Hr Hg]
        · isplitl [HS1 HS2 Hr]
          · isplitl [HS1]; · iexact HS1
            isplitl [HS2]; · iexact HS2
            iexact Hr
          iexact Hg
        isplitl [Ho]; · iexact Ho
        isplitl [H0]; · iexact H0
        isplitl [H1]; · iexists _; iexact H1
        iexists _; iexact H2
      · -- any other point
        rw [Dat.leavesExact_idle (dat0 V c) 1 t (idleAt0_1 t (fun h => h3 ((hcond0_3 t).mp h))) (noFlush0_1 t (fun h => h3 ((hcond0_3 t).mp h))),
          Dat.leavesExact_idle (dat0 V c) 2 t (idleAt0_2 t (fun h => h3 ((hcond0_3 t).mp h))) (noFlush0_2 t (fun h => h3 ((hcond0_3 t).mp h)))]
        have hz : t.val ≠ 0 := by omega
        rw [scr0_pos V c t hz, step0_fst_keep _ _ _ h1, step0_snd_FF _ _ _ h1 h2]
        rw [Phi0_castSucc V c t, Phi0_pos V c _ _ hz]
        iintro ⟨⟨⟨HS1, HS2, Hr⟩, Hg⟩, Ho, ⟨%d0, H0⟩, ⟨%d1, H1⟩, ⟨%d2, H2⟩⟩
        iapply (run0_D c (grid0.coords t) _ _ _ _ _ _ _ _ _ _ (fun h => h1 ((hcond0_1 t).mp h)) (fun h => h2 ((hcond0_2 t).mp h)) (fun h => h3 ((hcond0_3 t).mp h)) (blkA0 V c t) _ _ _ _ Set.univ _)
        isplitl [H0]; · iexact H0
        isplitl [H1]; · iexact H1
        isplitl [H2]; · iexact H2
        isplitl [HS1]; · iexact HS1
        isplitl [HS2]; · iexact HS2
        iintro ⟨H0, H1, H2, HS1, HS2⟩
        isplitl [HS1 HS2 Hr Hg]
        · isplitl [HS1 HS2 Hr]
          · isplitl [HS1]; · iexact HS1
            isplitl [HS2]; · iexact HS2
            iexact Hr
          iexact Hg
        isplitl [Ho]; · iexact Ho
        isplitl [H0]; · iexact H0
        isplitl [H1]; · iexists _; iexact H1
        iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- After the last point the invariant gives the launch's back: the accumulators' named contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 256 := N_0; omega
  rw [show (dat0 V c).Φ (Fin.last cfg0.N) = Phi0 V c (Fin.last cfg0.N).val (Nat.le_of_lt_succ (Fin.last cfg0.N).isLt) from rfl,
    Phi0_pos V c _ _ ht, PhiA0_eq]
  iintro ⟨⟨HS1, HS2, Hr⟩, Hg⟩
  isplitl [HS1 HS2 Hr]
  · isplitl [HS1]; · iexists _; iexact HS1
    isplitl [HS2]; · iexists _; iexact HS2
    iexact Hr
  iexact Hg

end Cert.Kernel.Hand

end
-- ==== Proof.BitsReg1Cond.lean ====
/-
  The second kernel region's two branch conditions in closed form over the grid, and where its output window is
  idle.

  The grid is 8 x 8, point t = 8·i + k. The first condition (k = 0) holds exactly at the points t ≡ 0 (mod 8), the
  second (k = 7) exactly at the points t ≡ 7 (mod 8). The output window is stored into only under the second
  condition: elsewhere it is idle and its block is not written back.
-/
import proofs.«157629_j28613072126264_1_alg».proof.Proof.BitsDat1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the accumulator is cleared), from the grid coordinates. -/
abbrev cond1_0 (i : grid1.Coords) : Prop :=
  (Scalar.cmpi .ne (Scalar.extui (Scalar.cmpi .eq (BitVec.ofNat 32 (i 1).val) 0#32)) 0#32) = 1#1

/-- Over the 64 points of the grid it holds exactly at those ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the accumulator is copied to the output block), from the grid coordinates. -/
abbrev cond1_1 (i : grid1.Coords) : Prop := k1_cond2 i = 1#1

/-- Over the 64 points of the grid it holds exactly at those ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel

/-- Where the second condition fails the output window is idle, -/
theorem idleAt1_2 : ∀ t : Fin cfg1.N, ¬cond1_1 (grid1.coords t) → cfg1.idle 2 (grid1.coords t) = true := by decide +kernel
/-- and its block is not written back there. -/
theorem noFlush1_2 : ∀ t : Fin cfg1.N, ¬cond1_1 (grid1.coords t) → (cfg1.win 2).flush t = false := by decide +kernel
/-- Where it holds the window is live. -/
theorem liveAt1_2 : ∀ t : Fin cfg1.N, cond1_1 (grid1.coords t) → cfg1.idle 2 (grid1.coords t) = false := by decide +kernel

end Cert.Kernel.Hand

end
-- ==== Proof.BitsReg1Whole.lean ====
/-
  Loads and stores through the whole-shape rectangle at zero offsets, for the second kernel region's two block
  shapes: a load of a whole memref reads its contents, and one such store leaves its payload.
-/
import proofs.«157629_j28613072126264_1_alg».proof.Proof.BitsReg1Cond
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

/-- A whole memref of the accumulator's shape, after one store through the whole-shape rectangle, reads the
    payload, whatever it held. -/
theorem read_store_128 (m : Memref sig .tc .vmem S1024x128 .f32) (f : m.view.ty.Contents (Elt F)) (w : Vec F S1024x128 .f32) :
    m.view.read (Elt F) (m.view.writes (Elt F) f
      [⟨Rect.unit ![0, 0] S1024x128.size inb_S1024x128_S1024x128_0_0, w⟩]) = w := by
  rw [View.read_writes_eq_canon _ _ _ (fun y => ⟨_, List.mem_singleton_self _, View.mem_set_unit_zero zeros2 inb_S1024x128_S1024x128_0_0 y⟩),
    View.canon_unit_zero zeros2]

/-- A load through the whole-shape rectangle of a whole memref holding `X` reads `X`: the accumulator's shape, -/
theorem load_whole_128 (m : Memref sig .tc .vmem S1024x128 .f32) (h : m.IsWhole) (X : Vec F S1024x128 .f32) :
    View.readAt (Elt F) m.view (Rect.unit ![0, 0] S1024x128.size inb_S1024x128_S1024x128_0_0).toLoadRect (h.unread X) = X := by
  rw [View.readAt_eq_ld, h.read_unread, View.ld_unit_zero zeros2]

/-- and the adjacency block's. -/
theorem load_whole_1024 (m : Memref sig .tc .vmem S1024x1024 .f32) (h : m.IsWhole) (X : Vec F S1024x1024 .f32) :
    View.readAt (Elt F) m.view (Rect.unit ![0, 0] S1024x1024.size inb_S1024x1024_S1024x1024_0_0).toLoadRect (h.unread X) = X := by
  rw [View.readAt_eq_ld, h.read_unread, View.ld_unit_zero zeros2]

end Cert.Kernel.Hand

end
-- ==== Proof.BitsReg1RunB.lean ====
/-
  The second kernel region's body in the middle columns of the grid (0 < k < 7): neither branch is taken.

  On whole memrefs — the two input blocks at contents a and u, the output's buffer at anything, the accumulator at
  what the point before left — the body loads the three, stores the accumulator plus the product of the two blocks
  back into the accumulator, and leaves everything else as it found it.
-/
import proofs.«157629_j28613072126264_1_alg».proof.Proof.BitsReg1Whole

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 16384

set_option maxHeartbeats 4000000 in
/-- The body where neither branch is taken: the accumulator ends at the payload of the loaded blocks and of the
    accumulator as loaded; the inputs' and the output's buffers are untouched. -/
theorem run1_B (c : Dev nD) (i : grid1.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : ¬cond1_1 i)
    (xa : Vec F S1024x1024 .f32) (xu : Vec F S1024x128 .f32) (xo : Vec F S1024x128 .f32) (xs : Vec F S1024x128 .f32)
    (E : Set ℕ) (K : PUnit → sProp 𝕄) :
    iprop(owns (c : Thread nD τ) arg2 fullShare xa ∗ owns (c : Thread nD τ) arg3 fullShare xu
        ∗ owns (c : Thread nD τ) arg4 fullShare xo ∗ owns (c : Thread nD τ) arg5 fullShare xs
        ∗ (iprop(owns (c : Thread nD τ) arg2 fullShare xa ∗ owns (c : Thread nD τ) arg3 fullShare xu
            ∗ owns (c : Thread nD τ) arg4 fullShare xo ∗ owns (c : Thread nD τ) arg5 fullShare (k1_pay2 xa xu xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_store_128 _ _ _).trans ?_
  rw [load_whole_1024 _ harg2, load_whole_128 _ harg3, load_whole_128 _ harg5]

end Cert.Kernel.Hand

end
-- ==== Proof.BitsReg1RunA.lean ====
/-
  The second kernel region's body in the first column of the grid (k = 0): the first branch is taken, the second
  is not.

  On whole memrefs — the two input blocks at contents a and u, the output's buffer and the accumulator at
  anything — the body clears the accumulator, loads the blocks and the cleared accumulator, stores the sum of the
  cleared accumulator and the blocks' product back into it, and leaves everything else as it found it.
-/
import proofs.«157629_j28613072126264_1_alg».proof.Proof.BitsReg1RunB

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 16384

/-- A whole memref of the accumulator's shape whose LAST store went through the whole-shape rectangle reads that
    store's payload, whatever the earlier stores were. -/
theorem read_store_cons_128 (m : Memref sig .tc .vmem S1024x128 .f32) (f : m.view.ty.Contents (Elt F)) (w : Vec F S1024x128 .f32)
    (L : List (View.Piece (Elt F) S1024x128 .f32)) :
    m.view.read (Elt F) (m.view.writes (Elt F) f
      (⟨Rect.unit ![0, 0] S1024x128.size inb_S1024x128_S1024x128_0_0, w⟩ :: L)) = w := by
  rw [View.read_writes_eq_canon _ _ _ (fun y => ⟨_, List.mem_cons.mpr (Or.inl rfl),
      View.mem_set_unit_zero zeros2 inb_S1024x128_S1024x128_0_0 y⟩),
    View.canon_cons_unit_zero zeros2]

/-- A load through the whole-shape rectangle of what one store through it left reads the payload. -/
theorem load_stored_128 (m : Memref sig .tc .vmem S1024x128 .f32) (w : Vec F S1024x128 .f32) :
    m.view.readCov [⟨Rect.unit ![0, 0] S1024x128.size inb_S1024x128_S1024x128_0_0, w⟩]
      (Rect.unit ![0, 0] S1024x128.size inb_S1024x128_S1024x128_0_0).toLoadRect = w :=
  View.readCov_unit_zero m.view zeros2 inb_S1024x128_S1024x128_0_0 w

set_option maxHeartbeats 4000000 in
/-- The body where only the first branch is taken: the accumulator ends at the payload of the loaded blocks and of
    the cleared accumulator; the inputs' and the output's buffers are untouched. -/
theorem run1_A (c : Dev nD) (i : grid1.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (hc0 : cond1_0 i) (hc1 : ¬cond1_1 i)
    (xa : Vec F S1024x1024 .f32) (xu : Vec F S1024x128 .f32) (xo : Vec F S1024x128 .f32) (xs : Vec F S1024x128 .f32)
    (E : Set ℕ) (K : PUnit → sProp 𝕄) :
    iprop(owns (c : Thread nD τ) arg2 fullShare xa ∗ owns (c : Thread nD τ) arg3 fullShare xu
        ∗ owns (c : Thread nD τ) arg4 fullShare xo ∗ owns (c : Thread nD τ) arg5 fullShare xs
        ∗ (iprop(owns (c : Thread nD τ) arg2 fullShare xa ∗ owns (c : Thread nD τ) arg3 fullShare xu
            ∗ owns (c : Thread nD τ) arg4 fullShare xo ∗ owns (c : Thread nD τ) arg5 fullShare (k1_pay2 xa xu (k1_pay1 (F := F)))) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_store_cons_128 _ _ _ _).trans ?_
  sl_unfold_words
  rw [load_whole_1024 _ harg2, load_whole_128 _ harg3, load_stored_128]

end Cert.Kernel.Hand

end
-- ==== Proof.BitsReg1RunC.lean ====
/-
  The second kernel region's body in the last column of the grid (k = 7): the first branch is not taken, the
  second is.

  On whole memrefs — the two input blocks at contents a and u, the output's buffer at anything, the accumulator at
  what the point before left — the body loads the blocks and the accumulator, stores the accumulator plus the
  blocks' product back into the accumulator, then loads that and stores it into the output's buffer.
-/
import proofs.«157629_j28613072126264_1_alg».proof.Proof.BitsReg1RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 16384

set_option maxHeartbeats 4000000 in
/-- The body where only the second branch is taken: the accumulator and the output's buffer both end at the
    payload of the loaded blocks and of the accumulator as loaded; the inputs' buffers are untouched. -/
theorem run1_C (c : Dev nD) (i : grid1.Coords)
    (arg2 : Memref sig .tc .vmem S1024x1024 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (hc0 : ¬cond1_0 i) (hc1 : cond1_1 i)
    (xa : Vec F S1024x1024 .f32) (xu : Vec F S1024x128 .f32) (xo : Vec F S1024x128 .f32) (xs : Vec F S1024x128 .f32)
    (E : Set ℕ) (K : PUnit → sProp 𝕄) :
    iprop(owns (c : Thread nD τ) arg2 fullShare xa ∗ owns (c : Thread nD τ) arg3 fullShare xu
        ∗ owns (c : Thread nD τ) arg4 fullShare xo ∗ owns (c : Thread nD τ) arg5 fullShare xs
        ∗ (iprop(owns (c : Thread nD τ) arg2 fullShare xa ∗ owns (c : Thread nD τ) arg3 fullShare xu
            ∗ owns (c : Thread nD τ) arg4 fullShare (k1_pay2 xa xu xs) ∗ owns (c : Thread nD τ) arg5 fullShare (k1_pay2 xa xu xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_store_cons_128 _ _ _ _).trans ?_
    sl_unfold_words
    rw [load_stored_128, load_whole_1024 _ harg2, load_whole_128 _ harg3, load_whole_128 _ harg5]
  iexists _; isplitr
  swap; · iexact HS
  ipureintro
  sl_unfold_words
  refine (read_store_cons_128 _ _ _ _).trans ?_
  rw [load_whole_1024 _ harg2, load_whole_128 _ harg3, load_whole_128 _ harg5]

end Cert.Kernel.Hand

end
-- ==== Proof.BitsReg1Phi.lean ====
/-
  The second kernel region's invariant taken apart and put back: the accumulator on one side, on the other
  everything the body never touches (the other region's eight scoped buffers, each whole at some contents, and
  the generator register at some state).
-/
import proofs.«157629_j28613072126264_1_alg».proof.Proof.BitsReg1Cond

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A TensorCore buffer of core `c`, whole, at some contents. -/
abbrev held (c : Dev nD) (b : Ref sig .tc) : sProp 𝕄 :=
  iprop(∃ f : Buf (Elt F) ((c : Thread nD τ).loc b), ((c : Thread nD τ).loc b) ↦{fullShare} f)

/-- What the invariant holds beside the accumulator. -/
def rest1 (c : Dev nD) : sProp 𝕄 :=
  iprop(held (F := F) c cc0_stg0_0
      ∗ held (F := F) c cc0_stg0_1
      ∗ held (F := F) c cc0_stg1_0
      ∗ held (F := F) c cc0_stg1_1
      ∗ held (F := F) c cc0_stg2_0
      ∗ held (F := F) c cc0_stg2_1
      ∗ held (F := F) c cc0_scratch0
      ∗ held (F := F) c cc0_scratch1
      ∗ (∃ r, prngReg c r))

/-- The invariant after point `n`, written out. -/
theorem Phi1_succ (c : Dev nD) (n : ℕ) (h : n + 1 ≤ cfg1.N) :
    Phi1 V c (n + 1) h = iprop((held (F := F) c cc0_stg0_0
      ∗ held (F := F) c cc0_stg0_1
      ∗ held (F := F) c cc0_stg1_0
      ∗ held (F := F) c cc0_stg1_1
      ∗ held (F := F) c cc0_stg2_0
      ∗ held (F := F) c cc0_stg2_1
      ∗ held (F := F) c cc0_scratch0
      ∗ held (F := F) c cc0_scratch1
      ∗ owns (c : Thread nD τ) scM1_0 fullShare (scr1 V c n h)) ∗ (∃ r, prngReg c r)) := rfl

/-- What the region is entered with, the accumulator as a memref owned at some contents. -/
theorem PhiA1_eq (c : Dev nD) :
    (Pipeline.ΦA spec1 c : sProp 𝕄) = iprop((held (F := F) c cc0_stg0_0
      ∗ held (F := F) c cc0_stg0_1
      ∗ held (F := F) c cc0_stg1_0
      ∗ held (F := F) c cc0_stg1_1
      ∗ held (F := F) c cc0_stg2_0
      ∗ held (F := F) c cc0_stg2_1
      ∗ held (F := F) c cc0_scratch0
      ∗ held (F := F) c cc0_scratch1
      ∗ (∃ d, owns (c : Thread nD τ) scM1_0 fullShare d)) ∗ (∃ r, prngReg c r)) := by
  unfold Pipeline.ΦA; rw [scopedRest1_eq]; simp only [scM1_0, owns_whole]
  rfl

/-- After point `n` the invariant is the accumulator at that point's contents beside the rest, -/
theorem Phi1_take (c : Dev nD) (n : ℕ) (h : n + 1 ≤ cfg1.N) :
    Phi1 V c (n + 1) h ⊢ iprop(owns (c : Thread nD τ) scM1_0 fullShare (scr1 V c n h) ∗ rest1 (F := F) c) := by
  rw [Phi1_succ]; unfold rest1
  iintro ⟨⟨H0, H1, H2, H3, H4, H5, H6, H7, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- and conversely. -/
theorem Phi1_give (c : Dev nD) (n : ℕ) (h : n + 1 ≤ cfg1.N) :
    iprop(owns (c : Thread nD τ) scM1_0 fullShare (scr1 V c n h) ∗ rest1 (F := F) c) ⊢ Phi1 V c (n + 1) h := by
  rw [Phi1_succ]; unfold rest1
  iintro ⟨HS, H0, H1, H2, H3, H4, H5, H6, H7, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- What the region is entered with is the accumulator at some contents beside the rest, -/
theorem PhiA1_take (c : Dev nD) :
    (Pipeline.ΦA spec1 c : sProp 𝕄) ⊢ iprop((∃ d, owns (c : Thread nD τ) scM1_0 fullShare d) ∗ rest1 (F := F) c) := by
  rw [PhiA1_eq]; unfold rest1
  iintro ⟨⟨H0, H1, H2, H3, H4, H5, H6, H7, HS⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- and conversely. -/
theorem PhiA1_give (c : Dev nD) :
    iprop((∃ d, owns (c : Thread nD τ) scM1_0 fullShare d) ∗ rest1 (F := F) c) ⊢ (Pipeline.ΦA spec1 c : sProp 𝕄) := by
  rw [PhiA1_eq]; unfold rest1
  iintro ⟨HS, H0, H1, H2, H3, H4, H5, H6, H7, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- Before a point that is not the first, the accumulator is at what the point before left. -/
theorem Phi1_take_pos (c : Dev nD) (n : ℕ) (h : n ≤ cfg1.N) (hz : n ≠ 0) :
    Phi1 V c n h ⊢ iprop(owns (c : Thread nD τ) scM1_0 fullShare (scr1 V c (n - 1) (by omega)) ∗ rest1 (F := F) c) := by
  cases n with
  | zero => exact absurd rfl hz
  | succ n => exact Phi1_take V c n h

/-- Before any point, the accumulator is at some contents. -/
theorem Phi1_take_any (c : Dev nD) (n : ℕ) (h : n ≤ cfg1.N) :
    Phi1 V c n h ⊢ iprop((∃ d, owns (c : Thread nD τ) scM1_0 fullShare d) ∗ rest1 (F := F) c) := by
  cases n with
  | zero => exact PhiA1_take c
  | succ n =>
    refine (Phi1_take V c n h).trans ?_
    iintro ⟨HS, HR⟩
    isplitl [HS]; · iexists _; iexact HS
    iexact HR

/-- What the launch hands the region is the invariant before the first point. -/
theorem hin1 (c : Dev nD) : (Pipeline.ΦA spec1 c : sProp 𝕄) ⊢ (dat1 V c).Φ 0 :=
  Idealize.SL.BI.Entails.refl _

/-- After the last point the invariant gives that back: the accumulator's named contents are forgotten. -/
theorem hout1 (c : Dev nD) : (dat1 V c).Φ (Fin.last cfg1.N) ⊢ (Pipeline.ΦA spec1 c : sProp 𝕄) := by
  rw [show (dat1 V c).Φ (Fin.last cfg1.N)
    = Phi1 V c (Fin.last cfg1.N).val (Nat.le_of_lt_succ (Fin.last cfg1.N).isLt) from rfl]
  exact (Phi1_take_any V c _ _).trans (PhiA1_give c)

end Cert.Kernel.Hand

end
-- ==== Proof.BitsReg1Body.lean ====
/-
  The second kernel region's body obligation: at every grid point, from the invariant and the three windows'
  current staging buffers, the body runs to the invariant at the next point with every buffer at what the proof
  data says.

  The point's column decides the case. In the first column the accumulator is cleared before the product is added,
  whatever it held; elsewhere the product is added to what the point before left. The output's buffer is handed
  back untouched except in the last column, where the accumulator is copied into it.
-/
import proofs.«157629_j28613072126264_1_alg».proof.Proof.BitsReg1RunC
import proofs.«157629_j28613072126264_1_alg».proof.Proof.BitsReg1Phi

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 16384

variable (V : (c : Dev nD) → (b : Ref sig .tc) → Buf (Elt F) ((c : Thread nD τ).loc b))

/-! ## The input windows' buffers before the body -/

/-- Both inputs are fetched at every point, so the body finds each one's buffer at its block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)

theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-! ## The accumulator after a point, by the point's column -/

theorem scr1_eq_first (c : Dev nD) (n : ℕ) (h : n < cfg1.N) (h0 : n % 8 = 0) :
    scr1 V c n h = k1_pay2 (blkA1 V c ⟨n, h⟩) (blkU1 V c ⟨n, h⟩) (k1_pay1 (F := F)) := by
  cases n with
  | zero => rw [scr1_zero]; unfold step1; rw [if_pos h0]
  | succ n => rw [scr1_succ]; unfold step1; rw [if_pos h0]

theorem scr1_eq_later (c : Dev nD) (n : ℕ) (h : n < cfg1.N) (h0 : ¬n % 8 = 0) :
    scr1 V c n h = k1_pay2 (blkA1 V c ⟨n, h⟩) (blkU1 V c ⟨n, h⟩) (scr1 V c (n - 1) (by omega)) := by
  cases n with
  | zero => exact absurd (Nat.zero_mod 8) h0
  | succ n => rw [scr1_succ]; unfold step1; rw [if_neg h0]; rfl

/-- In the first column: the product added to the cleared accumulator. -/
theorem scr1_first (c : Dev nD) (t : Fin cfg1.N) (h0 : t.val % 8 = 0) :
    scr1 V c t.val t.isLt = k1_pay2 (iblk1 V c 0 t) (iblk1 V c 1 t) (k1_pay1 (F := F)) := by
  obtain ⟨n, hn⟩ := t
  exact scr1_eq_first V c n hn h0

/-- Elsewhere: the product added to what the point before left. -/
theorem scr1_later (c : Dev nD) (t : Fin cfg1.N) (h0 : ¬t.val % 8 = 0) :
    scr1 V c t.val t.isLt = k1_pay2 (iblk1 V c 0 t) (iblk1 V c 1 t) (scr1 V c (t.val - 1) (by omega)) := by
  obtain ⟨n, hn⟩ := t
  exact scr1_eq_later V c n hn h0

/-- The invariant after point `n` from the accumulator at any spelling `X` of that point's contents. -/
theorem Phi1_give_eq (c : Dev nD) (n : ℕ) (h : n + 1 ≤ cfg1.N) (X : Vec F S1024x128 .f32) (hX : scr1 V c n h = X) :
    iprop(owns (c : Thread nD τ) scM1_0 fullShare X ∗ rest1 (F := F) c) ⊢ Phi1 V c (n + 1) h := by
  subst hX; exact Phi1_give V c n h

/-! ## The obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl]
  rw [show (dat1 V c).Φ t.castSucc = Phi1 V c t.val (Nat.le_of_lt t.isLt) from rfl]
  rw [show (dat1 V c).leavesExact 0 t = owns (c : Thread nD τ) (st1_0 t) fullShare (iblk1 V c 0 t) from by
    unfold Dat.leavesExact; rw [liveAt1_0 t, after1_0]]
  rw [show (dat1 V c).leavesExact 1 t = owns (c : Thread nD τ) (st1_1 t) fullShare (iblk1 V c 1 t) from by
    unfold Dat.leavesExact; rw [liveAt1_1 t, after1_1]]
  have hN : t.val < 64 := lt_of_lt_of_eq t.isLt (show cfg1.N = 64 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    iintro ⟨HΦ, Ho, ⟨%d0, H0⟩, ⟨%d1, H1⟩, ⟨%d2, H2⟩⟩
    icases (Phi1_take_any V c t.val (Nat.le_of_lt t.isLt)) $$ HΦ with ⟨⟨%xs, HS⟩, HR⟩
    iapply (run1_A c (grid1.coords t) _ _ _ _ _ _ _ _ hc0 hc1 (iblk1 V c 0 t) (iblk1 V c 1 t) _ xs Set.univ _)
    isplitl [H0]; · iexact H0
    isplitl [H1]; · iexact H1
    isplitl [H2]; · iexact H2
    isplitl [HS]; · iexact HS
    iintro ⟨H0, H1, H2, HS⟩
    isplitl [HS HR]
    · iapply (Phi1_give_eq V c t.val t.isLt _ (scr1_first V c t h0))
      isplitl [HS]; · iexact HS
      iexact HR
    isplitl [Ho]; · iexact Ho
    isplitl [H0]; · iexact H0
    isplitl [H1]; · iexact H1
    iexists _; iexact H2
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V c).leavesExact 2 t = owns (c : Thread nD τ) (st1_2 t) fullShare (scr1 V c t.val t.isLt) from by
        unfold Dat.leavesExact; rw [liveAt1_2 t hc1, after1_2]]
      rw [scr1_later V c t h0]
      iintro ⟨HΦ, Ho, ⟨%d0, H0⟩, ⟨%d1, H1⟩, ⟨%d2, H2⟩⟩
      icases (Phi1_take_pos V c t.val (Nat.le_of_lt t.isLt) hz) $$ HΦ with ⟨HS, HR⟩
      iapply (run1_C c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · iapply (Phi1_give_eq V c t.val t.isLt _ (scr1_later V c t h0))
        isplitl [HS]; · iexact HS
        iexact HR
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨HΦ, Ho, ⟨%d0, H0⟩, ⟨%d1, H1⟩, ⟨%d2, H2⟩⟩
      icases (Phi1_take_pos V c t.val (Nat.le_of_lt t.isLt) hz) $$ HΦ with ⟨HS, HR⟩
      iapply (run1_B c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · iapply (Phi1_give_eq V c t.val t.isLt _ (scr1_later V c t h0))
        isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Spec.lean ====
/-
  The common value of the two programs, index by index on the extended reals.

  With h = x·W + b (a row per node), r_i the sum of row i of the adjacency array A, a_i its diagonal entry and
  d_i = (r_i - a_i + 1)^(-1/2), the result at node i and feature c is

      d_i · (Σ_k A_ik · (d_k · h_kc))  +  (d_i · d_i) · (1 - a_i) · h_ic .

  This is the symmetric normalisation D·Â·D·h of the adjacency array with its diagonal forced to one
  (Â = A + diag(1 - a)), with the diagonal correction taken out of the sum.
-/
import Idealize.ShloMosaic.Lib.ValueIdx
import Idealize.ShloMosaic.PureOps.Ideal

noncomputable section

namespace Cert.GcnSpec

open Idealize.ShloMosaic Idealize.ShloMosaic.ValueIdx
open scoped BigOperators

/-- The adjacency array's shape, the features', the weight's and the bias's. -/
abbrev SA : Shape := ⟨2, ![8192, 8192]⟩
abbrev SX : Shape := ⟨2, ![8192, 128]⟩
abbrev SW : Shape := ⟨2, ![128, 128]⟩
abbrev SB : Shape := ⟨1, ![128]⟩

/-- The exponent -1/2 and the unit, as the binary32 words both programs carry. -/
def negHalf : EReal := Ideal.ofBits .f32 0xBF000000#32
def one : EReal := Ideal.ofBits .f32 0x3F800000#32

/-- The linear layer: row j of x against column c of W, plus the bias. -/
def lin (x : SX.Idx → EReal) (W : SW.Idx → EReal) (b : SB.Idx → EReal) (j : Fin 8192) (c : Fin 128) : EReal :=
  (∑ k : Fin 128, x (ix2 j k) * W (ix2 k c)) + b (ix1 c)

/-- The sum of row i of the adjacency array. -/
def rowsum (A : SA.Idx → EReal) (i : Fin 8192) : EReal := ∑ j : Fin 8192, A (ix2 i j)

/-- Its diagonal entry. -/
def diag (A : SA.Idx → EReal) (i : Fin 8192) : EReal := A (ix2 i i)

/-- The degree scaling of node i: the row sum with the diagonal entry replaced by one, to the power -1/2. -/
def deg (A : SA.Idx → EReal) (i : Fin 8192) : EReal := Ideal.pow (rowsum A i - diag A i + one) negHalf

/-- The scaled features. -/
def scaled (A : SA.Idx → EReal) (x : SX.Idx → EReal) (W : SW.Idx → EReal) (b : SB.Idx → EReal) (k : Fin 8192) (c : Fin 128) : EReal :=
  deg A k * lin x W b k c

/-- Row i of the adjacency array against column c of the scaled features. -/
def agg (A : SA.Idx → EReal) (x : SX.Idx → EReal) (W : SW.Idx → EReal) (b : SB.Idx → EReal) (i : Fin 8192) (c : Fin 128) : EReal :=
  ∑ k : Fin 8192, A (ix2 i k) * scaled A x W b k c

/-- The result at node i, feature c. -/
def outAt (A : SA.Idx → EReal) (x : SX.Idx → EReal) (W : SW.Idx → EReal) (b : SB.Idx → EReal) (i : Fin 8192) (c : Fin 128) : EReal :=
  deg A i * agg A x W b i c + (deg A i * deg A i) * (one - diag A i) * lin x W b i c

/-- The result array. -/
def out (A : SA.Idx → EReal) (x : SX.Idx → EReal) (W : SW.Idx → EReal) (b : SB.Idx → EReal) : SX.Idx → EReal :=
  fun idx => outAt A x W b (idx 0) (idx 1)

end Cert.GcnSpec

end
-- ==== Proof.GlueTerms.lean ====
/-
  The host operations around the two kernel regions, as four terms — the linear layer, the degree column,
  the scaled features, the final combination — each read at an index on the extended reals.
-/
import proofs.«157629_j28613072126264_1_alg».proof.Proof.Gen.KernelIdeal
import proofs.«157629_j28613072126264_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The linear layer: the features against the weight, plus the bias laid along the rows. -/
def linTerm (x : FVec Ideal S8192x128 .f32) (w : FVec Ideal S128x128 .f32) (b : FVec Ideal S128 .f32) : FVec Ideal S8192x128 .f32 :=
  addf (Host.dotGeneral (F := Ideal) dot_S8192x128_S128x128_S8192x128_1_0_0_1_n_n none x w)
    (broadcastInDim S8192x128 ![0, 1] Facts₀.bcast_S1x128_S8192x128_0_1 (broadcastInDim S1x128 ![1] Facts₀.bcast_S128_S1x128_1 b))

/-- The degree column: first lanes of the row-sum and diagonal arrays, their difference plus one, to the power -1/2. -/
def degTerm (rs dg : FVec Ideal S8192x128 .f32) : FVec Ideal S8192x1 .f32 :=
  Host.powf (F := Ideal)
    (addf (subf (extractStridedSlice S8192x1 ![0, 0] rs Facts₀.slices_S8192x128_S8192x1_0_0) (extractStridedSlice S8192x1 ![0, 0] dg Facts₀.slices_S8192x128_S8192x1_0_0))
      (broadcastInDim S8192x1 ![] Facts₀.bcast_S_S8192x1 (constant (F := Ideal) S_ .f32 0x3F800000#32)))
    (broadcastInDim S8192x1 ![] Facts₀.bcast_S_S8192x1 (constant (F := Ideal) S_ .f32 0xBF000000#32))

/-- The scaled features: the degree column repeated along the lanes, times the linear layer. -/
def scaledTerm (d : FVec Ideal S8192x1 .f32) (h : FVec Ideal S8192x128 .f32) : FVec Ideal S8192x128 .f32 :=
  mulf (broadcastInDim S8192x128 ![0, 1] Facts₀.bcast_S8192x1_S8192x128_0_1 d) h

/-- The last stretch: degree times the aggregate, plus degree squared times one minus the diagonal column, times the linear layer. -/
def outTerm (d : FVec Ideal S8192x1 .f32) (v : FVec Ideal S8192x128 .f32) (dg : FVec Ideal S8192x1 .f32) (h : FVec Ideal S8192x128 .f32) :
    FVec Ideal S8192x128 .f32 :=
  addf (mulf (broadcastInDim S8192x128 ![0, 1] Facts₀.bcast_S8192x1_S8192x128_0_1 d) v)
    (mulf (broadcastInDim S8192x128 ![0, 1] Facts₀.bcast_S8192x1_S8192x128_0_1
        (mulf (mulf d d) (subf (broadcastInDim S8192x1 ![] Facts₀.bcast_S_S8192x1 (constant (F := Ideal) S_ .f32 0x3F800000#32)) dg))) h)

/-! ## The four terms at an index -/

/-- The linear layer's contraction: where the left and right operands are read for result entry `i` and contraction
    position `s`. -/
theorem linL0 (i : S8192x128.Idx) (s : dot_S8192x128_S128x128_S8192x128_1_0_0_1_n_n.contr.Idx) : (dot_S8192x128_S128x128_S8192x128_1_0_0_1_n_n.lhsIdx i s 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem linL1 (i : S8192x128.Idx) (s : dot_S8192x128_S128x128_S8192x128_1_0_0_1_n_n.contr.Idx) : (dot_S8192x128_S128x128_S8192x128_1_0_0_1_n_n.lhsIdx i s 1).val = (s ⟨0, by decide⟩).val :=
  dot_S8192x128_S128x128_S8192x128_1_0_0_1_n_n.lhsIdx_val_of_single rfl i s
theorem linR0 (i : S8192x128.Idx) (s : dot_S8192x128_S128x128_S8192x128_1_0_0_1_n_n.contr.Idx) : (dot_S8192x128_S128x128_S8192x128_1_0_0_1_n_n.rhsIdx i s 0).val = (s ⟨0, by decide⟩).val :=
  dot_S8192x128_S128x128_S8192x128_1_0_0_1_n_n.rhsIdx_val_of_single rfl i s
theorem linR1 (i : S8192x128.Idx) (s : dot_S8192x128_S128x128_S8192x128_1_0_0_1_n_n.contr.Idx) : (dot_S8192x128_S128x128_S8192x128_1_0_0_1_n_n.rhsIdx i s 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The linear layer at row `p`, feature `q`: the row of the features against the column of the weight, plus the bias. -/
theorem linTerm_apply (x : FVec Ideal S8192x128 .f32) (w : FVec Ideal S128x128 .f32) (b : FVec Ideal S128 .f32) (p : Fin 8192) (q : Fin 128) :
    linTerm x w b (ix2 p q) = Cert.GcnSpec.lin x w b p q := by
  unfold linTerm Cert.GcnSpec.lin
  show FloatOps.addf (Host.dotGeneral (F := Ideal) dot_S8192x128_S128x128_S8192x128_1_0_0_1_n_n none x w (ix2 p q)) _ = _
  rw [Ideal.addf_def]
  congr 1
  · simp only [Host.dotGeneral]
    rw [Ideal.dotGeneral_apply, ← Equiv.sum_comp (ValueIdx.contrEquiv1 dot_S8192x128_S128x128_S8192x128_1_0_0_1_n_n 128 rfl rfl).symm]
    refine Finset.sum_congr rfl fun k _ => ?_
    have hk := ValueIdx.contrEquiv1_symm_val dot_S8192x128_S128x128_S8192x128_1_0_0_1_n_n 128 rfl rfl k
    have el : dot_S8192x128_S128x128_S8192x128_1_0_0_1_n_n.lhsIdx (ix2 p q) ((ValueIdx.contrEquiv1 dot_S8192x128_S128x128_S8192x128_1_0_0_1_n_n 128 rfl rfl).symm k) = ix2 p k := funext fun a => Fin.ext (by
      match a with
      | ⟨0, _⟩ => exact linL0 _ _
      | ⟨1, _⟩ => exact (linL1 _ _).trans hk)
    have er : dot_S8192x128_S128x128_S8192x128_1_0_0_1_n_n.rhsIdx (ix2 p q) ((ValueIdx.contrEquiv1 dot_S8192x128_S128x128_S8192x128_1_0_0_1_n_n 128 rfl rfl).symm k) = ix2 k q := funext fun a => Fin.ext (by
      match a with
      | ⟨0, _⟩ => exact (linR0 _ _).trans hk
      | ⟨1, _⟩ => exact linR1 _ _)
    rw [el, er]
  · refine (broadcastInDim_apply _ Facts₀.bcast_S1x128_S8192x128_0_1 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
    exact broadcastInDim_apply _ Facts₀.bcast_S128_S1x128_1 b (ix2 (0 : Fin 1) q) (ix1 q) (fun a => match a with
      | ⟨0, _⟩ => by show q.val = if (128 : Nat) = 1 then 0 else q.val; rw [if_neg (by decide)])

/-- A scalar constant repeated down a column reads as the scalar everywhere. -/
theorem constCol_apply (w : BitVec 32) (p : Fin 8192) :
    broadcastInDim S8192x1 ![] Facts₀.bcast_S_S8192x1 (constant (F := Ideal) S_ .f32 w) (ix2 p (0 : Fin 1)) = Ideal.ofBits .f32 w :=
  (broadcastInDim_apply _ Facts₀.bcast_S_S8192x1 _ (ix2 p (0 : Fin 1)) ix0 (fun a => a.elim0)).trans rfl

/-- The first lane of a row of a [8192, 128] array, as the column slice reads it. -/
theorem firstLane_apply (y : FVec Ideal S8192x128 .f32) (p : Fin 8192) :
    extractStridedSlice S8192x1 ![0, 0] y Facts₀.slices_S8192x128_S8192x1_0_0 (ix2 p (0 : Fin 1)) = y (ix2 p (0 : Fin 128)) :=
  extractStridedSlice_apply _ y Facts₀.slices_S8192x128_S8192x1_0_0 (ix2 p (0 : Fin 1)) (ix2 p (0 : Fin 128)) (fun a => match a with
    | ⟨0, _⟩ => by show p.val = 0 + p.val; omega
    | ⟨1, _⟩ => by show 0 = 0 + 0; rfl)

/-- The degree column at row `p`: the first lanes' difference plus one, to the power -1/2. -/
theorem degTerm_apply (rs dg : FVec Ideal S8192x128 .f32) (p : Fin 8192) :
    degTerm rs dg (ix2 p (0 : Fin 1))
      = Ideal.pow (rs (ix2 p (0 : Fin 128)) - dg (ix2 p (0 : Fin 128)) + Cert.GcnSpec.one) Cert.GcnSpec.negHalf := by
  unfold degTerm
  show FloatOps.hostPowf (FloatOps.addf (FloatOps.subf (extractStridedSlice S8192x1 ![0, 0] rs Facts₀.slices_S8192x128_S8192x1_0_0 (ix2 p (0 : Fin 1)))
      (extractStridedSlice S8192x1 ![0, 0] dg Facts₀.slices_S8192x128_S8192x1_0_0 (ix2 p (0 : Fin 1))))
      (broadcastInDim S8192x1 ![] Facts₀.bcast_S_S8192x1 (constant (F := Ideal) S_ .f32 0x3F800000#32) (ix2 p (0 : Fin 1))))
      (broadcastInDim S8192x1 ![] Facts₀.bcast_S_S8192x1 (constant (F := Ideal) S_ .f32 0xBF000000#32) (ix2 p (0 : Fin 1))) = _
  rw [firstLane_apply, firstLane_apply, constCol_apply, constCol_apply, Ideal.hostPowf_def, Ideal.addf_def, Ideal.subf_def]
  rfl

/-- A column repeated across the 128 lanes reads as the column's entry of the row. -/
theorem lanes_apply (d : FVec Ideal S8192x1 .f32) (p : Fin 8192) (q : Fin 128) :
    broadcastInDim S8192x128 ![0, 1] Facts₀.bcast_S8192x1_S8192x128_0_1 d (ix2 p q) = d (ix2 p (0 : Fin 1)) :=
  broadcastInDim_apply _ Facts₀.bcast_S8192x1_S8192x128_0_1 d (ix2 p q) (ix2 p (0 : Fin 1)) (fun a => match a with
    | ⟨0, _⟩ => by show p.val = if (8192 : Nat) = 1 then 0 else p.val; rw [if_neg (by decide)]
    | ⟨1, _⟩ => by show 0 = if (1 : Nat) = 1 then 0 else q.val; rw [if_pos rfl])

/-- The scaled features at row `p`, feature `q`. -/
theorem scaledTerm_apply (d : FVec Ideal S8192x1 .f32) (h : FVec Ideal S8192x128 .f32) (p : Fin 8192) (q : Fin 128) :
    scaledTerm d h (ix2 p q) = d (ix2 p (0 : Fin 1)) * h (ix2 p q) := by
  unfold scaledTerm
  show FloatOps.mulf (broadcastInDim S8192x128 ![0, 1] Facts₀.bcast_S8192x1_S8192x128_0_1 d (ix2 p q)) (h (ix2 p q)) = _
  rw [lanes_apply, Ideal.mulf_def]

/-- The final combination at row `p`, feature `q`. -/
theorem outTerm_apply (d : FVec Ideal S8192x1 .f32) (v : FVec Ideal S8192x128 .f32) (dg : FVec Ideal S8192x1 .f32) (h : FVec Ideal S8192x128 .f32)
    (p : Fin 8192) (q : Fin 128) :
    outTerm d v dg h (ix2 p q)
      = d (ix2 p (0 : Fin 1)) * v (ix2 p q)
        + (d (ix2 p (0 : Fin 1)) * d (ix2 p (0 : Fin 1))) * (Cert.GcnSpec.one - dg (ix2 p (0 : Fin 1))) * h (ix2 p q) := by
  unfold outTerm
  show FloatOps.addf (FloatOps.mulf (broadcastInDim S8192x128 ![0, 1] Facts₀.bcast_S8192x1_S8192x128_0_1 d (ix2 p q)) (v (ix2 p q)))
      (FloatOps.mulf (broadcastInDim S8192x128 ![0, 1] Facts₀.bcast_S8192x1_S8192x128_0_1
        (mulf (mulf d d) (subf (broadcastInDim S8192x1 ![] Facts₀.bcast_S_S8192x1 (constant (F := Ideal) S_ .f32 0x3F800000#32)) dg)) (ix2 p q)) (h (ix2 p q))) = _
  rw [lanes_apply, lanes_apply]
  show FloatOps.addf (FloatOps.mulf (d (ix2 p (0 : Fin 1))) (v (ix2 p q)))
      (FloatOps.mulf (FloatOps.mulf (FloatOps.mulf (d (ix2 p (0 : Fin 1))) (d (ix2 p (0 : Fin 1))))
        (FloatOps.subf (broadcastInDim S8192x1 ![] Facts₀.bcast_S_S8192x1 (constant (F := Ideal) S_ .f32 0x3F800000#32) (ix2 p (0 : Fin 1))) (dg (ix2 p (0 : Fin 1))))) (h (ix2 p q))) = _
  rw [constCol_apply, Ideal.addf_def, Ideal.mulf_def, Ideal.mulf_def, Ideal.mulf_def, Ideal.mulf_def, Ideal.subf_def]
  rfl

end Cert.KernelIdeal.Hand

end
-- ==== Proof.KernelGlue.lean ====
/-
  The three host stretches of the program applied to any buffer contents, read at the buffers the later
  segments use: each is one of the four terms of the host operations around the kernel regions.
-/
import proofs.«157629_j28613072126264_1_alg».proof.Proof.Main
import proofs.«157629_j28613072126264_1_alg».proof.Proof.GlueTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

theorem after0_v3 : StableHlo.after (hostOps0 (F := Ideal)) W (Proc.devRef .tc main_v3)
    = linTerm (W (Proc.devRef .tc main_arg1) : FVec Ideal S8192x128 .f32) (W (Proc.devRef .tc main_arg2) : FVec Ideal S128x128 .f32)
        (W (Proc.devRef .tc main_arg3) : FVec Ideal S128 .f32) := by
  unfold linTerm
  after_results

theorem after1_v11 : StableHlo.after (hostOps1 (F := Ideal)) W (Proc.devRef .tc main_v11)
    = degTerm (W (Proc.devRef .tc main_v4_0) : FVec Ideal S8192x128 .f32) (W (Proc.devRef .tc main_v4_1) : FVec Ideal S8192x128 .f32) := by
  unfold degTerm
  after_results

theorem after1_v13 : StableHlo.after (hostOps1 (F := Ideal)) W (Proc.devRef .tc main_v13)
    = scaledTerm (degTerm (W (Proc.devRef .tc main_v4_0) : FVec Ideal S8192x128 .f32) (W (Proc.devRef .tc main_v4_1) : FVec Ideal S8192x128 .f32))
        (W (Proc.devRef .tc main_v3) : FVec Ideal S8192x128 .f32) := by
  unfold scaledTerm degTerm
  after_results

theorem after2_v23 : StableHlo.after (hostOps2 (F := Ideal)) W (Proc.devRef .tc main_v23)
    = outTerm (W (Proc.devRef .tc main_v11) : FVec Ideal S8192x1 .f32) (W (Proc.devRef .tc main_v14) : FVec Ideal S8192x128 .f32)
        (W (Proc.devRef .tc main_v6) : FVec Ideal S8192x1 .f32) (W (Proc.devRef .tc main_v3) : FVec Ideal S8192x128 .f32) := by
  unfold outTerm
  after_results

theorem after1_v6 : StableHlo.after (hostOps1 (F := Ideal)) W (Proc.devRef .tc main_v6)
    = extractStridedSlice S8192x1 ![0, 0] (W (Proc.devRef .tc main_v4_1) : FVec Ideal S8192x128 .f32) Facts₀.slices_S8192x128_S8192x1_0_0 := by
  after_results

end Cert.KernelIdeal.Hand

end
-- ==== Proof.KernelValue.lean ====
/-
  The kernel program's result as a function of its arguments, on the extended reals: the fold of the five
  segments over the launch memory, read at the result buffer, is the common value of Spec.lean — the
  linear layer from the first host stretch, the row sums and the diagonal from the first kernel region,
  the degree column and the scaled features from the second stretch, the aggregate from the second region,
  and the final combination from the last stretch. No finiteness is used: every step is a reading of an
  operation at an index, or a regrouping of a sum.
-/
import proofs.«157629_j28613072126264_1_alg».proof.Proof.KernelGlue
import proofs.«157629_j28613072126264_1_alg».proof.Proof.Frame

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)
open scoped BigOperators

/-- What the two regions' value modules prove: after the first region every lane of row r of its first output
    holds the sum of row r of the adjacency array and every lane of row r of its second output the diagonal
    entry; after the second region entry (r, q) of its output holds row r of the adjacency array against column
    q of the region's second operand. -/
abbrev HV0_1 : Prop := ∀ (V : (c : Dev nD) → (b : Ref sig .tc) → Buf (Elt Ideal) ((c : Thread nD τ).loc b)) (c : Dev nD) (i : S8192x128.Idx),
    (dat0 (F := Ideal) V c).arrAt 1 cfg0.N i = Cert.GcnSpec.rowsum (V c main_arg0) (i 0)
abbrev HV0_2 : Prop := ∀ (V : (c : Dev nD) → (b : Ref sig .tc) → Buf (Elt Ideal) ((c : Thread nD τ).loc b)) (c : Dev nD) (i : S8192x128.Idx),
    (dat0 (F := Ideal) V c).arrAt 2 cfg0.N i = Cert.GcnSpec.diag (V c main_arg0) (i 0)
/-- The adjacency array and the second region's second operand, read at region entry as arrays of extended reals. -/
abbrev rdA (V : (c : Dev nD) → (b : Ref sig .tc) → Buf (Elt Ideal) ((c : Thread nD τ).loc b)) (c : Dev nD) : S8192x8192.Idx → EReal := V c main_arg0
abbrev rdU (V : (c : Dev nD) → (b : Ref sig .tc) → Buf (Elt Ideal) ((c : Thread nD τ).loc b)) (c : Dev nD) : S8192x128.Idx → EReal := V c main_v13
abbrev HV1_2 : Prop := ∀ (V : (c : Dev nD) → (b : Ref sig .tc) → Buf (Elt Ideal) ((c : Thread nD τ).loc b)) (c : Dev nD) (i : S8192x128.Idx),
    (∑ k : Fin 8192, rdA V c (ix2 (i 0) k) * rdU V c (ix2 k (i 1))) = (dat1 (F := Ideal) V c).arrAt 2 cfg1.N i

variable (m : (ℓ : Loc nD τ sig) → Buf (Elt Ideal) ℓ) (ρ : Dev nD → PrngReg)

/-! ## The values, segment by segment -/

/-- The linear layer after the first stretch, and through every later segment. -/
theorem B1_v3 (c : Dev nD) : B1 m ρ c (Proc.devRef .tc main_v3)
    = linTerm (m ((c : Thread nD τ).loc main_arg1)) (m ((c : Thread nD τ).loc main_arg2)) (m ((c : Thread nD τ).loc main_arg3)) :=
  after0_v3 (B0 m ρ c)
theorem B2_v3 (c : Dev nD) : B2 m ρ c (Proc.devRef .tc main_v3) = B1 m ρ c (Proc.devRef .tc main_v3) := B2_of_ne m ρ c main_v3 (by decide)
theorem B3_v3 (c : Dev nD) : B3 m ρ c (Proc.devRef .tc main_v3) = B1 m ρ c (Proc.devRef .tc main_v3) :=
  (B3_keep m ρ c main_v3 (by decide)).trans (B2_v3 m ρ c)
theorem B4_v3 (c : Dev nD) : B4 m ρ c (Proc.devRef .tc main_v3) = B1 m ρ c (Proc.devRef .tc main_v3) :=
  (B4_keep m ρ c main_v3 (by decide)).trans (B3_v3 m ρ c)

/-- The two outputs of the first region, as the second stretch finds them. -/
theorem B2_v4_0 (hv : HV0_1) (c : Dev nD) (i : S8192x128.Idx) :
    B2 m ρ c (Proc.devRef .tc main_v4_0) i = Cert.GcnSpec.rowsum (m ((c : Thread nD τ).loc main_arg0)) (i 0) := by
  refine (congrFun (B2_arr m ρ c 1) i).trans ((hv (E1 m ρ) c i).trans ?_)
  rw [show E1 m ρ c main_arg0 = m ((c : Thread nD τ).loc main_arg0) from B1_keep m ρ c main_arg0 (by decide)]
theorem B2_v4_1 (hv : HV0_2) (c : Dev nD) (i : S8192x128.Idx) :
    B2 m ρ c (Proc.devRef .tc main_v4_1) i = Cert.GcnSpec.diag (m ((c : Thread nD τ).loc main_arg0)) (i 0) := by
  refine (congrFun (B2_arr m ρ c 2) i).trans ((hv (E1 m ρ) c i).trans ?_)
  rw [show E1 m ρ c main_arg0 = m ((c : Thread nD τ).loc main_arg0) from B1_keep m ρ c main_arg0 (by decide)]

/-- The degree column after the second stretch. -/
theorem B3_v11 (hv1 : HV0_1) (hv2 : HV0_2) (c : Dev nD) (p : Fin 8192) :
    B3 m ρ c (Proc.devRef .tc main_v11) (ix2 p (0 : Fin 1)) = Cert.GcnSpec.deg (m ((c : Thread nD τ).loc main_arg0)) p := by
  refine (congrFun (after1_v11 (B2 m ρ c)) _).trans ?_
  rw [degTerm_apply]
  unfold Cert.GcnSpec.deg
  rw [show (B2 m ρ c (Proc.devRef .tc main_v4_0) : FVec Ideal S8192x128 .f32) (ix2 p (0 : Fin 128)) = _ from B2_v4_0 m ρ hv1 c (ix2 p (0 : Fin 128)),
    show (B2 m ρ c (Proc.devRef .tc main_v4_1) : FVec Ideal S8192x128 .f32) (ix2 p (0 : Fin 128)) = _ from B2_v4_1 m ρ hv2 c (ix2 p (0 : Fin 128))]

/-- The scaled features after the second stretch. -/
theorem B3_v13 (hv1 : HV0_1) (hv2 : HV0_2) (c : Dev nD) (p : Fin 8192) (q : Fin 128) :
    B3 m ρ c (Proc.devRef .tc main_v13) (ix2 p q)
      = Cert.GcnSpec.scaled (m ((c : Thread nD τ).loc main_arg0)) (m ((c : Thread nD τ).loc main_arg1)) (m ((c : Thread nD τ).loc main_arg2)) (m ((c : Thread nD τ).loc main_arg3)) p q := by
  refine (congrFun (after1_v13 (B2 m ρ c)) _).trans ?_
  rw [scaledTerm_apply]
  unfold Cert.GcnSpec.scaled
  congr 1
  · refine (congrFun (after1_v11 (B2 m ρ c)).symm _).trans (B3_v11 m ρ hv1 hv2 c p)
  · rw [show (B2 m ρ c (Proc.devRef .tc main_v3) : FVec Ideal S8192x128 .f32) = _ from (B2_v3 m ρ c).trans (B1_v3 m ρ c), linTerm_apply]

/-- The diagonal column after the second stretch. -/
theorem B3_v6 (hv2 : HV0_2) (c : Dev nD) (p : Fin 8192) :
    B3 m ρ c (Proc.devRef .tc main_v6) (ix2 p (0 : Fin 1)) = Cert.GcnSpec.diag (m ((c : Thread nD τ).loc main_arg0)) p := by
  refine (congrFun (after1_v6 (B2 m ρ c)) _).trans ?_
  rw [firstLane_apply]
  exact B2_v4_1 m ρ hv2 c (ix2 p (0 : Fin 128))

/-- The aggregate after the second region. -/
theorem B4_v14 (hv1 : HV0_1) (hv2 : HV0_2) (hv : HV1_2) (c : Dev nD) (p : Fin 8192) (q : Fin 128) :
    B4 m ρ c (Proc.devRef .tc main_v14) (ix2 p q)
      = Cert.GcnSpec.agg (m ((c : Thread nD τ).loc main_arg0)) (m ((c : Thread nD τ).loc main_arg1)) (m ((c : Thread nD τ).loc main_arg2)) (m ((c : Thread nD τ).loc main_arg3)) p q := by
  refine (congrFun (B4_arr m ρ c 2) _).trans ((hv (E3 m ρ) c (ix2 p q)).symm.trans ?_)
  unfold Cert.GcnSpec.agg
  refine Finset.sum_congr rfl fun k _ => ?_
  congr 1
  · exact congrFun ((B3_keep m ρ c main_arg0 (by decide)).trans (B2_arg0 m ρ c)) _
  · exact B3_v13 m ρ hv1 hv2 c k q

/-- THE KERNEL PROGRAM'S VALUE: its result buffer ends at the common value of the four arguments. -/
theorem kernel_value (hv1 : HV0_1) (hv2 : HV0_2) (hv : HV1_2) (c : Dev nD) :
    B5 m ρ c (Proc.devRef .tc main_v23)
      = Cert.GcnSpec.out (m ((c : Thread nD τ).loc main_arg0)) (m ((c : Thread nD τ).loc main_arg1)) (m ((c : Thread nD τ).loc main_arg2)) (m ((c : Thread nD τ).loc main_arg3)) := by
  funext i
  obtain ⟨p, q, rfl⟩ : ∃ (p : Fin 8192) (q : Fin 128), i = ix2 p q := ⟨i 0, i 1, eq_ix2 i⟩
  refine (congrFun (after2_v23 (B4 m ρ c)) _).trans ?_
  rw [outTerm_apply]
  show _ = Cert.GcnSpec.outAt _ _ _ _ p q
  unfold Cert.GcnSpec.outAt
  have hd : (B4 m ρ c (Proc.devRef .tc main_v11) : FVec Ideal S8192x1 .f32) (ix2 p (0 : Fin 1)) = Cert.GcnSpec.deg (m ((c : Thread nD τ).loc main_arg0)) p :=
    (congrFun (B4_keep m ρ c main_v11 (by decide)) _).trans (B3_v11 m ρ hv1 hv2 c p)
  have hg : (B4 m ρ c (Proc.devRef .tc main_v6) : FVec Ideal S8192x1 .f32) (ix2 p (0 : Fin 1)) = Cert.GcnSpec.diag (m ((c : Thread nD τ).loc main_arg0)) p :=
    (congrFun (B4_keep m ρ c main_v6 (by decide)) _).trans (B3_v6 m ρ hv2 c p)
  have hh : (B4 m ρ c (Proc.devRef .tc main_v3) : FVec Ideal S8192x128 .f32) (ix2 p q)
      = Cert.GcnSpec.lin (m ((c : Thread nD τ).loc main_arg1)) (m ((c : Thread nD τ).loc main_arg2)) (m ((c : Thread nD τ).loc main_arg3)) p q := by
    rw [show (B4 m ρ c (Proc.devRef .tc main_v3) : FVec Ideal S8192x128 .f32) = _ from (B4_v3 m ρ c).trans (B1_v3 m ρ c), linTerm_apply]
  rw [hd, hg, hh, B4_v14 m ρ hv1 hv2 hv c p q]

end Cert.KernelIdeal.Hand

end
-- ==== Proof.LibRowsCols.lean ====
/-
  Rows and columns re-laid, read at coordinates.

  A vector of n entries becomes a 1×n row by a unit leading axis and an m-vector an m×1 column by a unit trailing
  axis; a row is repeated down m rows and a column across n columns. Read at coordinates, each re-laying only
  re-reads its operand: the row made from v holds v(q) at (0, q); the column made from v holds v(p) at (p, 0); a
  row r repeated down the rows holds r(0, q) at (p, q); a column c repeated across holds c(p, 0) at (p, q). The
  same holds when the unit axis is introduced by a change of shape that keeps the row-major order, because an
  entry's row-major position does not move. Stated for any element type and, where the extent decides which axis is
  the unit one, for extents greater than one.
-/
import Mathlib
import Idealize.ShloMosaic.PureOps.Ideal
import Idealize.ShloMosaic.Lib.ValueIdx
import Idealize.ShloMosaic.Lib.Pipeline.Value

noncomputable section

namespace Cert.LibRowsCols

open Idealize.ShloMosaic Idealize.ShloMosaic.ValueIdx

variable {α : Type}

/-- A vector made a row by a broadcast that sends its axis to axis 1: the row holds v(q) at (0, q). -/
theorem row_of_vec {n : Nat} (hn : n ≠ 1) (h : (⟨1, ![n]⟩ : Shape).BroadcastsInDim ⟨2, ![1, n]⟩ ![1])
    (v : (⟨1, ![n]⟩ : Shape).Idx → α) (z : Fin 1) (q : Fin n) :
    broadcastInDim ⟨2, ![1, n]⟩ ![1] h v (ix2 z q) = v (ix1 q) := by
  refine broadcastInDim_apply _ h v _ (ix1 q) fun a => ?_
  match a with
  | ⟨0, _⟩ => exact (if_neg hn).symm

/-- A vector made a column by a broadcast that sends its axis to axis 0: the column holds v(p) at (p, 0). -/
theorem col_of_vec {m : Nat} (hm : m ≠ 1) (h : (⟨1, ![m]⟩ : Shape).BroadcastsInDim ⟨2, ![m, 1]⟩ ![0])
    (v : (⟨1, ![m]⟩ : Shape).Idx → α) (p : Fin m) (z : Fin 1) :
    broadcastInDim ⟨2, ![m, 1]⟩ ![0] h v (ix2 p z) = v (ix1 p) := by
  refine broadcastInDim_apply _ h v _ (ix1 p) fun a => ?_
  match a with
  | ⟨0, _⟩ => exact (if_neg hm).symm

/-- A row repeated down m rows holds r(0, q) at (p, q). -/
theorem rows_of_row {m n : Nat} (hn : n ≠ 1) (h : (⟨2, ![1, n]⟩ : Shape).BroadcastsInDim ⟨2, ![m, n]⟩ ![0, 1])
    (r : (⟨2, ![1, n]⟩ : Shape).Idx → α) (p : Fin m) (q : Fin n) :
    broadcastInDim ⟨2, ![m, n]⟩ ![0, 1] h r (ix2 p q) = r (ix2 0 q) := by
  refine broadcastInDim_apply _ h r _ (ix2 0 q) fun a => ?_
  match a with
  | ⟨0, _⟩ => exact (if_pos rfl).symm
  | ⟨1, _⟩ => exact (if_neg hn).symm

/-- A column repeated across n columns holds c(p, 0) at (p, q). -/
theorem cols_of_col {m n : Nat} (hm : m ≠ 1) (h : (⟨2, ![m, 1]⟩ : Shape).BroadcastsInDim ⟨2, ![m, n]⟩ ![0, 1])
    (c : (⟨2, ![m, 1]⟩ : Shape).Idx → α) (p : Fin m) (q : Fin n) :
    broadcastInDim ⟨2, ![m, n]⟩ ![0, 1] h c (ix2 p q) = c (ix2 p 0) := by
  refine broadcastInDim_apply _ h c _ (ix2 p 0) fun a => ?_
  match a with
  | ⟨0, _⟩ => exact (if_neg hm).symm
  | ⟨1, _⟩ => exact (if_pos rfl).symm

/-- A vector reshaped to a row keeps its order: the row holds v(q) at (0, q). -/
theorem row_of_vec_cast {n : Nat} (h : (⟨1, ![n]⟩ : Shape).ShapeCasts ⟨2, ![1, n]⟩)
    (v : (⟨1, ![n]⟩ : Shape).Idx → α) (z : Fin 1) (q : Fin n) :
    shapeCast ⟨2, ![1, n]⟩ v h (ix2 z q) = v (ix1 q) := by
  refine shapeCast_apply v h _ (ix1 q) ?_
  rw [Shape.rowMajor_val_one, Shape.rowMajor_val_two]
  have hz : z.val = 0 := by omega
  show q.val = z.val * n + q.val
  rw [hz, Nat.zero_mul, Nat.zero_add]

/-- A vector reshaped to a column keeps its order: the column holds v(p) at (p, 0). -/
theorem col_of_vec_cast {m : Nat} (h : (⟨1, ![m]⟩ : Shape).ShapeCasts ⟨2, ![m, 1]⟩)
    (v : (⟨1, ![m]⟩ : Shape).Idx → α) (p : Fin m) (z : Fin 1) :
    shapeCast ⟨2, ![m, 1]⟩ v h (ix2 p z) = v (ix1 p) := by
  refine shapeCast_apply v h _ (ix1 p) ?_
  rw [Shape.rowMajor_val_one, Shape.rowMajor_val_two]
  have hz : z.val = 0 := by omega
  show p.val = p.val * 1 + z.val
  rw [hz, Nat.mul_one, Nat.add_zero]

end Cert.LibRowsCols

end
-- ==== Proof.Val0Pay.lean ====
/-
  The four payloads of the row-sum and diagonal pass, read at an index on the extended reals.

  The two clearing payloads hold zero everywhere. The accumulating payload holds, at row p and lane l, the old
  accumulator's entry plus the sum of row p of the 512 x 512 block; the diagonal payload holds the old entry plus
  the block's entry (p, p): its mask keeps, in row p, the one column q = p, and a sum of "x(p,q) if p = q, else 0"
  over q is x(p,p). No finiteness is needed: on the extended reals a sum of zeros and one entry is that entry.
-/
import proofs.«157629_j28613072126264_1_alg».proof.Proof.Dat0
import proofs.«157629_j28613072126264_1_alg».proof.Proof.Spec
import proofs.«157629_j28613072126264_1_alg».proof.Proof.LibRowsCols
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The sum over axis 1 of a 512 x 512 block, read at row p: the sum of the row's entries. -/
theorem rowRed_apply (x : Vec Ideal S512x512 .f32) (hφ : FKind.Formats FTy.f32)
    (hacc : (0x00000000#32 : BitVec 32) = FKind.add.neutral FTy.f32 hφ) (p : Fin 512) :
    multiReduction (F := Ideal) .add [1] S512 x 0x00000000#32 reduces_S512x512_S512 hφ hacc (ix1 p)
      = ∑ q : Fin 512, x (ix2 p q) := by
  refine (Ideal.multiReduction_add_single x _ reduces_S512x512_S512 hφ hacc (ix1 p)).trans ?_
  refine Finset.sum_congr rfl fun q _ => congrArg x ?_
  funext a
  match a with
  | ⟨0, _⟩ => rfl
  | ⟨1, _⟩ => rfl

/-- A 512-vector laid as a column and repeated across 128 lanes, read at (p, l): the vector's entry p. -/
theorem colLanes_apply (v : FVec Ideal S512 .f32) (p : Fin 512) (l : Fin 128) :
    broadcastTo S512x128 (shapeCast S512x1 (shapeCast S512x1 v shapeCasts_S512_S512x1) shapeCasts_S512x1_S512x1)
      broadcasts_S512x1_S512x128 (ix2 p l) = v (ix1 p) := by
  rw [shapeCast_self]
  refine (broadcastTo_apply _ broadcasts_S512x1_S512x128 (ix2 p l) (ix2 p (0 : Fin 1)) ?_).trans ?_
  · intro a
    match a with
    | ⟨0, _⟩ => rfl
    | ⟨1, _⟩ => rfl
  exact Cert.LibRowsCols.col_of_vec_cast shapeCasts_S512_S512x1 v p 0

/-- The clearing payloads hold zero. -/
theorem pay1_apply (p : Fin 512) (l : Fin 128) : k0_pay1 (F := Ideal) (ix2 p l) = 0 := by
  unfold k0_pay1
  rw [shapeCast_self]
  exact Ideal.ofBits_zero_f32

theorem pay2_apply (p : Fin 512) (l : Fin 128) : k0_pay2 (F := Ideal) (ix2 p l) = 0 := by
  unfold k0_pay2
  rw [shapeCast_self]
  exact Ideal.ofBits_zero_f32

/-- The accumulating payload: the old entry plus the block's row sum. -/
theorem pay3_apply (x : Vec Ideal S512x512 .f32) (s : Vec Ideal S512x128 .f32) (p : Fin 512) (l : Fin 128) :
    k0_pay3 (F := Ideal) x s (ix2 p l) = s (ix2 p l) + ∑ q : Fin 512, x (ix2 p q) := by
  unfold k0_pay3
  dsimp only
  rw [shapeCast_self]
  refine (addf_apply _ _ _).trans ?_
  refine congrArg (s (ix2 p l) + ·) ?_
  refine (colLanes_apply _ p l).trans ?_
  exact rowRed_apply x _ _ p

/-- The mask bit at (p, q) of the block: set exactly on the diagonal. -/
theorem diagBit_eq_one_iff (p q : Fin 512) :
    IntOp.cmpi .eq (BitVec.ofNat 32 p.val) (BitVec.ofNat 32 q.val) = 1#1 ↔ p = q := by
  have hp := p.isLt
  have hq := q.isLt
  constructor
  · intro h
    by_contra hne
    have hv : p.val ≠ q.val := fun e => hne (Fin.ext e)
    have hb : (BitVec.ofNat 32 p.val == BitVec.ofNat 32 q.val) = false := by
      rw [beq_eq_false_iff_ne]
      intro e
      have := congrArg BitVec.toNat e
      rw [BitVec.toNat_ofNat, BitVec.toNat_ofNat] at this
      omega
    unfold IntOp.cmpi at h
    dsimp only at h
    rw [hb] at h
    exact absurd h (by decide)
  · rintro rfl
    unfold IntOp.cmpi
    dsimp only
    rw [beq_self_eq_true]
    rfl

/-- The masked block at (p, q): the block's entry on the diagonal, zero off it. -/
theorem masked_apply (x : Vec Ideal S512x512 .f32) (p q : Fin 512) :
    select (cmpi .eq (iota .tc S512x512 32 [0] iota_S512x512_d0_w32) (iota .tc S512x512 32 [1] iota_S512x512_d1_w32))
      x (broadcast S512x512 (Scalar.ofBits (F := Ideal) .f32 0x00000000#32)) (ix2 p q)
      = if p = q then x (ix2 p q) else 0 := by
  refine (select_apply _ _ _ _).trans ?_
  show Scalar.select (IntOp.cmpi .eq (iota .tc S512x512 32 [0] iota_S512x512_d0_w32 (ix2 p q))
      (iota .tc S512x512 32 [1] iota_S512x512_d1_w32 (ix2 p q))) (x (ix2 p q)) (Ideal.ofBits .f32 0x00000000#32) = _
  rw [iota_single_apply, iota_single_apply, Ideal.ofBits_zero_f32]
  show (if IntOp.cmpi .eq (BitVec.ofNat 32 p.val) (BitVec.ofNat 32 q.val) = 1#1 then x (ix2 p q) else 0) = _
  exact if_congr (diagBit_eq_one_iff p q) rfl rfl

/-- The diagonal payload: the old entry plus the block's entry (p, p). -/
theorem pay4_apply (x : Vec Ideal S512x512 .f32) (s : Vec Ideal S512x128 .f32) (p : Fin 512) (l : Fin 128) :
    k0_pay4 (F := Ideal) x s (ix2 p l) = s (ix2 p l) + x (ix2 p p) := by
  unfold k0_pay4
  dsimp only
  rw [shapeCast_self]
  refine (addf_apply _ _ _).trans ?_
  refine congrArg (s (ix2 p l) + ·) ?_
  refine (colLanes_apply _ p l).trans ?_
  refine (rowRed_apply _ _ _ p).trans ?_
  refine (Finset.sum_congr rfl fun q _ => masked_apply x p q).trans ?_
  rw [Finset.sum_ite_eq]
  exact if_pos (Finset.mem_univ p)

end Cert.KernelIdeal.Hand

end
-- ==== Proof.Val0Rec.lean ====
/-
  The two accumulators along the grid, in closed form.

  The recursion is restated over an arbitrary family of 512 x 512 blocks indexed by the point number, so that its
  closed form is an induction on the point with nothing but the payload readings in sight. After point n, with
  i = n / 16 the block row and j = n % 16 the block column:

    the first accumulator holds at (p, l) the sum, over the column blocks 0 … j of block row i, of row p's sum in each;
    the second holds at (p, l) the entry (p, p) of the diagonal block (point 16·i + i) once j has reached i, and zero before.

  The first point of every block row clears both, so nothing is carried from one block row to the next.
-/
import proofs.«157629_j28613072126264_1_alg».proof.Proof.Val0Pay

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

/-- One point's effect on the first accumulator, at an index: cleared or kept, then the block's row sum added. -/
theorem step0_fst_apply (x : Vec Ideal S512x512 .f32) (n : ℕ)
    (s : Vec Ideal S512x128 .f32 × Vec Ideal S512x128 .f32) (p : Fin 512) (l : Fin 128) :
    (step0 (F := Ideal) x n s).1 (ix2 p l)
      = (if n % 16 = 0 then 0 else s.1 (ix2 p l)) + ∑ q : Fin 512, x (ix2 p q) := by
  unfold step0
  dsimp only
  refine (pay3_apply x _ p l).trans ?_
  refine congrArg (· + _) ?_
  by_cases h : n % 16 = 0
  · rw [if_pos h, if_pos h]; exact pay1_apply p l
  · rw [if_neg h, if_neg h]

/-- One point's effect on the second accumulator, at an index: cleared or kept, then the block's diagonal entry
    added when the point is a diagonal one. -/
theorem step0_snd_apply (x : Vec Ideal S512x512 .f32) (n : ℕ)
    (s : Vec Ideal S512x128 .f32 × Vec Ideal S512x128 .f32) (p : Fin 512) (l : Fin 128) :
    (step0 (F := Ideal) x n s).2 (ix2 p l)
      = (if n % 16 = 0 then 0 else s.2 (ix2 p l)) + (if n / 16 = n % 16 then x (ix2 p p) else 0) := by
  unfold step0
  dsimp only
  have hs : (if n % 16 = 0 then k0_pay2 (F := Ideal) else s.2) (ix2 p l)
      = if n % 16 = 0 then 0 else s.2 (ix2 p l) := by
    by_cases h : n % 16 = 0
    · rw [if_pos h, if_pos h]; exact pay2_apply p l
    · rw [if_neg h, if_neg h]
  by_cases hd : n / 16 = n % 16
  · rw [if_pos hd, if_pos hd]
    exact (pay4_apply x _ p l).trans (congrArg (· + _) hs)
  · rw [if_neg hd, if_neg hd, add_zero]
    exact hs

/-- The recursion over a family of blocks indexed by the point number. -/
def accs (X : ℕ → Vec Ideal S512x512 .f32) : ℕ → Vec Ideal S512x128 .f32 × Vec Ideal S512x128 .f32
  | 0 => step0 (F := Ideal) (X 0) 0 (k0_pay1 (F := Ideal), k0_pay2 (F := Ideal))
  | n + 1 => step0 (F := Ideal) (X (n + 1)) (n + 1) (accs X n)

/-- The first accumulator after point n: the row sums of the column blocks 0 … n % 16 of the block row, added up. -/
theorem accs_fst (X : ℕ → Vec Ideal S512x512 .f32) : ∀ (n : ℕ) (p : Fin 512) (l : Fin 128),
    (accs X n).1 (ix2 p l)
      = ∑ j ∈ Finset.range (n % 16 + 1), ∑ q : Fin 512, X (16 * (n / 16) + j) (ix2 p q)
  | 0, p, l => by
    show (step0 (F := Ideal) (X 0) 0 _).1 (ix2 p l) = _
    refine (step0_fst_apply _ _ _ p l).trans ?_
    rw [if_pos (by decide), zero_add]
    show _ = ∑ j ∈ Finset.range 1, ∑ q : Fin 512, X (16 * (0 / 16) + j) (ix2 p q)
    rw [Finset.sum_range_one]
  | n + 1, p, l => by
    show (step0 (F := Ideal) (X (n + 1)) (n + 1) (accs X n)).1 (ix2 p l) = _
    refine (step0_fst_apply _ _ _ p l).trans ?_
    by_cases h : (n + 1) % 16 = 0
    · have e : 16 * ((n + 1) / 16) + 0 = n + 1 := by omega
      rw [if_pos h, zero_add, h, Finset.sum_range_succ, Finset.sum_range_zero, zero_add, e]
    · have e1 : (n + 1) % 16 = n % 16 + 1 := by omega
      have e2 : (n + 1) / 16 = n / 16 := by omega
      have e3 : 16 * (n / 16) + (n % 16 + 1) = n + 1 := by omega
      rw [if_neg h, accs_fst X n p l, e1, e2, Finset.sum_range_succ _ (n % 16 + 1), e3]

/-- The second accumulator after point n: the diagonal block's entry (p, p) from the diagonal point on, zero before. -/
theorem accs_snd (X : ℕ → Vec Ideal S512x512 .f32) : ∀ (n : ℕ) (p : Fin 512) (l : Fin 128),
    (accs X n).2 (ix2 p l)
      = if n / 16 ≤ n % 16 then X (16 * (n / 16) + n / 16) (ix2 p p) else 0
  | 0, p, l => by
    show (step0 (F := Ideal) (X 0) 0 _).2 (ix2 p l) = _
    refine (step0_snd_apply _ _ _ p l).trans ?_
    rw [if_pos (by decide), if_pos (by decide), if_pos (by decide), zero_add]
  | n + 1, p, l => by
    show (step0 (F := Ideal) (X (n + 1)) (n + 1) (accs X n)).2 (ix2 p l) = _
    refine (step0_snd_apply _ _ _ p l).trans ?_
    rw [accs_snd X n p l]
    by_cases hr : (n + 1) % 16 = 0
    · have hq : ¬(n + 1) / 16 = (n + 1) % 16 := by omega
      have hle : ¬(n + 1) / 16 ≤ (n + 1) % 16 := by omega
      rw [if_pos hr, if_neg hq, if_neg hle, add_zero]
    · rw [if_neg hr]
      by_cases hd : (n + 1) / 16 = (n + 1) % 16
      · have h0 : ¬n / 16 ≤ n % 16 := by omega
        have hle : (n + 1) / 16 ≤ (n + 1) % 16 := by omega
        have e : 16 * ((n + 1) / 16) + (n + 1) / 16 = n + 1 := by omega
        rw [if_pos hd, if_neg h0, if_pos hle, zero_add, e]
      · have e2 : (n + 1) / 16 = n / 16 := by omega
        have hiff : n / 16 ≤ n % 16 ↔ (n + 1) / 16 ≤ (n + 1) % 16 := by omega
        rw [if_neg hd, add_zero]
        exact if_congr hiff (by rw [e2]) rfl

end Cert.KernelIdeal.Hand

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.Val0Arr.lean ====
/-
  The two output arrays of the row-sum and diagonal pass, index by index.

  At the point that writes block row i back (the last column block, point 16·i + 15) the first accumulator holds at
  (p, l) the row sums of all sixteen column blocks of row 512·i + p added up, which is the sum of that whole row of
  the array: a sum over 8192 columns regrouped as sixteen blocks of 512. The second holds the entry (p, p) of the
  diagonal block (i, i), which is the array's entry at (512·i + p, 512·i + p). The sixteen written-back blocks tile
  the output arrays, so each array ends holding, in every lane of row r, the row sum (the diagonal entry) of row r.
-/
import proofs.«157629_j28613072126264_1_alg».proof.Proof.Val0Rec
import proofs.«157629_j28613072126264_1_alg».proof.Proof.LibIdxSums

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The block indices of the three windows at point t = 16·i + j, decided over the grid: the input's block is
    (i, j), both outputs' block is (i, 0). -/
theorem idx_facts0 : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = 0
    ∧ win0_2.index t (0 : Fin 2) = t.val / 16 ∧ win0_2.index t (1 : Fin 2) = 0 :=
  (by decide +kernel : ∀ t : Fin grid0.N, _)

/-- The input block at point t, read at (p, q): the array's entry at row 512·(t / 16) + p, column 512·(t % 16) + q. -/
theorem blkA0_apply (c : Dev nD) (t : Fin cfg0.N) (p q : Fin 512) (r k : Fin 8192)
    (hr : r.val = 512 * (t.val / 16) + p.val) (hk : k.val = 512 * (t.val % 16) + q.val) :
    blkA0 (F := Ideal) V c t (ix2 p q) = V c main_arg0 (ix2 r k) := by
  obtain ⟨e0, e1, -⟩ := idx_facts0 t
  show V c main_arg0 (((cfg0.win 0).blk t).view.emb (ix2 p q)) = V c main_arg0 (ix2 r k)
  refine congrArg (V c main_arg0) (funext fun a => Fin.ext ?_)
  match a with
  | ⟨0, _⟩ =>
    show win0_0.index t (0 : Fin 2) * 512 + 1 * p.val = r.val
    rw [e0, hr]; omega
  | ⟨1, _⟩ =>
    show win0_0.index t (1 : Fin 2) * 512 + 1 * q.val = k.val
    rw [e1, hk]; omega

/-- The blocks along the grid as a family over all naturals (zero past the grid, where it is never read). -/
def blks (c : Dev nD) : ℕ → Vec Ideal S512x512 .f32 :=
  fun n => if h : n < cfg0.N then blkA0 (F := Ideal) V c ⟨n, h⟩ else fun _ => 0

theorem blks_of_lt (c : Dev nD) (n : ℕ) (h : n < cfg0.N) : blks V c n = blkA0 (F := Ideal) V c ⟨n, h⟩ := dif_pos h

/-- The accumulators along the grid are the recursion over that family. -/
theorem scr0_eq_accs (c : Dev nD) : ∀ (n : ℕ) (h : n < cfg0.N), scr0 (F := Ideal) V c n h = accs (blks V c) n
  | 0, h => by
    rw [scr0_zero]
    exact congrArg (fun x => step0 (F := Ideal) x 0 (k0_pay1 (F := Ideal), k0_pay2 (F := Ideal))) (blks_of_lt V c 0 h).symm
  | n + 1, h => by
    rw [scr0_succ, scr0_eq_accs c n (Nat.lt_of_succ_lt h)]
    exact congrArg (fun x => step0 (F := Ideal) x (n + 1) (accs (blks V c) n)) (blks_of_lt V c (n + 1) h).symm

/-- At a point that writes back, the first accumulator holds at (p, l) the sum of row 512·(t / 16) + p of the array. -/
theorem acc1_at_flush (c : Dev nD) (t : Fin cfg0.N) (ht : t.val % 16 = 15) (y : S512x128.Idx) (r : Fin 8192)
    (hr : r.val = 512 * (t.val / 16) + (y 0).val) :
    (scr0 (F := Ideal) V c t.val t.isLt).1 y = Cert.GcnSpec.rowsum (V c main_arg0) r := by
  obtain ⟨p, l, rfl⟩ : ∃ (p : Fin 512) (l : Fin 128), y = ix2 p l := ⟨y 0, y 1, eq_ix2 y⟩
  have hN : cfg0.N = 256 := N_0
  have htl : t.val < 256 := lt_of_lt_of_eq t.isLt hN
  rw [scr0_eq_accs V c t.val t.isLt, accs_fst, ht, Finset.sum_range]
  unfold Cert.GcnSpec.rowsum
  refine Eq.trans ?_ (Cert.LibIdxSums.sum_fin_blocks (M := EReal) 16 512
    (fun k : Fin 8192 => (V c main_arg0 : Cert.GcnSpec.SA.Idx → EReal) (ix2 r k))).symm
  refine Finset.sum_congr rfl fun j _ => Finset.sum_congr rfl fun q _ => ?_
  have hj := j.isLt
  have hlt : 16 * (t.val / 16) + j.val < cfg0.N :=
    lt_of_lt_of_eq (show 16 * (t.val / 16) + j.val < 256 by omega) hN.symm
  rw [blks_of_lt V c _ hlt]
  refine blkA0_apply V c ⟨16 * (t.val / 16) + j.val, hlt⟩ p q r _ ?_ ?_
  · show r.val = 512 * ((16 * (t.val / 16) + j.val) / 16) + p.val
    rw [hr]; show 512 * (t.val / 16) + p.val = _; omega
  · show j.val * 512 + q.val = 512 * ((16 * (t.val / 16) + j.val) % 16) + q.val
    omega

/-- At a point that writes back, the second accumulator holds at (p, l) the array's diagonal entry of row
    512·(t / 16) + p. -/
theorem acc2_at_flush (c : Dev nD) (t : Fin cfg0.N) (ht : t.val % 16 = 15) (y : S512x128.Idx) (r : Fin 8192)
    (hr : r.val = 512 * (t.val / 16) + (y 0).val) :
    (scr0 (F := Ideal) V c t.val t.isLt).2 y = Cert.GcnSpec.diag (V c main_arg0) r := by
  obtain ⟨p, l, rfl⟩ : ∃ (p : Fin 512) (l : Fin 128), y = ix2 p l := ⟨y 0, y 1, eq_ix2 y⟩
  have hN : cfg0.N = 256 := N_0
  have htl : t.val < 256 := lt_of_lt_of_eq t.isLt hN
  have hle : t.val / 16 ≤ t.val % 16 := by omega
  have hlt : 16 * (t.val / 16) + t.val / 16 < cfg0.N :=
    lt_of_lt_of_eq (show 16 * (t.val / 16) + t.val / 16 < 256 by omega) hN.symm
  rw [scr0_eq_accs V c t.val t.isLt, accs_snd, if_pos hle, blks_of_lt V c _ hlt]
  unfold Cert.GcnSpec.diag
  refine blkA0_apply V c ⟨16 * (t.val / 16) + t.val / 16, hlt⟩ p p r r ?_ ?_
  · show r.val = 512 * ((16 * (t.val / 16) + t.val / 16) / 16) + p.val
    rw [hr]; show 512 * (t.val / 16) + p.val = _; omega
  · show r.val = 512 * ((16 * (t.val / 16) + t.val / 16) % 16) + p.val
    rw [hr]; show 512 * (t.val / 16) + p.val = _; omega

/-- What a point that writes back writes to the first output: its block of "the sum of row r, in every lane of row r". -/
theorem flushed0_1_eq (c : Dev nD) (t : Fin cfg0.N) (hf : (cfg0.win 1).flush t = true) :
    (dat0 (F := Ideal) V c).flushed 1 t
      = ((cfg0.win 1).blk t).view.read (Elt Ideal) (fun i => Cert.GcnSpec.rowsum (V c main_arg0) (i 0)) := by
  have ht : t.val % 16 = 15 := (flush0_1 t).mp hf
  obtain ⟨-, -, e0, -, -, -⟩ := idx_facts0 t
  show (cfg0.win 1).cut (grid0.coords t) ((dat0 (F := Ideal) V c).after 1 t) = _
  rw [after0_1]
  funext y
  show (scr0 (F := Ideal) V c t.val t.isLt).1 y
    = Cert.GcnSpec.rowsum (V c main_arg0) ((((cfg0.win 1).blk t).view.emb y) 0)
  refine acc1_at_flush V c t ht y _ ?_
  show win0_1.index t (0 : Fin 2) * 512 + 1 * (y 0).val = _
  rw [e0]; omega

/-- What a point that writes back writes to the second output: its block of "the diagonal entry of row r, in every
    lane of row r". -/
theorem flushed0_2_eq (c : Dev nD) (t : Fin cfg0.N) (hf : (cfg0.win 2).flush t = true) :
    (dat0 (F := Ideal) V c).flushed 2 t
      = ((cfg0.win 2).blk t).view.read (Elt Ideal) (fun i => Cert.GcnSpec.diag (V c main_arg0) (i 0)) := by
  have ht : t.val % 16 = 15 := (flush0_2 t).mp hf
  obtain ⟨-, -, -, -, e0, -⟩ := idx_facts0 t
  show (cfg0.win 2).cut (grid0.coords t) ((dat0 (F := Ideal) V c).after 2 t) = _
  rw [after0_2]
  funext y
  show (scr0 (F := Ideal) V c t.val t.isLt).2 y
    = Cert.GcnSpec.diag (V c main_arg0) ((((cfg0.win 2).blk t).view.emb y) 0)
  refine acc2_at_flush V c t ht y _ ?_
  show win0_2.index t (0 : Fin 2) * 512 + 1 * (y 0).val = _
  rw [e0]; omega

/-- The point that writes the block of row r back: the last point of block row r / 512. -/
theorem flushPoint (i : S8192x128.Idx) : ∃ t : Fin cfg0.N, t.val = 16 * ((i 0).val / 512) + 15 := by
  have h0 : (i 0).val < 8192 := (i 0).isLt
  have hN : cfg0.N = 256 := N_0
  exact ⟨⟨16 * ((i 0).val / 512) + 15, lt_of_lt_of_eq (show 16 * ((i 0).val / 512) + 15 < 256 by omega) hN.symm⟩, rfl⟩

/-- Every index of the first output lies in a written-back block. -/
theorem cover0_1 (i : S8192x128.Idx) :
    ∃ t : Fin cfg0.N, (cfg0.win 1).flush t = true ∧ i ∈ ((cfg0.win 1).blk t).view.set := by
  have h0 : (i 0).val < 8192 := (i 0).isLt
  have h1 : (i 1).val < 128 := (i 1).isLt
  obtain ⟨t, tv⟩ := flushPoint i
  have ht : t.val % 16 = 15 := by omega
  obtain ⟨-, -, e0, e1, -, -⟩ := idx_facts0 t
  refine ⟨t, (flush0_1 t).mpr ht, ?_⟩
  show i ∈ ((View.whole main_v4_0).slice (win0_1.rect t)).set
  rw [View.set_slice_whole, Rect.mem_set_unit]
  intro a
  match a with
  | ⟨0, _⟩ =>
    show win0_1.index t (0 : Fin 2) * 512 ≤ (i 0).val ∧ (i 0).val < win0_1.index t (0 : Fin 2) * 512 + 512
    rw [e0]; omega
  | ⟨1, _⟩ =>
    show win0_1.index t (1 : Fin 2) * 128 ≤ (i 1).val ∧ (i 1).val < win0_1.index t (1 : Fin 2) * 128 + 128
    rw [e1]; omega

/-- Every index of the second output lies in a written-back block. -/
theorem cover0_2 (i : S8192x128.Idx) :
    ∃ t : Fin cfg0.N, (cfg0.win 2).flush t = true ∧ i ∈ ((cfg0.win 2).blk t).view.set := by
  have h0 : (i 0).val < 8192 := (i 0).isLt
  have h1 : (i 1).val < 128 := (i 1).isLt
  obtain ⟨t, tv⟩ := flushPoint i
  have ht : t.val % 16 = 15 := by omega
  obtain ⟨-, -, -, -, e0, e1⟩ := idx_facts0 t
  refine ⟨t, (flush0_2 t).mpr ht, ?_⟩
  show i ∈ ((View.whole main_v4_1).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 128 ≤ (i 1).val ∧ (i 1).val < win0_2.index t (1 : Fin 2) * 128 + 128
    rw [e1]; omega

/-- The first output array after the region: every lane of row r holds the sum of row r of the array. -/
theorem arrAt0_1 (c : Dev nD) :
    (dat0 (F := Ideal) V c).arrAt 1 cfg0.N = fun i => Cert.GcnSpec.rowsum (V c main_arg0) (i 0) :=
  (dat0 (F := Ideal) V c).arrAt_eq_of_cover 1 _ (fun t hf => flushed0_1_eq V c t hf) cover0_1

/-- The second output array after the region: every lane of row r holds the array's entry (r, r). -/
theorem arrAt0_2 (c : Dev nD) :
    (dat0 (F := Ideal) V c).arrAt 2 cfg0.N = fun i => Cert.GcnSpec.diag (V c main_arg0) (i 0) :=
  (dat0 (F := Ideal) V c).arrAt_eq_of_cover 2 _ (fun t hf => flushed0_2_eq V c t hf) cover0_2

end Cert.KernelIdeal.Hand

end
-- ==== Proof.LibPlainDot.lean ====
/-
  A plain matrix product read at one entry, on the extended reals.

  For the dimension numbers of an `M × K` by `K × N` product (the left operand contracted on its second axis, the
  right on its first, no batch axis: `DotDims.plain M K N`), the contraction runs over one axis of extent `K`, and
  at result entry `(p, q)` and contraction position `k` the left operand is read at `(p, k)` and the right at
  `(k, q)`. So the product into a zero accumulator, and equally the host's `dot_general`, is at `(p, q)` the sum
  `∑ k, L (p, k) · R (k, q)` over `Fin K`: no rounding, no chunk order, and no finiteness assumed (the sum is the
  extended reals' own). Any extents, any operand formats.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the result's row coordinate. -/
theorem lhs0 (j : (⟨2, ![M, N]⟩ : Shape).Idx) (k : (DotDims.plain M K N).contr.Idx) :
    ((DotDims.plain M K N).lhsIdx j k 0).val = (j 0).val := rfl
/-- The left operand's column coordinate is the contraction position. -/
theorem lhs1 (j : (⟨2, ![M, N]⟩ : Shape).Idx) (k : (DotDims.plain M K N).contr.Idx) :
    ((DotDims.plain M K N).lhsIdx j k 1).val = (k ⟨0, Nat.one_pos⟩).val := rfl
/-- The right operand's row coordinate is the contraction position. -/
theorem rhs0 (j : (⟨2, ![M, N]⟩ : Shape).Idx) (k : (DotDims.plain M K N).contr.Idx) :
    ((DotDims.plain M K N).rhsIdx j k 0).val = (k ⟨0, Nat.one_pos⟩).val := rfl
/-- The right operand's column coordinate is the result's column coordinate. -/
theorem rhs1 (j : (⟨2, ![M, N]⟩ : Shape).Idx) (k : (DotDims.plain M K N).contr.Idx) :
    ((DotDims.plain M K N).rhsIdx j k 1).val = (j 1).val := rfl

/-- The contraction's sum at entry `(p, q)`, re-indexed by the contraction axis's one coordinate. -/
theorem sum_apply {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 M K N _ _
      | ⟨1, _⟩ => exact (lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 M K N _ _).trans hk
      | ⟨1, _⟩ => exact rhs1 M K N _ _)
  rw [el, er]

/-- A matrix product into the zero accumulator, at entry `(p, q)`: `∑ k, L (p, k) · R (k, q)`. -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant (F := Ideal) ⟨2, ![M, N]⟩ .f32 0x00000000#32) (ix2 p q)
      = ∑ k : Fin K, L (ix2 p k) * R (ix2 k q) :=
  (Ideal.matmul_constant_zero_apply _ prec L R (ix2 p q)).trans (sum_apply M K N L R p q)

/-- The host's `dot_general` with the same dimension numbers, at entry `(p, q)`: the same sum. -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) :=
  (Ideal.dotGeneral_apply _ prec sched L R (ix2 p q)).trans (sum_apply M K N L R p q)

end Idealize.ShloMosaic.PlainDot

end
-- ==== Proof.Val1Pay.lean ====
/-
  The two payloads of the second kernel region, read at an entry, on the extended reals.

  The clearing payload is the zero block. The accumulating payload, of a 1024 x 1024 block a, a 1024 x 128 block u
  and the accumulator's contents s, is at entry (p, q)

      s (p, q) + Σ_k a (p, k) · u (k, q),   k over the 1024 contraction positions:

  the narrowing of both operands is the identity on the extended reals, the product runs into the zero
  accumulator, so it is the plain sum, and the reshapes are to the same shape. One grid point's effect on the
  accumulator follows: the accumulator is first cleared when the point number is a multiple of 8.
-/
import proofs.«157629_j28613072126264_1_alg».proof.Proof.Dat1
import proofs.«157629_j28613072126264_1_alg».proof.Proof.LibPlainDot
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open scoped BigOperators

/-- The contraction of the accumulating payload is the plain 1024 x 1024 by 1024 x 128 product. -/
theorem dot1_eq_plain : dot_S1024x1024_S1024x128_S1024x128_1_0_0_1_n_n = DotDims.plain 1024 1024 128 := rfl

/-- The clearing payload reads zero at every entry. -/
theorem clearAcc_apply (j : S1024x128.Idx) : k1_pay1 (F := Ideal) j = 0 := by
  unfold k1_pay1
  rw [shapeCast_self]
  exact Ideal.ofBits_zero_f32

/-- The accumulating payload as operations on whole blocks: the accumulator plus the product into zero. -/
theorem pay2_eq (a : Vec Ideal S1024x1024 .f32) (u s : Vec Ideal S1024x128 .f32) :
    k1_pay2 a u s
      = addf s (matmul (DotDims.plain 1024 1024 128) none (truncf .bf16 a bitsLt_bf16_f32) (truncf .bf16 u bitsLt_bf16_f32)
          (constant (F := Ideal) S1024x128 .f32 0x00000000#32)) := by
  unfold k1_pay2
  dsimp only
  rw [shapeCast_self, shapeCast_self, dot1_eq_plain]

/-- The accumulating payload at entry (p, q): the accumulator's entry plus row p of a against column q of u. -/
theorem addProduct_apply (a : Vec Ideal S1024x1024 .f32) (u s : Vec Ideal S1024x128 .f32) (p : Fin 1024) (q : Fin 128) :
    k1_pay2 a u s (ix2 p q) = s (ix2 p q) + ∑ k : Fin 1024, a (ix2 p k) * u (ix2 k q) := by
  rw [pay2_eq]
  show s (ix2 p q) + FloatOps.matmul (DotDims.plain 1024 1024 128) none (truncf .bf16 a bitsLt_bf16_f32) (truncf .bf16 u bitsLt_bf16_f32)
      (constant (F := Ideal) ⟨2, ![1024, 128]⟩ .f32 0x00000000#32) (ix2 p q) = _
  rw [PlainDot.matmul_zero_apply 1024 1024 128 none _ _ p q]
  rfl

/-- One grid point's effect at entry (p, q): the entry before it, or zero when the point number is a multiple
    of 8, plus row p of the point's first block against column q of its second. -/
theorem step1_apply (a : Vec Ideal S1024x1024 .f32) (u : Vec Ideal S1024x128 .f32) (n : ℕ) (s : Vec Ideal S1024x128 .f32)
    (p : Fin 1024) (q : Fin 128) :
    step1 a u n s (ix2 p q) = (if n % 8 = 0 then 0 else s (ix2 p q)) + ∑ k : Fin 1024, a (ix2 p k) * u (ix2 k q) := by
  unfold step1
  rw [addProduct_apply]
  by_cases h : n % 8 = 0
  · rw [if_pos h, if_pos h, clearAcc_apply]
  · rw [if_neg h, if_neg h]

end Cert.KernelIdeal.Hand

end
-- ==== Proof.Val1Rec.lean ====
/-
  The accumulator of the second kernel region after each grid point, at an entry, in closed form.

  With d (m) the product of point m's two blocks at entry (p, q) — row p of the 1024 x 1024 block against column q
  of the 1024 x 128 block —, the accumulator after point n holds at (p, q)

      Σ_{j ≤ n mod 8} d (8·(n div 8) + j):

  the products of the points of n's own row of the grid up to n. By induction on the point: a point whose number
  is a multiple of 8 starts from the cleared accumulator, any other adds its product to what the point before
  left. At the last point of a row (n mod 8 = 7) that is the sum over the row's 8 points.
-/
import proofs.«157629_j28613072126264_1_alg».proof.Proof.Val1Pay

noncomputable section

namespace Cert.KernelIdeal.Hand

open Cert.KernelIdeal Cert.KernelIdeal.Gen
open Idealize.ShloMosaic Idealize.ShloMosaic.TcCoe Idealize.ShloMosaic.ValueIdx
open scoped BigOperators

variable (V : (c : Dev nD) → (b : Ref sig .tc) → Buf (Elt Ideal) ((c : Thread nD τ).loc b))

/-- The product of point m's two blocks at entry (p, q); zero past the grid. -/
def prod1 (c : Dev nD) (p : Fin 1024) (q : Fin 128) (m : ℕ) : EReal :=
  if h : m < cfg1.N then ∑ k : Fin 1024, blkA1 V c ⟨m, h⟩ (ix2 p k) * blkU1 V c ⟨m, h⟩ (ix2 k q) else 0

theorem prod1_of_lt (c : Dev nD) (p : Fin 1024) (q : Fin 128) (m : ℕ) (h : m < cfg1.N) :
    prod1 V c p q m = ∑ k : Fin 1024, blkA1 V c ⟨m, h⟩ (ix2 p k) * blkU1 V c ⟨m, h⟩ (ix2 k q) := dif_pos h

/-- The accumulator after point n at entry (p, q): the products of the points of n's row of the grid up to n. -/
theorem scr1_apply (c : Dev nD) (p : Fin 1024) (q : Fin 128) : ∀ (n : ℕ) (h : n < cfg1.N),
    scr1 V c n h (ix2 p q) = ∑ j ∈ Finset.range (n % 8 + 1), prod1 V c p q (8 * (n / 8) + j)
  | 0, h => by
    rw [scr1_zero, step1_apply, if_pos rfl, zero_add]
    show _ = ∑ j ∈ Finset.range 1, prod1 V c p q (8 * (0 / 8) + j)
    rw [Finset.sum_range_one]
    exact (prod1_of_lt V c p q 0 h).symm
  | n + 1, h => by
    rw [scr1_succ, step1_apply, ← prod1_of_lt V c p q (n + 1) h]
    by_cases hm : (n + 1) % 8 = 0
    · rw [if_pos hm, zero_add, hm, Finset.sum_range_one]
      exact congrArg (prod1 V c p q) (by omega)
    · rw [if_neg hm, scr1_apply c p q n (Nat.lt_of_succ_lt h)]
      have h1 : (n + 1) % 8 = n % 8 + 1 := by omega
      have h2 : (n + 1) / 8 = n / 8 := by omega
      rw [h1, h2, Finset.sum_range_succ _ (n % 8 + 1)]
      exact congrArg (_ + prod1 V c p q ·) (by omega)

/-- After the last point of a row of the grid: the sum of the products of the row's 8 points. -/
theorem scr1_last (c : Dev nD) (p : Fin 1024) (q : Fin 128) (t : Fin cfg1.N) (ht : t.val % 8 = 7) :
    scr1 V c t.val t.isLt (ix2 p q) = ∑ j : Fin 8, prod1 V c p q (8 * (t.val / 8) + j.val) := by
  rw [scr1_apply V c p q t.val t.isLt, ht]
  exact Finset.sum_range fun j => prod1 V c p q (8 * (t.val / 8) + j)

end Cert.KernelIdeal.Hand

end
-- ==== Proof.Val1Arr.lean ====
/-
  What the second kernel region leaves in its result array, index by index on the extended reals.

  The grid is 8 x 8, point t = 8·i + j. The printed index maps, decided over the grid, put the first input's block
  at (i, j) of the 8192 x 8192 array, the second's at (j, 0) of the 8192 x 128 array and the output's at (i, 0) of
  the 8192 x 128 result. So the product of point 8·i + j's two blocks at entry (p, q) is the part of

      Σ_B A (1024·i + p, B) · u (B, q)

  over the j-th block of 1024 contraction positions, the accumulator after the last point of row i holds the whole
  sum over the 8192 positions (a sum over 8 blocks of 1024, regrouped), and that point writes it back as block i of
  the result. The 8 blocks written back tile the result array.
-/
import proofs.«157629_j28613072126264_1_alg».proof.Proof.Val1Rec
import proofs.«157629_j28613072126264_1_alg».proof.Proof.Spec
import proofs.«157629_j28613072126264_1_alg».proof.Proof.LibIdxSums

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- The two operand arrays as the region finds them, as functions to the extended reals. -/
abbrev arrA1 (c : Dev nD) : S8192x8192.Idx → EReal := V c main_arg0
abbrev arrU1 (c : Dev nD) : S8192x128.Idx → EReal := V c main_v13

/-- The printed index maps as functions of the point number, decided over the grid. -/
theorem idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The first input's block at point t, at (p, k): the array at row 1024·(t div 8) + p, column 1024·(t mod 8) + k. -/
theorem blkA1_apply (c : Dev nD) (t : Fin cfg1.N) (p k : Fin 1024) (r s : Fin 8192)
    (hr : r.val = 1024 * (t.val / 8) + p.val) (hs : s.val = 1024 * (t.val % 8) + k.val) :
    blkA1 V c t (ix2 p k) = arrA1 V c (ix2 r s) := by
  obtain ⟨e0, e1, -⟩ := idx1 t
  unfold blkA1 iblk1
  rw [View.read_apply]
  show V c main_arg0 _ = V c main_arg0 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * k.val = s.val; rw [e1, hs]; omega

/-- The second input's block at point t, at (k, q): the array at row 1024·(t mod 8) + k, column q. -/
theorem blkU1_apply (c : Dev nD) (t : Fin cfg1.N) (k : Fin 1024) (q : Fin 128) (s : Fin 8192)
    (hs : s.val = 1024 * (t.val % 8) + k.val) :
    blkU1 V c t (ix2 k q) = arrU1 V c (ix2 s q) := by
  obtain ⟨-, -, e2, e3, -⟩ := idx1 t
  unfold blkU1 iblk1
  rw [View.read_apply]
  show V c main_v13 _ = V c main_v13 _
  congr 1
  funext a
  apply Fin.ext
  match a with
  | ⟨0, _⟩ => show win1_1.index t (0 : Fin 2) * 1024 + 1 * k.val = s.val; rw [e2, hs]; omega
  | ⟨1, _⟩ => show win1_1.index t (1 : Fin 2) * 128 + 1 * q.val = q.val; rw [e3]; omega

/-- The product of the two blocks of point 8·(t div 8) + j at entry (p, q): the j-th block of 1024 terms of row
    1024·(t div 8) + p of the first array against column q of the second. -/
theorem prod1_eq (c : Dev nD) (t : Fin cfg1.N) (p : Fin 1024) (q : Fin 128) (r : Fin 8192)
    (hr : r.val = 1024 * (t.val / 8) + p.val) (j : Fin 8) :
    prod1 V c p q (8 * (t.val / 8) + j.val)
      = ∑ k : Fin 1024, arrA1 V c (ix2 r ⟨j.val * 1024 + k.val, Cert.LibIdxSums.block_lt j k⟩)
          * arrU1 V c (ix2 ⟨j.val * 1024 + k.val, Cert.LibIdxSums.block_lt j k⟩ q) := by
  have hj := j.isLt
  have ht : t.val < 64 := t.isLt
  have hm : 8 * (t.val / 8) + j.val < cfg1.N := by show _ < 64; omega
  rw [prod1_of_lt V c p q _ hm]
  refine Finset.sum_congr rfl fun k _ => ?_
  have hs : (⟨j.val * 1024 + k.val, Cert.LibIdxSums.block_lt j k⟩ : Fin 8192).val
      = 1024 * ((8 * (t.val / 8) + j.val) % 8) + k.val := by
    show j.val * 1024 + k.val = _; omega
  rw [blkA1_apply V c ⟨_, hm⟩ p k r ⟨j.val * 1024 + k.val, Cert.LibIdxSums.block_lt j k⟩
      (by show r.val = 1024 * ((8 * (t.val / 8) + j.val) / 8) + p.val; omega) hs,
    blkU1_apply V c ⟨_, hm⟩ k q ⟨j.val * 1024 + k.val, Cert.LibIdxSums.block_lt j k⟩ hs]

/-- After the last point of row t div 8 of the grid the accumulator holds at (p, q) the whole sum over the 8192
    contraction positions: 8 blocks of 1024, regrouped. -/
theorem scr1_last_eq (c : Dev nD) (t : Fin cfg1.N) (ht : t.val % 8 = 7) (p : Fin 1024) (q : Fin 128) (r : Fin 8192)
    (hr : r.val = 1024 * (t.val / 8) + p.val) :
    scr1 V c t.val t.isLt (ix2 p q) = ∑ B : Fin 8192, arrA1 V c (ix2 r B) * arrU1 V c (ix2 B q) := by
  rw [scr1_last V c p q t ht]
  refine Eq.trans ?_ (Cert.LibIdxSums.sum_fin_blocks 8 1024
    (fun B : Fin (8 * 1024) => arrA1 V c (ix2 r B) * arrU1 V c (ix2 B q))).symm
  exact Finset.sum_congr rfl fun j _ => prod1_eq V c t p q r hr j

/-- The result array as one function of the two operand arrays as the region finds them. -/
def G1 (c : Dev nD) : S8192x128.Idx → EReal :=
  fun i => ∑ k : Fin 8192, arrA1 V c (ix2 (i 0) k) * arrU1 V c (ix2 k (i 1))

/-- What a point that writes back writes is its block of that function. -/
theorem flushed1_2_eq (c : Dev nD) (t : Fin cfg1.N) (hf : (cfg1.win 2).flush t = true) :
    (dat1 (F := Ideal) V c).flushed 2 t = ((cfg1.win 2).blk t).view.read (Elt Ideal) (G1 V c) := by
  have ht : t.val % 8 = 7 := (flush1_2 t).mp hf
  obtain ⟨-, -, -, -, e4, e5⟩ := idx1 t
  show (cfg1.win 2).cut (grid1.coords t) ((dat1 (F := Ideal) V c).after 2 t) = _
  rw [after1_2]
  funext j
  rw [View.read_apply]
  have hj0 : (j 0).val < 1024 := (j 0).isLt
  have hj1 : (j 1).val < 128 := (j 1).isLt
  show scr1 V c t.val t.isLt ((cfg1.win 2).xinj (grid1.coords t) j) = G1 V c (((cfg1.win 2).blk t).view.emb j)
  rw [eq_ix2 ((cfg1.win 2).xinj (grid1.coords t) j)]
  have hr : ((((cfg1.win 2).blk t).view.emb j) 0).val = 1024 * (t.val / 8) + (j 0).val := by
    show win1_2.index t (0 : Fin 2) * 1024 + 1 * (j 0).val = _; rw [e4]; omega
  have hq : (((cfg1.win 2).blk t).view.emb j) 1 = ((cfg1.win 2).xinj (grid1.coords t) j) 1 := Fin.ext (by
    show win1_2.index t (1 : Fin 2) * 128 + 1 * (j 1).val = (j 1).val; rw [e5]; omega)
  refine (scr1_last_eq V c t ht _ _ ((((cfg1.win 2).blk t).view.emb j) 0) hr).trans ?_
  show _ = ∑ k : Fin 8192, arrA1 V c (ix2 ((((cfg1.win 2).blk t).view.emb j) 0) k)
      * arrU1 V c (ix2 k ((((cfg1.win 2).blk t).view.emb j) 1))
  rw [hq]

/-- Every index of the result array lies in the block the last point of its row of the grid writes back. -/
theorem cover1_2 (i : S8192x128.Idx) :
    ∃ t : Fin cfg1.N, (cfg1.win 2).flush t = true ∧ i ∈ ((cfg1.win 2).blk t).view.set := by
  have h0 : (i 0).val < 8192 := (i 0).isLt
  have h1 : (i 1).val < 128 := (i 1).isLt
  have hN : 8 * ((i 0).val / 1024) + 7 < cfg1.N := by show _ < 64; omega
  obtain ⟨t, htv⟩ : ∃ t : Fin cfg1.N, t.val = 8 * ((i 0).val / 1024) + 7 := ⟨⟨_, hN⟩, rfl⟩
  obtain ⟨-, -, -, -, e4, e5⟩ := idx1 t
  refine ⟨t, (flush1_2 t).mpr (by omega), ?_⟩
  show i ∈ ((View.whole main_v14).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4]; omega
  | ⟨1, _⟩ =>
    show win1_2.index t (1 : Fin 2) * 128 ≤ (i 1).val ∧ (i 1).val < win1_2.index t (1 : Fin 2) * 128 + 128
    rw [e5]; omega

/-- The region's result array after the region: at index i, row i 0 of the first array against column i 1 of the
    second, summed over all 8192 contraction positions. -/
theorem arrAt1_2 (c : Dev nD) :
    (dat1 (F := Ideal) V c).arrAt 2 cfg1.N
      = fun i : S8192x128.Idx => (∑ k : Fin 8192, arrA1 V c (ix2 (i 0) k) * arrU1 V c (ix2 k (i 1)) : EReal) :=
  (dat1 (F := Ideal) V c).arrAt_eq_of_cover 2 (G1 V c) (flushed1_2_eq V c) cover1_2

end Cert.KernelIdeal.Hand

end
-- ==== Proof.LibRefScatter.lean ====
/-
  A left fold of point updates, read at an index.  Each step `n` of the fold either names a target index `tgt n` and
  replaces the value there by `f` of the old value and the step's datum `g n`, or names none and changes nothing.
  An index no step names keeps its value; an index exactly one step names, in a list without repeats, ends at `f` of
  its first value and that step's datum.  The host scatter is such a fold over the update indices in row-major order.
-/
import Idealize.ShloMosaic.PureOps.ShapeOps
import Mathlib.Data.List.Nodup
import Mathlib.Data.List.FinRange
import Mathlib.Tactic.DefEqTransformations

namespace Cert.LibRefScatter

open Idealize.ShloMosaic

variable {ι I α : Type} [DecidableEq I]

/-- One point update. -/
def step (f : α → α → α) (tgt : ι → Option I) (g : ι → α) (r : I → α) (n : ι) : I → α :=
  match tgt n with
  | some i => fun i' => if i' = i then f (r i) (g n) else r i'
  | none => r

theorem step_of_ne (f : α → α → α) (tgt : ι → Option I) (g : ι → α) (r : I → α) (n : ι) (i' : I) (h : tgt n ≠ some i') :
    step f tgt g r n i' = r i' := by
  unfold step
  cases ht : tgt n with
  | none => rfl
  | some i =>
    show (if i' = i then f (r i) (g n) else r i') = r i'
    rw [if_neg]
    intro e
    exact h (by rw [ht, e])

theorem step_of_eq (f : α → α → α) (tgt : ι → Option I) (g : ι → α) (r : I → α) (n : ι) (i' : I) (h : tgt n = some i') :
    step f tgt g r n i' = f (r i') (g n) := by
  unfold step
  rw [h]
  show (if i' = i' then f (r i') (g n) else r i') = _
  rw [if_pos rfl]

/-- An index no step of the list names keeps its value. -/
theorem foldl_step_miss (f : α → α → α) (tgt : ι → Option I) (g : ι → α) (i' : I) :
    ∀ (L : List ι) (x : I → α), (∀ n ∈ L, tgt n ≠ some i') → (L.foldl (step f tgt g) x) i' = x i'
  | [], _, _ => rfl
  | n :: L, x, h => by
    rw [List.foldl_cons, foldl_step_miss f tgt g i' L _ (fun k hk => h k (List.mem_cons_of_mem _ hk))]
    exact step_of_ne f tgt g x n i' (h n List.mem_cons_self)

/-- An index exactly one step of a list without repeats names ends at `f` of its first value and that step's datum. -/
theorem foldl_step_hit (f : α → α → α) (tgt : ι → Option I) (g : ι → α) (i' : I) (n0 : ι) (h0 : tgt n0 = some i') :
    ∀ (L : List ι) (x : I → α), n0 ∈ L → (∀ n ∈ L, tgt n = some i' → n = n0) → L.Nodup →
      (L.foldl (step f tgt g) x) i' = f (x i') (g n0)
  | [], _, hmem, _, _ => absurd hmem List.not_mem_nil
  | n :: L, x, hmem, huniq, hnd => by
    rw [List.foldl_cons]
    have hnd' := List.nodup_cons.mp hnd
    by_cases hn : n = n0
    · subst hn
      rw [foldl_step_miss f tgt g i' L _ (fun k hk hk' => hnd'.1 (huniq k (List.mem_cons_of_mem _ hk) hk' ▸ hk))]
      exact step_of_eq f tgt g x n i' h0
    · have hmem' : n0 ∈ L := (List.mem_cons.mp hmem).resolve_left (fun e => hn e.symm)
      rw [foldl_step_hit f tgt g i' n0 h0 L _ hmem' (fun k hk => huniq k (List.mem_cons_of_mem _ hk)) hnd'.2]
      refine congrArg (f · (g n0)) (step_of_ne f tgt g x n i' fun e => hn (huniq n List.mem_cons_self e))

variable {s si u : Shape} {w : Nat}

/-- The host scatter as that fold. -/
theorem scatter_eq_foldl (d : ScatterDims s si u) (f : α → α → α) (x : s.Idx → α) (idx : IVec si w) (upd : u.Idx → α) :
    Host.scatter d f x idx upd
      = (List.finRange u.numel).foldl
          (step f (fun n => d.resultIdx? (u.rowMajor.symm n) idx) (fun n => upd (u.rowMajor.symm n))) x := by
  unfold Host.scatter
  refine congrArg (fun F => List.foldl F x (List.finRange u.numel)) ?_
  funext r n
  unfold step
  beta_reduce
  cases d.resultIdx? (u.rowMajor.symm n) idx with
  | none => rfl
  | some i =>
    funext i'
    show (if i' = i then _ else _) = (if i' = i then _ else _)
    congr

/-- The host scatter at an index no update lands on. -/
theorem scatter_apply_miss (d : ScatterDims s si u) (f : α → α → α) (x : s.Idx → α) (idx : IVec si w) (upd : u.Idx → α)
    (i' : s.Idx) (h : ∀ j : u.Idx, d.resultIdx? j idx ≠ some i') : Host.scatter d f x idx upd i' = x i' := by
  rw [scatter_eq_foldl]
  exact foldl_step_miss f _ _ i' _ x fun n _ => h _

/-- The host scatter at an index exactly one update lands on. -/
theorem scatter_apply_hit (d : ScatterDims s si u) (f : α → α → α) (x : s.Idx → α) (idx : IVec si w) (upd : u.Idx → α)
    (i' : s.Idx) (j0 : u.Idx) (h0 : d.resultIdx? j0 idx = some i') (huniq : ∀ j : u.Idx, d.resultIdx? j idx = some i' → j = j0) :
    Host.scatter d f x idx upd i' = f (x i') (upd j0) := by
  rw [scatter_eq_foldl]
  have e : u.rowMajor.symm (u.rowMajor j0) = j0 := Equiv.symm_apply_apply _ _
  have := foldl_step_hit f (fun n => d.resultIdx? (u.rowMajor.symm n) idx) (fun n => upd (u.rowMajor.symm n)) i'
    (u.rowMajor j0) (by show d.resultIdx? (u.rowMajor.symm (u.rowMajor j0)) idx = _; rw [e]; exact h0)
    (List.finRange u.numel) x (List.mem_finRange _)
    (fun n _ hn => by
      have := huniq _ hn
      rw [← this]; exact (Equiv.apply_symm_apply _ _).symm)
    (List.nodup_finRange _)
  rw [this]
  show f (x i') (upd (u.rowMajor.symm (u.rowMajor j0))) = _
  rw [e]

end Cert.LibRefScatter
-- ==== Proof.RefDiag.lean ====
/-
  The reference's scatter, read at an index: the adjacency array with its diagonal set to one.

  The reference builds an index array of 8192 rows whose row p is (p, p) — two copies of the column 0, 1, …, 8191, each
  passed through "if negative add 8192", which changes nothing since no entry is negative — and writes the unit word
  at each indexed entry of the adjacency array.  Update p lands on the entry (p, p): its window starts at the row
  (p, p) read as signed integers (p < 8192 < 2³¹, so the signed reading of the word p is p) and has one element.
  So an off-diagonal entry (i, j), i ≠ j, is named by no update and keeps its value, and a diagonal entry (i, i) is
  named by update i alone and ends at the unit word.
-/
import proofs.«157629_j28613072126264_1_alg».proof.Proof.Gen.ReferenceIdeal.Read
import proofs.«157629_j28613072126264_1_alg».proof.Proof.LibRefScatter

noncomputable section
namespace Cert.ReferenceIdeal.RefDiag
open Cert.ReferenceIdeal Cert.ReferenceIdeal.Read Idealize.ShloMosaic Idealize.ShloMosaic.ValueIdx

variable {F : FTy → Type} [FloatOps F]

/-- The signed reading of the 32-bit word of a number below 8192 is that number. -/
theorem toInt_ofNat_small (p : Nat) (hp : p < 8192) : (BitVec.ofNat 32 p).toInt = (p : Int) := by
  have h1 : (BitVec.ofNat 32 p).toNat = p := by rw [BitVec.toNat_ofNat]; omega
  rw [BitVec.toInt_eq_toNat_cond, h1]
  rw [if_pos (by omega)]

/-- Such a word is not below zero in the signed order. -/
theorem not_slt_zero (p : Nat) (hp : p < 8192) : IntOp.cmpi .slt (BitVec.ofNat 32 p) 0#32 = 0#1 := by
  unfold IntOp.cmpi
  show BitVec.ofBool (decide ((BitVec.ofNat 32 p).toInt < (0#32 : BitVec 32).toInt)) = 0#1
  rw [toInt_ofNat_small p hp, show (0#32 : BitVec 32).toInt = 0 from rfl, decide_eq_false (by omega)]
  rfl

/-- The first index column at p is the word p: the "if negative add 8192" leaves it alone. -/
theorem v9_apply (p : Fin 8192) : val_main_v9 (F := F) (ix1 p) = BitVec.ofNat 32 p.val := by
  rw [val_main_v9_apply, val_main_v6_apply, val_main_v4_apply, val_main_v5_apply, val_main_c_apply]
  show Scalar.select (IntOp.cmpi .slt (BitVec.ofNat 32 p.val) 0#32) _ _ = _
  rw [not_slt_zero p.val p.isLt, select_zero]

/-- The second index column likewise. -/
theorem v14_apply (p : Fin 8192) : val_main_v14 (F := F) (ix1 p) = BitVec.ofNat 32 p.val := by
  rw [val_main_v14_apply, val_main_v11_apply, val_main_v4_apply, val_main_v10_apply, val_main_c_1_apply]
  show Scalar.select (IntOp.cmpi .slt (BitVec.ofNat 32 p.val) 0#32) _ _ = _
  rw [not_slt_zero p.val p.isLt, select_zero]

/-- The index rows: row p of the two-column index array is (p, p). -/
theorem v17_read (j : S8192x2.Idx) (p : Fin 8192) (h0 : (j 0).val = p.val) :
    val_main_v17 (F := F) j = BitVec.ofNat 32 p.val := by
  have h1 := idx2_lt1 j
  unfold val_main_v17
  rcases Nat.lt_or_ge (j 1).val 1 with hlt | hge
  · have e1 : (j 1).val = 0 := by omega
    rw [concatenate_pair_apply_left (t := S8192x2) (s₁ := S8192x1) (s₂ := S8192x1) (1 : Fin S8192x2.rank) _ _ _ j rfl (ix2 p (0 : Fin 1))
      (fun b => match b with
        | ⟨0, _⟩ => h0.symm
        | ⟨1, _⟩ => e1.symm)]
    rw [val_main_v15_apply]
    exact v9_apply p
  · have e1 : (j 1).val = 1 := by omega
    rw [concatenate_pair_apply_right (t := S8192x2) (s₁ := S8192x1) (s₂ := S8192x1) (1 : Fin S8192x2.rank) _ _ _ j rfl rfl (ix2 p (0 : Fin 1))
      (fun b => match b with
        | ⟨0, _⟩ => fun _ => h0.symm
        | ⟨1, _⟩ => fun hb => absurd rfl hb)
      (by show 0 + 1 = (j 1).val; omega)]
    rw [val_main_v16_apply]
    exact v14_apply p

/-- The start of update p's window on the row axis is p. -/
theorem start_diag0 (p : Fin 8192) :
    scatter_S8192x8192_S8192x2_S8192_n_01_01_1.start (ix1 p) (val_main_v17 (F := F)) (0 : Fin 2) = (p.val : Int) := by
  unfold ScatterDims.start
  rw [dif_pos (by decide)]
  rw [v17_read _ p rfl, toInt_ofNat_small p.val p.isLt]

/-- And on the column axis. -/
theorem start_diag1 (p : Fin 8192) :
    scatter_S8192x8192_S8192x2_S8192_n_01_01_1.start (ix1 p) (val_main_v17 (F := F)) (1 : Fin 2) = (p.val : Int) := by
  unfold ScatterDims.start
  rw [dif_pos (by decide)]
  rw [v17_read _ p rfl, toInt_ofNat_small p.val p.isLt]

/-- The start of update p's window is p on both axes. -/
theorem start_diag (p : Fin 8192) (a : Fin 2) :
    scatter_S8192x8192_S8192x2_S8192_n_01_01_1.start (ix1 p) (val_main_v17 (F := F)) a = (p.val : Int) := by
  match a with
  | ⟨0, _⟩ => exact start_diag0 p
  | ⟨1, _⟩ => exact start_diag1 p

/-- Both operand axes are inserted window axes: the window has one element. -/
theorem window_diag (j : S8192.Idx) (a : Fin 2) :
    scatter_S8192x8192_S8192x2_S8192_n_01_01_1.window j a = 0 := by
  have h0 : scatter_S8192x8192_S8192x2_S8192_n_01_01_1.window j (0 : Fin 2) = 0 := by
    unfold ScatterDims.window; rw [dif_neg (by decide)]
  have h1 : scatter_S8192x8192_S8192x2_S8192_n_01_01_1.window j (1 : Fin 2) = 0 := by
    unfold ScatterDims.window; rw [dif_neg (by decide)]
  match a with
  | ⟨0, _⟩ => exact h0
  | ⟨1, _⟩ => exact h1

/-- Update p lands on the diagonal entry (p, p). -/
theorem resultIdx_diag (p : Fin 8192) :
    scatter_S8192x8192_S8192x2_S8192_n_01_01_1.resultIdx? (ix1 p) (val_main_v17 (F := F)) = some (ix2 p p) := by
  unfold ScatterDims.resultIdx?
  rw [dif_pos (fun a => by
    rw [start_diag, window_diag]
    have := p.isLt
    match a with
    | ⟨0, _⟩ => exact ⟨by omega, by show (p.val : Int) + ((0 : Nat) : Int) < ((8192 : Nat) : Int); omega⟩
    | ⟨1, _⟩ => exact ⟨by omega, by show (p.val : Int) + ((0 : Nat) : Int) < ((8192 : Nat) : Int); omega⟩)]
  refine congrArg some (funext fun a => Fin.ext ?_)
  show (scatter_S8192x8192_S8192x2_S8192_n_01_01_1.start (ix1 p) (val_main_v17 (F := F)) a
    + scatter_S8192x8192_S8192x2_S8192_n_01_01_1.window (ix1 p) a).toNat = (ix2 p p a).val
  rw [start_diag, window_diag]
  match a with
  | ⟨0, _⟩ => show ((p.val : Int) + ((0 : Nat) : Int)).toNat = p.val; omega
  | ⟨1, _⟩ => show ((p.val : Int) + ((0 : Nat) : Int)).toNat = p.val; omega

/-- The scatter of ones at the index rows (p, p): the array with its diagonal set to the unit word. -/
theorem v19_apply (A : (⟨S8192x8192, .f32⟩ : BufTy).Contents (Elt F)) (i j : Fin 8192) :
    val_main_v19 (F := F) A (ix2 i j) = if i = j then FloatOps.ofBits .f32 0x3F800000#32 else A (ix2 i j) := by
  unfold val_main_v19
  by_cases hij : i = j
  · subst hij
    rw [if_pos rfl, Cert.LibRefScatter.scatter_apply_hit scatter_S8192x8192_S8192x2_S8192_n_01_01_1 (fun _ b => b) A
      (val_main_v17 (F := F)) (val_main_v18 (F := F)) (ix2 i i) (ix1 i) (resultIdx_diag i)
      (fun j' hj' => by
        obtain ⟨q, rfl⟩ : ∃ q : Fin 8192, j' = ix1 q := ⟨j' 0, eq_ix1 j'⟩
        rw [resultIdx_diag q] at hj'
        have e : q = i := congrFun (Option.some.inj hj') (0 : Fin 2)
        rw [e])]
    rw [val_main_v18_apply, val_main_cst_apply]
  · rw [if_neg hij, Cert.LibRefScatter.scatter_apply_miss scatter_S8192x8192_S8192x2_S8192_n_01_01_1 (fun _ b => b) A
      (val_main_v17 (F := F)) (val_main_v18 (F := F)) (ix2 i j)
      (fun j' hj' => by
        obtain ⟨q, rfl⟩ : ∃ q : Fin 8192, j' = ix1 q := ⟨j' 0, eq_ix1 j'⟩
        rw [resultIdx_diag q] at hj'
        have e0 : q = i := congrFun (Option.some.inj hj') (0 : Fin 2)
        have e1 : q = j := congrFun (Option.some.inj hj') (1 : Fin 2)
        exact hij (e0.symm.trans e1))]

end Cert.ReferenceIdeal.RefDiag
end
-- ==== Proof.LibRealArith.lean ====
/-
  Real-number arithmetic inside the extended reals: the entries that are real numbers, the operations that keep
  them so, and the two identities of batch normalisation that hold once every entry is real.

  An extended real is a real number, +∞ or −∞. Sums, differences, products and maxima of reals are real; so is an
  exact sum of finitely many reals, hence a contraction (a matrix product, with or without an accumulator), a sum
  along axes, and a scatter-addition — each entry of the result is an entry of the operand plus the sum of the
  updates that land on it. A gather only re-reads entries of its operand. A quotient by a real that is not zero is
  real, and division by a nonzero real is the product with its reciprocal on every extended real, so a product
  with `1 / c` is the quotient by `c`.

  Batch normalisation: a column h_1 … h_N (N > 0) has mean μ = (Σ h_i) / N. Its centred variance
  (Σ (h_i − μ)·(h_i − μ)) / N is its moment variance (Σ h_i·h_i) / N − μ·μ, because
  Σ (h_i − μ)² = Σ h_i² − 2 μ Σ h_i + N μ² and Σ h_i = N μ; and (x − μ)·r·γ + β = x·(γ·r) + (β − μ·(γ·r)).
  Both are identities of real numbers; subtraction and distributivity fail at the infinities, so on the extended
  reals they are stated for real entries.
-/
import Mathlib
import Idealize.ShloMosaic.PureOps.Ideal
import Idealize.ShloMosaic.PureOps.Ideal.Laws

noncomputable section

namespace Cert.LibRealArith

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is real, and is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul]; congr 1; field_simp

theorem IsReal.div_coe {x : EReal} (hx : IsReal x) {c : ℝ} (hc : c ≠ 0) : IsReal (Ideal.div x (c : EReal)) := by
  obtain ⟨a, rfl⟩ := hx; exact ⟨a / c, div_coe_coe a hc⟩

/-- The product with the reciprocal of a nonzero real is the quotient by it, on every extended real. -/
theorem mul_one_div (x : EReal) {c : ℝ} (hc : c ≠ 0) :
    x * Ideal.div 1 (c : EReal) = Ideal.div x (c : EReal) := by
  rw [Ideal.div_coe hc x, Ideal.div_coe hc 1, one_mul]

/-- The reciprocal square root of a positive real is a positive real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-! ## The two variances -/

/-- Over the reals: the centred second moment is the second moment minus the squared mean. -/
theorem real_var_eq {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have h1 : ∀ i, (f i - (∑ j, f j) / n) * (f i - (∑ j, f j) / n)
      = f i * f i - 2 * ((∑ j, f j) / n) * f i + ((∑ j, f j) / n) * ((∑ j, f j) / n) := fun i => by ring
  simp only [h1, Finset.sum_add_distrib, Finset.sum_sub_distrib, ← Finset.mul_sum, Finset.sum_const,
    Finset.card_univ, nsmul_eq_mul, hcard]
  field_simp
  ring

/-- On the extended reals, for a column of real entries and a real count `n ≠ 0` equal to the number of rows: the
    centred variance (mean subtracted, squared, summed, divided) is the moment variance (mean of squares minus the
    squared mean). -/
theorem var_eq {ι : Type*} [Fintype ι] (h : ι → EReal) (hh : ∀ i, IsReal (h i)) {n : ℝ} (hn : n ≠ 0)
    (hcard : (Fintype.card ι : ℝ) = n) :
    Ideal.div (∑ i, (h i - Ideal.div (∑ j, h j) (n : EReal)) * (h i - Ideal.div (∑ j, h j) (n : EReal))) (n : EReal)
      = Ideal.div (∑ i, h i * h i) (n : EReal)
          - Ideal.div (∑ j, h j) (n : EReal) * Ideal.div (∑ j, h j) (n : EReal) := by
  choose f hf using hh
  have hfun : h = fun i => ((f i : ℝ) : EReal) := funext hf
  subst hfun
  simp only [sum_coe, div_coe_coe _ hn, ← EReal.coe_sub, ← EReal.coe_mul]
  exact congrArg _ (real_var_eq f hn hcard)

/-! ## The two normalisations -/

/-- Over real entries: centre, scale by `r`, by `γ`, shift by `β` — or scale by `γ·r` and shift by `β − μ·(γ·r)`. -/
theorem affine_eq {x μ r γ β : EReal} (hx : IsReal x) (hμ : IsReal μ) (hr : IsReal r) (hγ : IsReal γ) (hβ : IsReal β) :
    (x - μ) * r * γ + β = x * (γ * r) + (β - μ * (γ * r)) := by
  obtain ⟨a, rfl⟩ := hx; obtain ⟨m, rfl⟩ := hμ; obtain ⟨s, rfl⟩ := hr; obtain ⟨g, rfl⟩ := hγ; obtain ⟨b, rfl⟩ := hβ
  simp only [← EReal.coe_sub, ← EReal.coe_mul, ← EReal.coe_add]
  congr 1; ring

/-! ## Arrays of real entries -/

/-- Every entry of the array is a real number. -/
def AllReal {ι : Type*} (x : ι → EReal) : Prop := ∀ i, IsReal (x i)

theorem AllReal.add {ι : Type*} {x y : ι → EReal} (hx : AllReal x) (hy : AllReal y) : AllReal fun i => x i + y i :=
  fun i => (hx i).add (hy i)
theorem AllReal.sub {ι : Type*} {x y : ι → EReal} (hx : AllReal x) (hy : AllReal y) : AllReal fun i => x i - y i :=
  fun i => (hx i).sub (hy i)
theorem AllReal.mul {ι : Type*} {x y : ι → EReal} (hx : AllReal x) (hy : AllReal y) : AllReal fun i => x i * y i :=
  fun i => (hx i).mul (hy i)
theorem AllReal.max {ι : Type*} {x y : ι → EReal} (hx : AllReal x) (hy : AllReal y) : AllReal fun i => max (x i) (y i) :=
  fun i => (hx i).max (hy i)
/-- Re-reading entries (a gather, a transpose, a slice, a broadcast) keeps them real. -/
theorem AllReal.comp {ι κ : Type*} {x : ι → EReal} (hx : AllReal x) (f : κ → ι) : AllReal fun k => x (f k) :=
  fun k => hx (f k)

/-- A gather's entries are entries of its operand. -/
theorem gather {s si t : Shape} {w : Nat} (d : GatherDims s si t) {x : s.Idx → EReal} (hx : AllReal x) (idx : IVec si w) :
    AllReal (Host.gather d x idx) := fun j => hx _

/-- A scatter-addition of real updates onto a real operand is real: an entry is the operand's plus a finite sum of updates. -/
theorem hostScatterAdd {s si su : Shape} (d : ScatterDims s si su) {w : Nat} {x : s.Idx → EReal} (hx : AllReal x)
    (idx : IVec si w) {upd : su.Idx → EReal} (hu : AllReal upd) : AllReal (Ideal.hostScatterAdd d x idx upd) :=
  fun i => (hx i).add (IsReal.sum _ fun j _ => hu j)

/-- A host sum along axes of a real array from a real initial value is real. -/
theorem hostReduceAdd {s : Shape} {axes : List (Fin s.rank)} {t : Shape} (h : s.ReducesTo axes t) {x : s.Idx → EReal}
    (hx : AllReal x) {init : EReal} (hi : IsReal init) : AllReal (Ideal.hostReduceAdd h x init) :=
  fun j => hi.add (IsReal.sum _ fun i _ => hx i)

/-- A vector sum along axes of a real array is real. -/
theorem reduceAdd {s : Shape} {axes : List (Fin s.rank)} {t : Shape} (h : s.Reduces axes t) {x : s.Idx → EReal}
    (hx : AllReal x) : AllReal (Ideal.reduceAdd h x) :=
  fun j => IsReal.sum _ fun i _ => hx i

/-- A contraction of real operands into a real accumulator is real. -/
theorem matmul {sl sr so : Shape} (d : DotDims sl sr so) {lhs : sl.Idx → EReal} {rhs : sr.Idx → EReal} {acc : so.Idx → EReal}
    (hl : AllReal lhs) (hr : AllReal rhs) (ha : AllReal acc) : AllReal (Ideal.matmul d lhs rhs acc) :=
  fun j => (ha j).add (IsReal.sum _ fun k _ => (hl _).mul (hr _))

/-- A sum of products of real factors is real (a contraction with no accumulator, read at an entry). -/
theorem sum_mul {κ : Type*} [Fintype κ] {L R : κ → EReal} (hL : AllReal L) (hR : AllReal R) : IsReal (∑ k, L k * R k) :=
  IsReal.sum _ fun k _ => (hL k).mul (hR k)

/-- A quotient of a real array by an array of nonzero reals is real. -/
theorem div {ι : Type*} {x y : ι → EReal} (hx : AllReal x) (hy : ∀ i, ∃ r : ℝ, r ≠ 0 ∧ y i = (r : EReal)) :
    AllReal fun i => Ideal.div (x i) (y i) := fun i => by
  obtain ⟨r, hr, e⟩ := hy i
  show IsReal (Ideal.div (x i) (y i))
  rw [e]; exact (hx i).div_coe hr

/-- The larger of a real and one is a real that is at least one, so nonzero: the divisor of a mean over a count that
    may be zero. -/
theorem max_one_ne_zero {x : EReal} (hx : IsReal x) : ∃ r : ℝ, r ≠ 0 ∧ max x 1 = (r : EReal) := by
  obtain ⟨a, rfl⟩ := hx
  refine ⟨Max.max a 1, ?_, ?_⟩
  · have : (1 : ℝ) ≤ Max.max a 1 := le_max_right a 1
    intro h; rw [h] at this; norm_num at this
  · rw [show (1 : EReal) = ((1 : ℝ) : EReal) from rfl]
    exact (EReal.coe_strictMono.monotone.map_max).symm

end Cert.LibRealArith

end
-- ==== Proof.Algebra.lean ====
/-
  The reference's arrangement of the graph-convolution layer, and its agreement with the common value over real entries.

  The reference sets the diagonal of the adjacency array A to one (call the result Â: Â_ij = 1 if i = j, else A_ij),
  takes d_i = (0 + Σ_j Â_ij)^(-1/2), and returns Σ_j ((d_i · Â_ij) · d_j) · h_jc with h = x·W + b.  The common value
  takes r_i = Σ_j A_ij, a_i = A_ii, d_i = (r_i − a_i + 1)^(-1/2) and returns
  d_i · (Σ_k A_ik · (d_k · h_kc)) + (d_i · d_i) · (1 − a_i) · h_ic.

  Write Â_ij = A_ij + [i = j]·(1 − a_i).  Then Σ_j Â_ij = r_i − a_i + 1, so the two scalings d are the same number, and
  Σ_j d_i Â_ij d_j h_jc = d_i Σ_j A_ij d_j h_jc + d_i (1 − a_i) d_i h_ic.  Both are identities of real numbers
  (distributivity fails at the infinities), so they are proved over ℝ and carried to the extended reals for arrays whose
  entries are real numbers; a real base to a real exponent is again a real number, so every d_i is real as well.
-/
import proofs.«157629_j28613072126264_1_alg».proof.Proof.Spec
import proofs.«157629_j28613072126264_1_alg».proof.Proof.LibRealArith

noncomputable section
namespace Cert.GcnSpec
open Idealize.ShloMosaic Idealize.ShloMosaic.ValueIdx Cert.LibRealArith
open scoped BigOperators

/-- The unit word is the real number one. -/
theorem one_eq : one = ((1 : ℝ) : EReal) := by
  simp [one, Ideal.ofBits, Ideal.ieee]
  rw [← EReal.coe_mul, ← EReal.coe_one]
  congr 1
  norm_num

/-- The exponent word is a real number. -/
theorem negHalf_real : ∃ r : ℝ, negHalf = (r : EReal) := by
  simp [negHalf, Ideal.ofBits, Ideal.ieee]
  exact ⟨-(8388608 * (2 ^ 24)⁻¹), by rw [EReal.coe_neg, EReal.coe_mul]⟩

/-- Over ℝ: the sum of a row with entry i replaced by one is the row sum, less that entry, plus one. -/
theorem real_rowsum {ι : Type*} [Fintype ι] [DecidableEq ι] (a : ι → ℝ) (i : ι) :
    ∑ j, (if i = j then (1 : ℝ) else a j) = ∑ j, a j - a i + 1 := by
  have h : ∀ j, (if i = j then (1 : ℝ) else a j) = a j + (if i = j then 1 - a i else 0) := by
    intro j
    by_cases hj : i = j
    · subst hj; simp
    · simp [hj]
  simp only [h, Finset.sum_add_distrib, Finset.sum_ite_eq, Finset.mem_univ, if_true]
  ring

/-- Over ℝ: the normalised sum over the row with unit diagonal is the scaled sum over the row itself plus the diagonal
    correction. -/
theorem real_law {ι : Type*} [Fintype ι] [DecidableEq ι] (a d h : ι → ℝ) (i : ι) :
    ∑ j, ((d i * (if i = j then (1 : ℝ) else a j)) * d j) * h j
      = d i * (∑ k, a k * (d k * h k)) + (d i * d i) * (1 - a i) * h i := by
  have e : ∀ j, ((d i * (if i = j then (1 : ℝ) else a j)) * d j) * h j
      = d i * (a j * (d j * h j)) + (if i = j then (d i * d i) * (1 - a i) * h i else 0) := by
    intro j
    by_cases hj : i = j
    · subst hj; simp; ring
    · simp [hj]; ring
  simp only [e, Finset.sum_add_distrib, ← Finset.mul_sum, Finset.sum_ite_eq, Finset.mem_univ, if_true]

/-- The zero word both programs carry is the real number zero. -/
def zero : EReal := Ideal.ofBits .f32 0x00000000#32
/-- It is the extended real zero. -/
theorem zero_eq : zero = 0 := Ideal.ofBits_zero_f32

/-- The adjacency array with its diagonal set to one. -/
def selfLoop (A : SA.Idx → EReal) (i j : Fin 8192) : EReal := if i = j then one else A (ix2 i j)

/-- The reference's degree scaling: zero plus the row sum of the array with unit diagonal, to the power -1/2. -/
def degRef (A : SA.Idx → EReal) (i : Fin 8192) : EReal := Ideal.pow (zero + ∑ j : Fin 8192, selfLoop A i j) negHalf

/-- The reference's result at node i, feature c. -/
def outRefAt (A : SA.Idx → EReal) (x : SX.Idx → EReal) (W : SW.Idx → EReal) (b : SB.Idx → EReal) (i : Fin 8192) (c : Fin 128) : EReal :=
  ∑ j : Fin 8192, ((degRef A i * selfLoop A i j) * degRef A j) * lin x W b j c

/-- The reference's result array. -/
def outRef (A : SA.Idx → EReal) (x : SX.Idx → EReal) (W : SW.Idx → EReal) (b : SB.Idx → EReal) : SX.Idx → EReal :=
  fun idx => outRefAt A x W b (idx 0) (idx 1)

/-- A choice between two real numbers, read in the extended reals. -/
theorem ite_coe (p : Prop) [Decidable p] (u v : ℝ) :
    (if p then (u : EReal) else (v : EReal)) = ((if p then u else v : ℝ) : EReal) := by
  split <;> rfl

/-- The linear layer of real inputs is real. -/
theorem lin_real (x : SX.Idx → EReal) (W : SW.Idx → EReal) (b : SB.Idx → EReal)
    (hx : ∀ i, ∃ r : ℝ, x i = (r : EReal)) (hW : ∀ i, ∃ r : ℝ, W i = (r : EReal)) (hb : ∀ i, ∃ r : ℝ, b i = (r : EReal))
    (j : Fin 8192) (c : Fin 128) : ∃ r : ℝ, lin x W b j c = (r : EReal) :=
  IsReal.add (IsReal.sum _ fun k _ => IsReal.mul (hx _) (hW _)) (hb _)

/-- The two degree scalings are the same number when the adjacency entries are real. -/
theorem degRef_eq_deg (A : SA.Idx → EReal) (hA : ∀ i, ∃ r : ℝ, A i = (r : EReal)) (i : Fin 8192) :
    degRef A i = deg A i := by
  choose a ha using hA
  unfold degRef deg rowsum diag selfLoop
  congr 1
  rw [zero_eq, zero_add, one_eq]
  simp only [ha, ite_coe, sum_coe, ← EReal.coe_sub, ← EReal.coe_add]
  exact congrArg _ (real_rowsum (fun j => a (ix2 i j)) i)

/-- The degree scaling of a real adjacency array is real: a real base to a real exponent. -/
theorem deg_real (A : SA.Idx → EReal) (hA : ∀ i, ∃ r : ℝ, A i = (r : EReal)) (i : Fin 8192) :
    ∃ r : ℝ, deg A i = (r : EReal) := by
  obtain ⟨s, hs⟩ : IsReal (rowsum A i - diag A i + one) :=
    IsReal.add (IsReal.sub (IsReal.sum _ fun j _ => hA _) (hA _)) ⟨1, one_eq⟩
  obtain ⟨e, he⟩ := negHalf_real
  exact ⟨Real.rpow s e, by unfold deg; rw [hs, he]; rfl⟩

/-- Entry by entry, over real inputs, the reference's arrangement is the common value. -/
theorem outRefAt_eq_outAt (A : SA.Idx → EReal) (x : SX.Idx → EReal) (W : SW.Idx → EReal) (b : SB.Idx → EReal)
    (hA : ∀ i, ∃ r : ℝ, A i = (r : EReal)) (hx : ∀ i, ∃ r : ℝ, x i = (r : EReal))
    (hW : ∀ i, ∃ r : ℝ, W i = (r : EReal)) (hb : ∀ i, ∃ r : ℝ, b i = (r : EReal)) (i : Fin 8192) (c : Fin 128) :
    outRefAt A x W b i c = outAt A x W b i c := by
  unfold outRefAt outAt agg scaled
  simp only [degRef_eq_deg A hA]
  choose d hd using deg_real A hA
  choose h hh using lin_real x W b hx hW hb
  choose a ha using hA
  simp only [selfLoop, diag, hd, hh, ha, one_eq, ite_coe, ← EReal.coe_mul, sum_coe, ← EReal.coe_sub, ← EReal.coe_add]
  exact congrArg _ (real_law (fun j => a (ix2 i j)) d (fun j => h j c) i)

/-- Over real entries the reference's arrangement and the kernel's are the same array. -/
theorem outRef_eq_out (A : SA.Idx → EReal) (x : SX.Idx → EReal) (W : SW.Idx → EReal) (b : SB.Idx → EReal)
    (hA : ∀ i, ∃ r : ℝ, A i = (r : EReal)) (hx : ∀ i, ∃ r : ℝ, x i = (r : EReal))
    (hW : ∀ i, ∃ r : ℝ, W i = (r : EReal)) (hb : ∀ i, ∃ r : ℝ, b i = (r : EReal)) :
    outRef A x W b = out A x W b :=
  funext fun idx => outRefAt_eq_outAt A x W b hA hx hW hb (idx 0) (idx 1)

end Cert.GcnSpec
end
-- ==== Proof.RefValue.lean ====
/-
  The reference program's result, index by index on the extended reals.

  Reading the reference's operations at an index: h = x·W + b is the linear layer; the scatter is the adjacency array A
  with its diagonal set to one, Â; the row sums of Â from zero, to the power -1/2, are the degree scalings d; the two
  broadcasts lay d along rows and along columns, so the normalised array is (d_i · Â_ij) · d_j; and the last contraction
  gives Σ_j ((d_i · Â_ij) · d_j) · h_jc.  That is the reference's arrangement, which over real entries is the common
  value.
-/
import proofs.«157629_j28613072126264_1_alg».proof.Proof.Gen.ReferenceIdeal.Read
import proofs.«157629_j28613072126264_1_alg».proof.Proof.RefDiag
import proofs.«157629_j28613072126264_1_alg».proof.Proof.Algebra
import proofs.«157629_j28613072126264_1_alg».proof.Proof.Spec

noncomputable section

namespace Cert.ReferenceIdeal.RefValue

open Cert.ReferenceIdeal Cert.ReferenceIdeal.Read Cert.ReferenceIdeal.RefDiag Idealize.ShloMosaic Idealize.ShloMosaic.ValueIdx
open scoped BigOperators

/-- The linear layer: row j of x against column c of W, plus the bias at c. -/
theorem v3_read (x : (⟨S8192x128, .f32⟩ : BufTy).Contents (Elt Ideal)) (W : (⟨S128x128, .f32⟩ : BufTy).Contents (Elt Ideal))
    (b : (⟨S128, .f32⟩ : BufTy).Contents (Elt Ideal)) (j : Fin 8192) (c : Fin 128) :
    val_main_v3 (F := Ideal) x W b (ix2 j c) = Cert.GcnSpec.lin x W b j c := by
  rw [val_main_v3_apply, val_main_v0_apply, val_main_v2_apply, val_main_v1_apply]
  have e1 : ∀ k : Fin 128, lidx_main_v0 (ix2 j c) k = ix2 j k := fun k =>
    funext fun a => Fin.ext (by match a with | ⟨0, _⟩ => rfl | ⟨1, _⟩ => rfl)
  have e2 : ∀ k : Fin 128, ridx_main_v0 (ix2 j c) k = ix2 k c := fun k =>
    funext fun a => Fin.ext (by match a with | ⟨0, _⟩ => rfl | ⟨1, _⟩ => rfl)
  have e3 : idx_main_v1 (idx_main_v2 (ix2 j c)) = ix1 c :=
    funext fun a => Fin.ext (by match a with | ⟨0, _⟩ => rfl)
  simp only [e1, e2, e3]
  rfl

/-- The degree scaling: zero plus the row sum of the array with unit diagonal, to the power -1/2. -/
theorem v22_read (A : (⟨S8192x8192, .f32⟩ : BufTy).Contents (Elt Ideal)) (i : Fin 8192) :
    val_main_v22 (F := Ideal) A (ix1 i) = Cert.GcnSpec.degRef A i := by
  rw [val_main_v22_apply, val_main_v20_apply, val_main_v21_apply, val_main_cst_4_apply, val_main_cst_3_apply]
  have e : ∀ k : Fin 8192, idx_main_v20 (ix1 i) k = ix2 i k := fun k =>
    funext fun a => Fin.ext (by match a with | ⟨0, _⟩ => rfl | ⟨1, _⟩ => rfl)
  simp only [e, v19_apply]
  rfl

/-- The normalised array: the scaling of the row, the entry of the array with unit diagonal, the scaling of the column. -/
theorem v28_read (A : (⟨S8192x8192, .f32⟩ : BufTy).Contents (Elt Ideal)) (i k : Fin 8192) :
    val_main_v28 (F := Ideal) A (ix2 i k)
      = (Cert.GcnSpec.degRef A i * Cert.GcnSpec.selfLoop A i k) * Cert.GcnSpec.degRef A k := by
  rw [val_main_v28_apply, val_main_v25_apply, val_main_v24_apply, val_main_v23_apply, val_main_v27_apply,
    val_main_v26_apply, v19_apply]
  have e1 : idx_main_v23 (idx_main_v24 (ix2 i k)) = ix1 i :=
    funext fun a => Fin.ext (by match a with | ⟨0, _⟩ => rfl)
  have e2 : idx_main_v26 (idx_main_v27 (ix2 i k)) = ix1 k :=
    funext fun a => Fin.ext (by match a with | ⟨0, _⟩ => rfl)
  rw [e1, e2, v22_read, v22_read]
  rfl

/-- The reference's result is the reference's arrangement, whatever the entries. -/
theorem ref_eq_outRef (A : (⟨S8192x8192, .f32⟩ : BufTy).Contents (Elt Ideal)) (x : (⟨S8192x128, .f32⟩ : BufTy).Contents (Elt Ideal))
    (W : (⟨S128x128, .f32⟩ : BufTy).Contents (Elt Ideal)) (b : (⟨S128, .f32⟩ : BufTy).Contents (Elt Ideal)) :
    val_main_v29 (F := Ideal) A x W b = Cert.GcnSpec.outRef A x W b := by
  funext idx
  obtain ⟨i, c, rfl⟩ : ∃ (i : Fin 8192) (c : Fin 128), idx = ix2 i c := ⟨idx 0, idx 1, eq_ix2 idx⟩
  rw [val_main_v29_apply]
  show _ = Cert.GcnSpec.outRefAt A x W b i c
  unfold Cert.GcnSpec.outRefAt
  refine Finset.sum_congr rfl fun k _ => ?_
  have e1 : lidx_main_v29 (ix2 i c) k = ix2 i k :=
    funext fun a => Fin.ext (by match a with | ⟨0, _⟩ => rfl | ⟨1, _⟩ => rfl)
  have e2 : ridx_main_v29 (ix2 i c) k = ix2 k c :=
    funext fun a => Fin.ext (by match a with | ⟨0, _⟩ => rfl | ⟨1, _⟩ => rfl)
  rw [e1, e2, v28_read, v3_read]

/-- Over real input entries the reference's result is the common value. -/
theorem ref_eq_out (A : (⟨S8192x8192, .f32⟩ : BufTy).Contents (Elt Ideal)) (x : (⟨S8192x128, .f32⟩ : BufTy).Contents (Elt Ideal))
    (W : (⟨S128x128, .f32⟩ : BufTy).Contents (Elt Ideal)) (b : (⟨S128, .f32⟩ : BufTy).Contents (Elt Ideal))
    (hA : ∀ i, ∃ r : ℝ, A i = (r : EReal)) (hx : ∀ i, ∃ r : ℝ, x i = (r : EReal))
    (hW : ∀ i, ∃ r : ℝ, W i = (r : EReal)) (hb : ∀ i, ∃ r : ℝ, b i = (r : EReal)) :
    val_main_v29 (F := Ideal) A x W b = Cert.GcnSpec.out A x W b :=
  (ref_eq_outRef A x W b).trans (Cert.GcnSpec.outRef_eq_out A x W b hA hx hW hb)

end Cert.ReferenceIdeal.RefValue

end
-- ==== Proof.RefRun.lean ====
/-
  The reference program's run, with its result named by the common value.

  Every weakly fair execution of the reference terminates with its result buffer at the composed term of its
  operations applied to the launch contents of its four arguments, and the arguments unchanged.  Read index by index
  that term is the reference's arrangement of the graph-convolution layer, which for arguments whose entries are all
  real numbers is the common value.
-/
import proofs.«157629_j28613072126264_1_alg».proof.Proof.RefValue
import proofs.«157629_j28613072126264_1_alg».proof.Proof.Gen.ReferenceIdeal.Run

noncomputable section

namespace Cert.ReferenceIdeal.RefRun

open Cert.ReferenceIdeal Idealize.ShloMosaic Idealize.ShloMosaic.TcCoe Idealize.SL.Sem

/-- From any memory whose four argument arrays hold real numbers only, with zero counters: every weakly fair execution
    of the reference terminates with its result at the common value of the arguments' launch contents, and the
    arguments unchanged. -/
theorem ref_run (m : (ℓ : Loc nD τ sig) → Buf (Elt Ideal) ℓ) (ρ : Dev nD → PrngReg)
    (hfin : ∀ c : Dev nD,
      (∀ i, ∃ r : ℝ, (m ((c.tc : Thread nD τ).loc main_arg0) : (⟨S8192x8192, .f32⟩ : BufTy).Contents (Elt Ideal)) i = (r : EReal)) ∧
      (∀ i, ∃ r : ℝ, (m ((c.tc : Thread nD τ).loc main_arg1) : (⟨S8192x128, .f32⟩ : BufTy).Contents (Elt Ideal)) i = (r : EReal)) ∧
      (∀ i, ∃ r : ℝ, (m ((c.tc : Thread nD τ).loc main_arg2) : (⟨S128x128, .f32⟩ : BufTy).Contents (Elt Ideal)) i = (r : EReal)) ∧
      (∀ i, ∃ r : ℝ, (m ((c.tc : Thread nD τ).loc main_arg3) : (⟨S128, .f32⟩ : BufTy).Contents (Elt Ideal)) i = (r : EReal))) :
    θ_run (defs (F := Ideal)) (onTc (τ := τ) (main (F := Ideal))) ⟨m, fun _ => 0, ρ⟩ fun r => ∀ c : Dev nD,
      r.2.mem ((c.tc : Thread nD τ).loc main_v29)
          = Cert.GcnSpec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨(h c).1.trans ((Cert.ReferenceIdeal.Read.val_main_v29_eq _ _ _ _).trans
          (Cert.ReferenceIdeal.RefValue.ref_eq_out _ _ _ _ (hfin c).1 (hfin c).2.1 (hfin c).2.2.1 (hfin c).2.2.2)),
        (h c).2⟩)
    (Cert.ReferenceIdeal.Value.run (F := Ideal) m ρ)

end Cert.ReferenceIdeal.RefRun

end
-- ==== Proof.LibFiniteEntry.lean ====
/-
  An entry that passes the finiteness test is a real number.

  An extended real is a real number, +∞ or −∞; its absolute value is the larger of it and its negative, which for +∞
  and for −∞ is +∞. So an extended real whose absolute value is strictly below +∞ is a real number
  (`isReal_of_abs_lt_top`), and so is one for which the comparison "absolute value < the binary32 pattern of +∞"
  answers the bit 1 (`isReal_of_cmp`): the form in which a "every input is finite" precondition tests each entry.
-/
import Mathlib
import Idealize.ShloMosaic.PureOps.Ideal
import proofs.«157629_j28613072126264_1_alg».proof.Proof.LibRealArith

noncomputable section

namespace Cert.LibFiniteEntry

open Idealize.ShloMosaic Cert.LibRealArith

/-- The binary32 pattern of +∞. -/
theorem ofBits_inf : Ideal.ofBits .f32 0x7F800000#32 = ⊤ := by
  simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- The same, from the comparison's one-bit answer against the pattern of +∞. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  unfold Ideal.cmp at h
  simp [hn] at h

end Cert.LibFiniteEntry

end
-- ==== Proof.Finite.lean ====
/-
  From the precondition "every input entry is finite" to "every input entry is a real number".

  The precondition takes, for each of the four input arrays, the absolute value of every entry, compares it (strictly
  below) against the binary32 pattern of +∞, and takes the conjunction of the answers over every index; the four
  conjunctions are and-ed together.  When the result is the bit one, each of the four conjunctions is one, so each
  comparison answered one, and an extended real whose absolute value is strictly below +∞ is a real number.
-/
import proofs.«157629_j28613072126264_1_alg».proof.Pre_finite_inputs
import proofs.«157629_j28613072126264_1_alg».proof.Proof.Gen.Pre_finite_inputs
import proofs.«157629_j28613072126264_1_alg».proof.Proof.LibFiniteEntry
import Idealize.ShloMosaic.Lib.ReduceAll
import Idealize.ShloMosaic.Lib.ValueIdx
import Idealize.ShloMosaic.Lib.Pipeline.Value

noncomputable section
namespace Cert.GcnFinite
open Idealize.ShloMosaic Cert.LibRealArith Cert.LibFiniteEntry Cert.Pre_finite_inputs

/-- The shape with no axes has one index. -/
instance : Subsingleton S_.Idx := ⟨fun a b => funext fun d => d.elim0⟩

/-- One clause of the precondition: when the conjunction over every index of "absolute value below the pattern of +∞"
    answers one, every entry of the array is a real number. -/
theorem entries_real {s : Shape} {axes : List (Fin s.rank)} (x : FVec Ideal s .f32) (bound : FVec Ideal s .f32)
    (hbound : ∀ i, bound i = Ideal.ofBits .f32 0x7F800000#32)
    (init : IVec S_ 1) (h : s.ReducesTo axes S_) (hu : 0 < S_.numel)
    (e : Host.reduce IntOp.andi (cmpf .olt (Host.absf x) bound) init h hu ValueIdx.ix0 = 1#1) (i : s.Idx) :
    ∃ r : ℝ, x i = (r : EReal) := by
  have hi := Host.reduce_andi_all _ init h hu ValueIdx.ix0 e i
  refine isReal_of_cmp (x i) ?_
  rw [← hbound i]
  exact hi

/-- The bound every entry is compared against is the pattern of +∞, at every index. -/
theorem bound_apply {s : Shape} (hb : S_.BroadcastsInDim s (![] : Fin 0 → Fin s.rank)) (i : s.Idx) :
    broadcastInDim s ![] hb (constant (F := Ideal) S_ .f32 0x7F800000#32) i = Ideal.ofBits .f32 0x7F800000#32 :=
  broadcastInDim_apply _ hb _ i ValueIdx.ix0 (fun a => a.elim0)

/-- When the precondition answers one, every entry of the four input arrays is a real number. -/
theorem finite_of_pre [Cert.Pre_finite_inputs.Facts]
    (A : FVec Ideal S8192x8192 .f32) (x : FVec Ideal S8192x128 .f32) (W : FVec Ideal S128x128 .f32) (b : FVec Ideal S128 .f32)
    (h : Cert.Pre_finite_inputs.fn (F := Ideal) A x W b = (fun _ => 1#1)) :
    (∀ i, ∃ r : ℝ, A i = (r : EReal)) ∧ (∀ i, ∃ r : ℝ, x i = (r : EReal)) ∧ (∀ i, ∃ r : ℝ, W i = (r : EReal)) ∧
      (∀ i, ∃ r : ℝ, b i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨entries_real A _ (bound_apply _) _ _ _ h1, entries_real x _ (bound_apply _) _ _ _ h2,
    entries_real W _ (bound_apply _) _ _ _ h3, entries_real b _ (bound_apply _) _ _ _ h4⟩

end Cert.GcnFinite
end
-- ==== Proof.lean ====
/-
  The certificate's five claims.

  Both programs compute one layer of a graph convolution: with h = x·W + b, r_i the sum of row i of the
  adjacency array A, a_i its diagonal entry and d_i = (r_i - a_i + 1)^(-1/2), the result at node i and feature c is
  d_i · Σ_k A_ik d_k h_kc + d_i² (1 - a_i) h_ic. The kernel program takes two passes over A — a tiled pass that
  accumulates the row sums and picks out the diagonal, and a tiled product of A with the scaled features d·h,
  accumulated block by block — with the small operations between them on the host; its value is read off the
  run of its five segments with no finiteness (Spec.lean is its arrangement). The reference sets the diagonal of A
  to one, sums the rows, scales A on both sides and multiplies by h in one product; the two arrangements agree where
  every input entry is a real number, which is the precondition (distributing d_i over the row's sum and splitting
  off the diagonal term need it).

  The three frames: each kernel region's body is run case by case over the grid with its carried accumulators held at
  the recursion's value, the regions and the host stretches are chained from the launch memory, and no segment writes
  an argument. The idealization rewrote nothing, so the fourth claim is trivial.
-/
import proofs.«157629_j28613072126264_1_alg».proof.Defs
import proofs.«157629_j28613072126264_1_alg».proof.Proof.Gen.Kernel
import proofs.«157629_j28613072126264_1_alg».proof.Proof.Gen.KernelIdeal
import proofs.«157629_j28613072126264_1_alg».proof.Proof.Gen.ReferenceIdeal
import proofs.«157629_j28613072126264_1_alg».proof.Proof.Gen.Pre_finite_inputs
import proofs.«157629_j28613072126264_1_alg».proof.Proof.Gen.ReferenceIdeal.Run
import proofs.«157629_j28613072126264_1_alg».proof.Proof.Frame
import proofs.«157629_j28613072126264_1_alg».proof.Proof.BitsFrame
import proofs.«157629_j28613072126264_1_alg».proof.Proof.Reg0Body
import proofs.«157629_j28613072126264_1_alg».proof.Proof.Reg1Body
import proofs.«157629_j28613072126264_1_alg».proof.Proof.BitsReg0Body
import proofs.«157629_j28613072126264_1_alg».proof.Proof.BitsReg1Body
import proofs.«157629_j28613072126264_1_alg».proof.Proof.KernelValue
import proofs.«157629_j28613072126264_1_alg».proof.Proof.Val0Arr
import proofs.«157629_j28613072126264_1_alg».proof.Proof.Val1Arr
import proofs.«157629_j28613072126264_1_alg».proof.Proof.RefRun
import proofs.«157629_j28613072126264_1_alg».proof.Proof.Finite
import Idealize.ShloMosaic.Adequacy
import Idealize.ShloMosaic.Init

noncomputable section

namespace Cert.Proof

open Idealize.ShloMosaic Idealize.SL.Sem

/-- The word-level kernel program runs to the end and leaves its four arguments as launched. -/
theorem frame_kernel : Cert.frame_Kernel := fun m ρ _ =>
  (θ_run (Cert.Kernel.defs (F := Bits)) _ _).mono (fun _ h c => (h c).2)
    (Cert.Kernel.Hand.run_named (F := Bits) m ρ (fun V c => Cert.Kernel.Hand.body_obligation0 V c) (fun V c => Cert.Kernel.Hand.hin0 V c)
      (fun V c => Cert.Kernel.Hand.hout0 V c) (fun V c => Cert.Kernel.Hand.body_obligation1 V c) (fun V c => Cert.Kernel.Hand.hin1 V c)
      (fun V c => Cert.Kernel.Hand.hout1 V c))

/-- The idealized kernel program's run, its result buffer named. -/
theorem run_kernelIdeal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v23) = Cert.KernelIdeal.Hand.B5 m ρ c (Proc.devRef .tc Cert.KernelIdeal.main_v23)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  Cert.KernelIdeal.Hand.run_named (F := Ideal) m ρ (fun V c => Cert.KernelIdeal.Hand.body_obligation0 V c) (fun V c => Cert.KernelIdeal.Hand.hin0 V c)
    (fun V c => Cert.KernelIdeal.Hand.hout0 V c) (fun V c => Cert.KernelIdeal.Hand.body_obligation1 V c) (fun V c => Cert.KernelIdeal.Hand.hin1 V c)
    (fun V c => Cert.KernelIdeal.Hand.hout1 V c)

/-- The idealized kernel program runs to the end and leaves its four arguments as launched. -/
theorem frame_kernelIdeal : Cert.frame_KernelIdeal := fun m ρ _ =>
  (θ_run (Cert.KernelIdeal.defs (F := Ideal)) _ _).mono (fun _ h c => (h c).2) (run_kernelIdeal m ρ)

/-- The reference runs to the end and leaves its four arguments as launched. -/
theorem frame_reference : Cert.frame_ReferenceIdeal := fun m ρ _ =>
  (θ_run (Cert.ReferenceIdeal.defs (F := Ideal)) _ _).mono (fun _ h c => (h c).2) (Cert.ReferenceIdeal.Value.run (F := Ideal) m ρ)

/-- From memories that agree on the four arguments, all real numbers, both idealized programs end with the common
    value in their result buffers. -/
theorem algebraic : Cert.algebraic_KernelIdeal_ReferenceIdeal := by
  intro m ρ m' ρ' hpre hagree
  have hfin := fun c => Cert.GcnFinite.finite_of_pre _ _ _ _ (hpre c)
  refine ⟨fun c => Cert.GcnSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono (fun _ h c =>
      ⟨(h c).1.trans (Cert.KernelIdeal.Hand.kernel_value m ρ
          (fun V c i => congrFun (Cert.KernelIdeal.Hand.arrAt0_1 V c) i) (fun V c i => congrFun (Cert.KernelIdeal.Hand.arrAt0_2 V c) i)
          (fun V c i => (congrFun (Cert.KernelIdeal.Hand.arrAt1_2 V c) i).symm) c), (h c).2⟩) (run_kernelIdeal m ρ)
  · refine (θ_run (Cert.ReferenceIdeal.defs (F := Ideal)) _ _).mono (fun _ h c => ⟨?_, (h c).2⟩)
      (Cert.ReferenceIdeal.RefRun.ref_run m' ρ' (fun c => by
        rw [(hagree c).1, (hagree c).2.1, (hagree c).2.2.1, (hagree c).2.2.2]; exact hfin c))
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
